-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x64 .f32) (main_arg8 : FVec F S64 .f32) (main_arg9 : FVec F S64x1 .f32) (main_arg10 : FVec F S1 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S4096 32) (main_arg3 : FVec F S128x128 .f32) (main_arg4 : FVec F S128 .f32) (main_arg5 : FVec F S128x32 .f32) (main_arg6 : FVec F S32 .f32) (main_arg7 : FVec F S32x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S100000x32 : Shape := ⟨2, ![100000, 32]⟩
abbrev S4000x32 : Shape := ⟨2, ![4000, 32]⟩
abbrev S1600000x32 : Shape := ⟨2, ![1600000, 32]⟩
abbrev S25000x128 : Shape := ⟨2, ![25000, 128]⟩
abbrev S1x32 : Shape := ⟨2, ![1, 32]⟩
abbrev S4x32 : Shape := ⟨2, ![4, 32]⟩
abbrev S5000x128 : Shape := ⟨2, ![5000, 128]⟩
abbrev S4096x1 : Shape := ⟨2, ![4096, 1]⟩
abbrev S4096x32 : Shape := ⟨2, ![4096, 32]⟩
abbrev S1x64 : Shape := ⟨2, ![1, 64]⟩
abbrev S1x1 : Shape := ⟨2, ![1, 1]⟩
abbrev S4096x64 : Shape := ⟨2, ![4096, 64]⟩

abbrev nBuf : Space → Nat
  | .hbm => 82
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S1x128, .f32⟩
  | .hbm, ⟨42, _⟩ => ⟨S100000x128, .f32⟩
  | .hbm, ⟨43, _⟩ => ⟨S100000x1, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S1600000x1, .i32⟩
  | .hbm, ⟨57, _⟩ => ⟨S100000x32, .f32⟩
  | .hbm, ⟨58, _⟩ => ⟨S25000x128, .f32⟩
  | .hbm, ⟨59, _⟩ => ⟨S25000x128, .f32⟩
  | .hbm, ⟨60, _⟩ => ⟨S100000x1, .f32⟩
  | .hbm, ⟨61, _⟩ => ⟨S100000x32, .f32⟩
  | .hbm, ⟨62, _⟩ => ⟨S25000x128, .f32⟩
  | .hbm, ⟨63, _⟩ => ⟨S1x32, .f32⟩
  | .hbm, ⟨64, _⟩ => ⟨S4x32, .f32⟩
  | .hbm, ⟨65, _⟩ => ⟨S128, .f32⟩
  | .hbm, ⟨66, _⟩ => ⟨S1x128, .f32⟩
  | .hbm, ⟨67, _⟩ => ⟨S25000x128, .f32⟩
  | .hbm, ⟨68, _⟩ => ⟨S100000x32, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x32, .f32⟩
  | .hbm, ⟨78, _⟩ => ⟨S1x64, .f32⟩
  | .hbm, ⟨79, _⟩ => ⟨S1x1, .f32⟩
  | .hbm, ⟨80, _⟩ => ⟨S4096x1, .f32⟩
  | .hbm, ⟨81, _⟩ => ⟨S4096, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x32, .f32⟩
  | .local _ .vmem, ⟨19, _⟩ => ⟨S4000x1, .f32⟩
  | .local _ .vmem, ⟨20, _⟩ => ⟨S4000x1, .f32⟩
  | .local _ .vmem, ⟨21, _⟩ => ⟨S4000x32, .f32⟩
  | .local _ .vmem, ⟨22, _⟩ => ⟨S4000x32, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S4096x32, .f32⟩
  | .local _ .vmem, ⟨33, _⟩ => ⟨S32x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S4096x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x32_S128x32_0_0 : ∀ a, (![0, 0] : Fin 2 → Nat) a + S128x32.size a ≤ S128x32.size a
  h_S128x32 : 0 < S128x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S100000x32_S25000x128 : S100000x32.ShapeCasts S25000x128
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S25000x128_S100000x32 : S25000x128.ShapeCasts S100000x32
  bcast_S_S4096 : S_.BroadcastsInDim S4096 (![] : Fin 0 → Fin S4096.rank)
  bcast_S4096_S4096x1_0 : S4096.BroadcastsInDim S4096x1 (![0] : Fin 1 → Fin S4096x1.rank)
  shapeCasts_S64_S1x64 : S64.ShapeCasts S1x64
  shapeCasts_S1_S1x1 : S1.ShapeCasts S1x1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x32_S4000x32_1_0_0_1_n_n_wf : DotDims.WF S4000x128 S128x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x32_S4096x1_S4096x32_1_0_n_n_0_1_132_wf : GatherDims.WF S100000x32 S4096x1 S4096x32 [1] [0] [] [0] [] 1 ![1, 32]
  dot_S4096x32_S32x64_S4096x64_1_0_0_1_n_n_wf : DotDims.WF S4096x32 S32x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S100000x32.size a
  hwx2_3 : ∀ i : grid2.Coords, EltTy.bits .f32 = 32 ∨ (Rect.block (s := S100000x32) S4000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S25000x128.size a
  hwx3_1 : ∀ i : grid3.Coords, EltTy.bits .f32 = 32 ∨ (Rect.block (s := S25000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .f32 = 32 ∨ (Rect.block (s := S25000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S25000x128.size a
  hwx3_4 : ∀ i : grid3.Coords, EltTy.bits .f32 = 32 ∨ (Rect.block (s := S25000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x32.size a ≤ S4096x32.size a
  hwx4_0 : ∀ i : grid4.Coords, EltTy.bits .f32 = 32 ∨ (Rect.block (s := S4096x32) S4096x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S4096x1.size a ≤ S4096x1.size a
  hwx4_5 : ∀ i : grid4.Coords, EltTy.bits .f32 = 32 ∨ (Rect.block (s := S4096x1) S4096x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S4000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S4096x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S4096x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4096 : Shape := ⟨1, ![4096]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x32 : Shape := ⟨2, ![100000, 32]⟩
abbrev S1600000x32 : Shape := ⟨2, ![1600000, 32]⟩
abbrev S1x32 : Shape := ⟨2, ![1, 32]⟩
abbrev S4096x1 : Shape := ⟨2, ![4096, 1]⟩
abbrev S4096x32 : Shape := ⟨2, ![4096, 32]⟩
abbrev S4096x64 : Shape := ⟨2, ![4096, 64]⟩
abbrev S1x64 : Shape := ⟨2, ![1, 64]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S4096, .i32⟩
  | 3 => ⟨S128x128, .f32⟩
  | 4 => ⟨S128, .f32⟩
  | 5 => ⟨S128x32, .f32⟩
  | 6 => ⟨S32, .f32⟩
  | 7 => ⟨S32x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x32, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x1, .f32⟩
  | 112 => ⟨S1600000x32, .f32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S100000, .f32⟩
  | 119 => ⟨S100000x1, .f32⟩
  | 120 => ⟨S100000x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x128, .f32⟩

abbrev hbmTy0_1 (i : Nat) : BufTy := match i % 128 with
  | 0 => ⟨S100000x32, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096x32, .f32⟩
  | 10 => ⟨S4096x64, .f32⟩
  | 11 => ⟨S1x64, .f32⟩
  | 12 => ⟨S4096x64, .f32⟩
  | 13 => ⟨S4096x64, .f32⟩
  | 14 => ⟨S_, .f32⟩
  | 15 => ⟨S4096x64, .f32⟩
  | 16 => ⟨S4096x64, .f32⟩
  | 17 => ⟨S4096x1, .f32⟩
  | 18 => ⟨S1x1, .f32⟩
  | 19 => ⟨S4096x1, .f32⟩
  | 20 => ⟨S4096x1, .f32⟩
  | 21 => ⟨S4096, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_c_18 : Ref sig .tc := ⟨.hbm, 129, rfl⟩
abbrev main_v94 : Ref sig .tc := ⟨.hbm, 130, rfl⟩
abbrev main_v95 : Ref sig .tc := ⟨.hbm, 131, rfl⟩
abbrev main_c_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call2_cst : Ref sig .tc := ⟨.hbm, 142, rfl⟩
abbrev main_call2_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S4096 : S_.BroadcastsInDim S4096 (![] : Fin 0 → Fin S4096.rank)
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x32_S4096x1_S4096x32_1_0_n_n_0_1_132_wf : GatherDims.WF S100000x32 S4096x1 S4096x32 [1] [0] [] [0] [] 1 ![1, 32]
  dot_S4096x32_S32x64_S4096x64_1_0_0_1_n_n_wf : DotDims.WF S4096x32 S32x64 S4096x64 [1] [0] [0] [1] [] []
  dot_S4096x64_S64x1_S4096x1_1_0_0_1_n_n_wf : DotDims.WF S4096x64 S64x1 S4096x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S4096x1_S4096x32_1_0_n_n_0_1_132 : GatherDims S100000x32 S4096x1 S4096x32 where
  offsetDims := [1]
  collapsedSliceDims := [0]
  operandBatchingDims := []
  startIndicesBatchingDims := []
  startIndexMap := [0]
  indexVectorDim := 1
  sliceSizes := ![1, 32]
  wf := gather_S100000x32_S4096x1_S4096x32_1_0_n_n_0_1_132_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.KerRun.lean ====
/-
  The idealized kernel's run with its result named. @main is eleven segments: six stretches of host operations around
  five pallas_call regions. The contents of every buffer at each segment boundary are a fold from the launch memory
  (`Gen.W0` … `Gen.W11`): a stretch applies its operations, a region leaves each of its arrays at what its write-backs
  fold to and every other buffer as it was. Every weakly fair execution terminates with every unscoped buffer at the
  last boundary's contents; here that is read at the result buffer as well as at the arguments.
-/
import proofs.«113900_j64527588655724_2_alg».proof.Proof.Gen.KernelIdeal.Frame

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- Every weakly fair execution of @main terminates, nothing faulting, with the result buffer at the last boundary's
    contents and the argument arrays as launched. -/
theorem run_fold : θ_run defs (onTc (τ := τ) (main (F := F))) ⟨m, fun _ => 0, ρ⟩ (fun r => ∀ c : Dev nD,
      r.2.mem ((c.tc : Thread nD τ).loc main_v59) = W11 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v59 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KerRun

end
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibGcnLayer.lean ====
/-
  One layer of a degree-normalised graph convolution with an explicit self loop, a bias and a rectifier, read at a
  node n and a channel c, in the two arrangements a fused implementation and a plain one use. It is generic in the
  number of nodes N, of channels C and of edges E.

  H n c is the layer's dense output, s n the node's normalising factor, b c the bias. Sx, Dx, D are columns of E row
  numbers: the source rows as a row gather reads them (signed, clamped into the rows), the destination rows as a
  gather reads them, and the destination rows as the accumulating scatter reads them (signed; a number that is not a
  row adds nothing).

  * Scaled before and after:  max (s n · ((0 + Σ_{e lands at n} H(src e, c) · s(src e)) + H n c · s n) + b c) 0.
  * Scaled per edge:          max (((0 + Σ_{e lands at n} H(src e, c) · (s(src e) · s(dst e))) + (s n · s n) · H n c) + b c) 0.

  An edge that lands at n has dst e = n, so the second factor is s n throughout the sum; s n is nonnegative and not
  +∞, and such a factor distributes over any finite sum of extended reals, whatever H holds.
-/
import proofs.«113900_j64527588655724_2_alg».proof.Proof.LibNonnegDistrib
import proofs.«113900_j64527588655724_2_alg».proof.Proof.LibGatherRows
import Idealize.ShloMosaic.Lib.ValueIdx

noncomputable section

namespace Cert.GcnLayer

open Idealize.ShloMosaic Idealize.ShloMosaic.ValueIdx
open scoped BigOperators

variable {N C E : ℕ}

/-- The edges whose destination number, read signed, is the row `n`. -/
def landing (D : IVec ⟨2, ![E, 1]⟩ 32) (n : Fin N) : Finset (Fin E) :=
  Finset.univ.filter (fun i : Fin E => (D (ix2 i (0 : Fin 1))).toInt = (n.val : Int))

/-- The row a gather reads for edge `i`: the number read signed and clamped into the rows. -/
def rowOf (hN : 0 < N) (X : IVec ⟨2, ![E, 1]⟩ 32) (i : Fin E) : Fin N :=
  Cert.GatherRows.clampRow N hN (X (ix2 i (0 : Fin 1)))

/-- The layer with every row scaled by its node's factor before the neighbours are added up and the total scaled
    again afterwards. -/
def scaledTwice (hN : 0 < N) (s : Fin N → EReal) (Sx D : IVec ⟨2, ![E, 1]⟩ 32) (H : Fin N → Fin C → EReal)
    (b : Fin C → EReal) (n : Fin N) (c : Fin C) : EReal :=
  max (s n * ((0 + ∑ i ∈ landing D n, H (rowOf hN Sx i) c * s (rowOf hN Sx i)) + H n c * s n) + b c) 0

/-- The layer with every edge scaled by the product of its two end factors, plus the self loop. -/
def scaledPerEdge (hN : 0 < N) (s : Fin N → EReal) (Sx Dx D : IVec ⟨2, ![E, 1]⟩ 32) (H : Fin N → Fin C → EReal)
    (b : Fin C → EReal) (n : Fin N) (c : Fin C) : EReal :=
  max (((0 + ∑ i ∈ landing D n, H (rowOf hN Sx i) c * (s (rowOf hN Sx i) * s (rowOf hN Dx i))) + (s n * s n) * H n c) + b c) 0

/-- THE LAYER LAW: the two arrangements give the same element, for a factor that is nonnegative and not +∞ at every
    node, as soon as an edge that lands at `n` reads node `n` through `Dx`. -/
theorem scaledTwice_eq_scaledPerEdge (hN : 0 < N) (s : Fin N → EReal) (Sx Dx D : IVec ⟨2, ![E, 1]⟩ 32)
    (H : Fin N → Fin C → EReal) (b : Fin C → EReal)
    (hs : ∀ n, 0 ≤ s n ∧ s n ≠ ⊤)
    (hDx : ∀ (i : Fin E) (n : Fin N), (D (ix2 i (0 : Fin 1))).toInt = (n.val : Int) → rowOf hN Dx i = n)
    (n : Fin N) (c : Fin C) :
    scaledTwice hN s Sx D H b n c = scaledPerEdge hN s Sx Dx D H b n c := by
  unfold scaledTwice scaledPerEdge
  rw [Cert.NonnegDistrib.row_law (landing D n) (s n) (hs n).1 (hs n).2
    (fun i => H (rowOf hN Sx i) c) (fun i => s (rowOf hN Sx i)) (H n c), mul_comm (H n c) (s n * s n)]
  congr 4
  refine Finset.sum_congr rfl fun i hi => ?_
  rw [hDx i n (Finset.mem_filter.mp hi).2]

/-- A dense layer: row `n` of `X` against column `c` of `W`. -/
def dense {K : ℕ} (X : Fin N → Fin K → EReal) (W : Fin K → Fin C → EReal) (n : Fin N) (c : Fin C) : EReal :=
  ∑ k : Fin K, X n k * W k c

/-- A two-layer perceptron head with one output, on row `q` of `Q`: `relu (Q · W₁ + b₁) · W₂ + b₂`. -/
def head {M A B : ℕ} (Q : Fin M → Fin A → EReal) (W₁ : Fin A → Fin B → EReal) (b₁ : Fin B → EReal)
    (W₂ : Fin B → EReal) (b₂ : EReal) (q : Fin M) : EReal :=
  (∑ k : Fin B, max ((∑ j : Fin A, Q q j * W₁ j k) + b₁ k) 0 * W₂ k) + b₂

/-- Two layers (scaled before and after), the rows `Qx` names read back, and the head. -/
def netTwice {K C₁ C₂ M A B : ℕ} (hN : 0 < N) (s : Fin N → EReal) (Sx D : IVec ⟨2, ![E, 1]⟩ 32) (Qx : IVec ⟨2, ![M, 1]⟩ 32)
    (x : Fin N → Fin K → EReal) (W1 : Fin K → Fin C₁ → EReal) (b1 : Fin C₁ → EReal)
    (W2 : Fin C₁ → Fin C₂ → EReal) (b2 : Fin C₂ → EReal)
    (Wm1 : Fin C₂ → Fin B → EReal) (bm1 : Fin B → EReal) (Wm2 : Fin B → EReal) (bm2 : EReal) (q : Fin M) : EReal :=
  head (fun q j => scaledTwice hN s Sx D (dense (scaledTwice hN s Sx D (dense x W1) b1) W2) b2
      (Cert.GatherRows.clampRow N hN (Qx (ix2 q (0 : Fin 1)))) j) Wm1 bm1 Wm2 bm2 q

/-- The same network with each layer scaled per edge. -/
def netPerEdge {K C₁ C₂ M A B : ℕ} (hN : 0 < N) (s : Fin N → EReal) (Sx Dx D : IVec ⟨2, ![E, 1]⟩ 32) (Qx : IVec ⟨2, ![M, 1]⟩ 32)
    (x : Fin N → Fin K → EReal) (W1 : Fin K → Fin C₁ → EReal) (b1 : Fin C₁ → EReal)
    (W2 : Fin C₁ → Fin C₂ → EReal) (b2 : Fin C₂ → EReal)
    (Wm1 : Fin C₂ → Fin B → EReal) (bm1 : Fin B → EReal) (Wm2 : Fin B → EReal) (bm2 : EReal) (q : Fin M) : EReal :=
  head (fun q j => scaledPerEdge hN s Sx Dx D (dense (scaledPerEdge hN s Sx Dx D (dense x W1) b1) W2) b2
      (Cert.GatherRows.clampRow N hN (Qx (ix2 q (0 : Fin 1)))) j) Wm1 bm1 Wm2 bm2 q

/-- The two networks agree, by the layer law applied to each layer. -/
theorem netTwice_eq_netPerEdge {K C₁ C₂ M A B : ℕ} (hN : 0 < N) (s : Fin N → EReal) (Sx Dx D : IVec ⟨2, ![E, 1]⟩ 32)
    (Qx : IVec ⟨2, ![M, 1]⟩ 32) (x : Fin N → Fin K → EReal) (W1 : Fin K → Fin C₁ → EReal) (b1 : Fin C₁ → EReal)
    (W2 : Fin C₁ → Fin C₂ → EReal) (b2 : Fin C₂ → EReal)
    (Wm1 : Fin C₂ → Fin B → EReal) (bm1 : Fin B → EReal) (Wm2 : Fin B → EReal) (bm2 : EReal)
    (hs : ∀ n, 0 ≤ s n ∧ s n ≠ ⊤)
    (hDx : ∀ (i : Fin E) (n : Fin N), (D (ix2 i (0 : Fin 1))).toInt = (n.val : Int) → rowOf hN Dx i = n) (q : Fin M) :
    netTwice (A := A) hN s Sx D Qx x W1 b1 W2 b2 Wm1 bm1 Wm2 bm2 q
      = netPerEdge (A := A) hN s Sx Dx D Qx x W1 b1 W2 b2 Wm1 bm1 Wm2 bm2 q := by
  unfold netTwice netPerEdge
  have h1 : scaledTwice hN s Sx D (dense x W1) b1 = scaledPerEdge hN s Sx Dx D (dense x W1) b1 :=
    funext fun n => funext fun c => scaledTwice_eq_scaledPerEdge hN s Sx Dx D _ b1 hs hDx n c
  rw [h1]
  have h2 : scaledTwice hN s Sx D (dense (scaledPerEdge hN s Sx Dx D (dense x W1) b1) W2) b2
      = scaledPerEdge hN s Sx Dx D (dense (scaledPerEdge hN s Sx Dx D (dense x W1) b1) W2) b2 :=
    funext fun n => funext fun c => scaledTwice_eq_scaledPerEdge hN s Sx Dx D _ b2 hs hDx n c
  rw [h2]

/-- A destination number that is a row is read as that row by a gather that first adds the row count to a negative
    number: the number is not negative, so it is kept, and clamping keeps a row. -/
theorem rowOf_of_toInt (hN : 0 < N) (X : IVec ⟨2, ![E, 1]⟩ 32) (i : Fin E) (n : Fin N)
    (h : (X (ix2 i (0 : Fin 1))).toInt = (n.val : Int)) : rowOf hN X i = n :=
  Cert.GatherRows.clampRow_of_toInt hN _ n h

end Cert.GcnLayer

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnBroadcast.lean ====
/-
  The keepdims forms of a per-row scalar, read at an index: a column broadcast over the lanes, and a vector
  reshaped to a column.
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's one column at row `p`
    (the keepdims form of a per-row scalar spread over the row). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`
    (the keepdims form of a per-row reduction's result). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnBroadcast
-- ==== Proof.KerBoundary.lean ====
import proofs.«113900_j64527588655724_2_alg».proof.Proof.Gen.KernelIdeal.Frame
import proofs.«113900_j64527588655724_2_alg».proof.Proof.LibGcnLayer
import proofs.«113900_j64527588655724_2_alg».proof.Proof.LibSegmentSum
import proofs.«113900_j64527588655724_2_alg».proof.Proof.LibSegmentDims
import proofs.«113900_j64527588655724_2_alg».proof.Proof.LibGatherRows
import proofs.«113900_j64527588655724_2_alg».proof.Proof.LibDenseRows
import proofs.«113900_j64527588655724_2_alg».proof.Proof.LibColumnBroadcast
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

/-
  The idealized kernel's buffers at each boundary between the segments of @main, as whole arrays: the source and
  destination row numbers and the normalising factor (one over the square root of a node's edge count plus one), which
  the first stretch of host operations computes and every later segment leaves alone; the argument arrays, which nothing
  writes; and, after each later stretch, what it hands to the next region — the neighbourhood sum (rows gathered at the
  sources and added up at the destinations), the factor laid out as a column or spread over a lane-dense layout, the
  biases as rows — in terms of what the region before it left.
-/
namespace Cert.KerFold

open Cert.KernelIdeal Cert.KernelIdeal.Gen
open Idealize.ShloMosaic Idealize.ShloMosaic.TcCoe Idealize.ShloMosaic.ValueIdx Idealize.ShloMosaic.StableHlo
open Idealize.SL.Sem
open scoped BigOperators

abbrev Edges := (⟨S2x1600000, .i32⟩ : BufTy).Contents (Elt Ideal)
abbrev Queries := (⟨S4096, .i32⟩ : BufTy).Contents (Elt Ideal)

/-- The source row numbers: row 0 of the edge list. -/
def srcK (a1 : Edges) : IVec S1600000 32 :=
  shapeCast _ (extractStridedSlice S1x1600000 ![0, 0] a1 slices_S2x1600000_S1x1600000_0_0) shapeCasts_S1x1600000_S1600000
/-- The destination row numbers: row 1 of the edge list. -/
def dstK (a1 : Edges) : IVec S1600000 32 :=
  shapeCast _ (extractStridedSlice S1x1600000 ![1, 0] a1 slices_S2x1600000_S1x1600000_1_0) shapeCasts_S1x1600000_S1600000
/-- The destination numbers as the accumulating scatter's index column. -/
def DK (a1 : Edges) : IVec S1600000x1 32 :=
  broadcastInDim S1600000x1 ![0] bcast_S1600000_S1600000x1_0 (dstK a1)
/-- The source numbers as a gather's index column: a negative number has the row count added first. -/
def SxK (a1 : Edges) : IVec S1600000x1 32 :=
  broadcastInDim S1600000x1 ![0] bcast_S1600000_S1600000x1_0
    (select (cmpi .slt (srcK a1) (broadcastInDim S1600000 ![] bcast_S_S1600000 (constantI S_ 32 0#32)))
      (addi (srcK a1) (broadcastInDim S1600000 ![] bcast_S_S1600000 (constantI S_ 32 100000#32))) (srcK a1))
/-- The query numbers as the last gather's index column. -/
def QxK (a2 : Queries) : IVec S4096x1 32 :=
  broadcastInDim S4096x1 ![0] bcast_S4096_S4096x1_0
    (select (cmpi .slt a2 (broadcastInDim S4096 ![] bcast_S_S4096 (constantI S_ 32 0#32)))
      (addi a2 (broadcastInDim S4096 ![] bcast_S_S4096 (constantI S_ 32 100000#32))) a2)
/-- The normalising factor of every node: one over the square root of (the number of edges landing there, plus one). -/
def dinvK (a1 : Edges) : FVec Ideal S100000 .f32 :=
  Host.rsqrt (addf (Host.scatterAdd scatter_S100000_S1600000x1_S1600000_n_0_0_1
      (broadcastInDim S100000 ![] bcast_S_S100000 (constant (F := Ideal) S_ .f32 0x00000000#32)) (DK a1)
      (broadcastInDim S1600000 ![] bcast_S_S1600000 (constant (F := Ideal) S_ .f32 0x3F800000#32)))
    (broadcastInDim S100000 ![] bcast_S_S100000 (constant (F := Ideal) S_ .f32 0x3F800000#32)))

variable (m : (ℓ : Loc nD τ sig) → Buf (Elt Ideal) ℓ) (ρ : Dev nD → PrngReg) (c : Dev nD)

/-! ## Stretch 0: the index rows and the normalising factor -/

theorem W1_v1 : W1 m ρ c (Proc.devRef .tc main_v1) = srcK (m ((c : Thread nD τ).loc main_arg1)) := by
  dsimp only [W1, hostOps0]; after_results; rfl
theorem W1_v3 : W1 m ρ c (Proc.devRef .tc main_v3) = dstK (m ((c : Thread nD τ).loc main_arg1)) := by
  dsimp only [W1, hostOps0]; after_results; rfl
theorem W1_v10 : W1 m ρ c (Proc.devRef .tc main_v10) = dinvK (m ((c : Thread nD τ).loc main_arg1)) := by
  dsimp only [W1, hostOps0]; after_results; rfl
theorem W1_v11 : W1 m ρ c (Proc.devRef .tc main_v11) = shapeCast S100000x1 (dinvK (m ((c : Thread nD τ).loc main_arg1))) shapeCasts_S100000_S100000x1 := by
  dsimp only [W1, hostOps0]; after_results; rfl

/-! ## What survives a segment: the index rows, the normalising factor and the arguments, boundary by boundary.
    A stretch leaves a buffer it does not write; a region leaves a buffer that is none of its windows' arrays. -/

theorem W2_v1 : W2 m ρ c (Proc.devRef .tc main_v1) = srcK (m ((c : Thread nD τ).loc main_arg1)) :=
  (W2_of_ne m ρ c main_v1 (by decide)).trans (W1_v1 m ρ c)
theorem W3_v1 : W3 m ρ c (Proc.devRef .tc main_v1) = srcK (m ((c : Thread nD τ).loc main_arg1)) :=
  (by dsimp only [W3, hostOps1]; after_results : W3 m ρ c (Proc.devRef .tc main_v1) = W2 m ρ c (Proc.devRef .tc main_v1)).trans (W2_v1 m ρ c)
theorem W4_v1 : W4 m ρ c (Proc.devRef .tc main_v1) = srcK (m ((c : Thread nD τ).loc main_arg1)) :=
  (W4_of_ne m ρ c main_v1 (by decide)).trans (W3_v1 m ρ c)
theorem W5_v1 : W5 m ρ c (Proc.devRef .tc main_v1) = srcK (m ((c : Thread nD τ).loc main_arg1)) :=
  (by dsimp only [W5, hostOps2]; after_results : W5 m ρ c (Proc.devRef .tc main_v1) = W4 m ρ c (Proc.devRef .tc main_v1)).trans (W4_v1 m ρ c)
theorem W6_v1 : W6 m ρ c (Proc.devRef .tc main_v1) = srcK (m ((c : Thread nD τ).loc main_arg1)) :=
  (W6_of_ne m ρ c main_v1 (by decide)).trans (W5_v1 m ρ c)
theorem W2_v3 : W2 m ρ c (Proc.devRef .tc main_v3) = dstK (m ((c : Thread nD τ).loc main_arg1)) :=
  (W2_of_ne m ρ c main_v3 (by decide)).trans (W1_v3 m ρ c)
theorem W3_v3 : W3 m ρ c (Proc.devRef .tc main_v3) = dstK (m ((c : Thread nD τ).loc main_arg1)) :=
  (by dsimp only [W3, hostOps1]; after_results : W3 m ρ c (Proc.devRef .tc main_v3) = W2 m ρ c (Proc.devRef .tc main_v3)).trans (W2_v3 m ρ c)
theorem W4_v3 : W4 m ρ c (Proc.devRef .tc main_v3) = dstK (m ((c : Thread nD τ).loc main_arg1)) :=
  (W4_of_ne m ρ c main_v3 (by decide)).trans (W3_v3 m ρ c)
theorem W5_v3 : W5 m ρ c (Proc.devRef .tc main_v3) = dstK (m ((c : Thread nD τ).loc main_arg1)) :=
  (by dsimp only [W5, hostOps2]; after_results : W5 m ρ c (Proc.devRef .tc main_v3) = W4 m ρ c (Proc.devRef .tc main_v3)).trans (W4_v3 m ρ c)
theorem W6_v3 : W6 m ρ c (Proc.devRef .tc main_v3) = dstK (m ((c : Thread nD τ).loc main_arg1)) :=
  (W6_of_ne m ρ c main_v3 (by decide)).trans (W5_v3 m ρ c)
theorem W2_v10 : W2 m ρ c (Proc.devRef .tc main_v10) = dinvK (m ((c : Thread nD τ).loc main_arg1)) :=
  (W2_of_ne m ρ c main_v10 (by decide)).trans (W1_v10 m ρ c)
theorem W3_v10 : W3 m ρ c (Proc.devRef .tc main_v10) = dinvK (m ((c : Thread nD τ).loc main_arg1)) :=
  (by dsimp only [W3, hostOps1]; after_results : W3 m ρ c (Proc.devRef .tc main_v10) = W2 m ρ c (Proc.devRef .tc main_v10)).trans (W2_v10 m ρ c)
theorem W4_v10 : W4 m ρ c (Proc.devRef .tc main_v10) = dinvK (m ((c : Thread nD τ).loc main_arg1)) :=
  (W4_of_ne m ρ c main_v10 (by decide)).trans (W3_v10 m ρ c)
theorem W5_v10 : W5 m ρ c (Proc.devRef .tc main_v10) = dinvK (m ((c : Thread nD τ).loc main_arg1)) :=
  (by dsimp only [W5, hostOps2]; after_results : W5 m ρ c (Proc.devRef .tc main_v10) = W4 m ρ c (Proc.devRef .tc main_v10)).trans (W4_v10 m ρ c)
theorem W6_v10 : W6 m ρ c (Proc.devRef .tc main_v10) = dinvK (m ((c : Thread nD τ).loc main_arg1)) :=
  (W6_of_ne m ρ c main_v10 (by decide)).trans (W5_v10 m ρ c)

theorem W1_arg0 : W1 m ρ c (Proc.devRef .tc main_arg0) = (m ((c : Thread nD τ).loc main_arg0)) :=
  (by dsimp only [W1, hostOps0]; after_results : W1 m ρ c (Proc.devRef .tc main_arg0) = W0 m ρ c (Proc.devRef .tc main_arg0)).trans (rfl)
theorem W1_arg3 : W1 m ρ c (Proc.devRef .tc main_arg3) = (m ((c : Thread nD τ).loc main_arg3)) :=
  (by dsimp only [W1, hostOps0]; after_results : W1 m ρ c (Proc.devRef .tc main_arg3) = W0 m ρ c (Proc.devRef .tc main_arg3)).trans (rfl)
theorem W1_arg4 : W1 m ρ c (Proc.devRef .tc main_arg4) = (m ((c : Thread nD τ).loc main_arg4)) :=
  (by dsimp only [W1, hostOps0]; after_results : W1 m ρ c (Proc.devRef .tc main_arg4) = W0 m ρ c (Proc.devRef .tc main_arg4)).trans (rfl)
theorem W2_arg4 : W2 m ρ c (Proc.devRef .tc main_arg4) = (m ((c : Thread nD τ).loc main_arg4)) :=
  (W2_of_ne m ρ c main_arg4 (by decide)).trans (W1_arg4 m ρ c)
theorem W1_arg5 : W1 m ρ c (Proc.devRef .tc main_arg5) = (m ((c : Thread nD τ).loc main_arg5)) :=
  (by dsimp only [W1, hostOps0]; after_results : W1 m ρ c (Proc.devRef .tc main_arg5) = W0 m ρ c (Proc.devRef .tc main_arg5)).trans (rfl)
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (by dsimp only [W3, hostOps1]; after_results : W3 m ρ c (Proc.devRef .tc main_arg5) = W2 m ρ c (Proc.devRef .tc main_arg5)).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (by dsimp only [W5, hostOps2]; after_results : W5 m ρ c (Proc.devRef .tc main_arg5) = W4 m ρ c (Proc.devRef .tc main_arg5)).trans (W4_arg5 m ρ c)
theorem W1_arg6 : W1 m ρ c (Proc.devRef .tc main_arg6) = (m ((c : Thread nD τ).loc main_arg6)) :=
  (by dsimp only [W1, hostOps0]; after_results : W1 m ρ c (Proc.devRef .tc main_arg6) = W0 m ρ c (Proc.devRef .tc main_arg6)).trans (rfl)
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (by dsimp only [W3, hostOps1]; after_results : W3 m ρ c (Proc.devRef .tc main_arg6) = W2 m ρ c (Proc.devRef .tc main_arg6)).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (by dsimp only [W5, hostOps2]; after_results : W5 m ρ c (Proc.devRef .tc main_arg6) = W4 m ρ c (Proc.devRef .tc main_arg6)).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W1_arg2 : W1 m ρ c (Proc.devRef .tc main_arg2) = (m ((c : Thread nD τ).loc main_arg2)) :=
  (by dsimp only [W1, hostOps0]; after_results : W1 m ρ c (Proc.devRef .tc main_arg2) = W0 m ρ c (Proc.devRef .tc main_arg2)).trans (rfl)
theorem W2_arg2 : W2 m ρ c (Proc.devRef .tc main_arg2) = (m ((c : Thread nD τ).loc main_arg2)) :=
  (W2_of_ne m ρ c main_arg2 (by decide)).trans (W1_arg2 m ρ c)
theorem W3_arg2 : W3 m ρ c (Proc.devRef .tc main_arg2) = (m ((c : Thread nD τ).loc main_arg2)) :=
  (by dsimp only [W3, hostOps1]; after_results : W3 m ρ c (Proc.devRef .tc main_arg2) = W2 m ρ c (Proc.devRef .tc main_arg2)).trans (W2_arg2 m ρ c)
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) :=
  (by dsimp only [W5, hostOps2]; after_results : W5 m ρ c (Proc.devRef .tc main_arg2) = W4 m ρ c (Proc.devRef .tc main_arg2)).trans (W4_arg2 m ρ c)
theorem W6_arg2 : W6 m ρ c (Proc.devRef .tc main_arg2) = (m ((c : Thread nD τ).loc main_arg2)) :=
  (W6_of_ne m ρ c main_arg2 (by decide)).trans (W5_arg2 m ρ c)
theorem W7_arg2 : W7 m ρ c (Proc.devRef .tc main_arg2) = (m ((c : Thread nD τ).loc main_arg2)) :=
  (by dsimp only [W7, hostOps3]; after_results : W7 m ρ c (Proc.devRef .tc main_arg2) = W6 m ρ c (Proc.devRef .tc main_arg2)).trans (W6_arg2 m ρ c)
theorem W8_arg2 : W8 m ρ c (Proc.devRef .tc main_arg2) = (m ((c : Thread nD τ).loc main_arg2)) :=
  (W8_of_ne m ρ c main_arg2 (by decide)).trans (W7_arg2 m ρ c)
theorem W1_arg8 : W1 m ρ c (Proc.devRef .tc main_arg8) = (m ((c : Thread nD τ).loc main_arg8)) :=
  (by dsimp only [W1, hostOps0]; after_results : W1 m ρ c (Proc.devRef .tc main_arg8) = W0 m ρ c (Proc.devRef .tc main_arg8)).trans (rfl)
theorem W2_arg8 : W2 m ρ c (Proc.devRef .tc main_arg8) = (m ((c : Thread nD τ).loc main_arg8)) :=
  (W2_of_ne m ρ c main_arg8 (by decide)).trans (W1_arg8 m ρ c)
theorem W3_arg8 : W3 m ρ c (Proc.devRef .tc main_arg8) = (m ((c : Thread nD τ).loc main_arg8)) :=
  (by dsimp only [W3, hostOps1]; after_results : W3 m ρ c (Proc.devRef .tc main_arg8) = W2 m ρ c (Proc.devRef .tc main_arg8)).trans (W2_arg8 m ρ c)
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) :=
  (by dsimp only [W5, hostOps2]; after_results : W5 m ρ c (Proc.devRef .tc main_arg8) = W4 m ρ c (Proc.devRef .tc main_arg8)).trans (W4_arg8 m ρ c)
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) :=
  (by dsimp only [W7, hostOps3]; after_results : W7 m ρ c (Proc.devRef .tc main_arg8) = W6 m ρ c (Proc.devRef .tc main_arg8)).trans (W6_arg8 m ρ c)
theorem W8_arg8 : W8 m ρ c (Proc.devRef .tc main_arg8) = (m ((c : Thread nD τ).loc main_arg8)) :=
  (W8_of_ne m ρ c main_arg8 (by decide)).trans (W7_arg8 m ρ c)
theorem W1_arg10 : W1 m ρ c (Proc.devRef .tc main_arg10) = (m ((c : Thread nD τ).loc main_arg10)) :=
  (by dsimp only [W1, hostOps0]; after_results : W1 m ρ c (Proc.devRef .tc main_arg10) = W0 m ρ c (Proc.devRef .tc main_arg10)).trans (rfl)
theorem W2_arg10 : W2 m ρ c (Proc.devRef .tc main_arg10) = (m ((c : Thread nD τ).loc main_arg10)) :=
  (W2_of_ne m ρ c main_arg10 (by decide)).trans (W1_arg10 m ρ c)
theorem W3_arg10 : W3 m ρ c (Proc.devRef .tc main_arg10) = (m ((c : Thread nD τ).loc main_arg10)) :=
  (by dsimp only [W3, hostOps1]; after_results : W3 m ρ c (Proc.devRef .tc main_arg10) = W2 m ρ c (Proc.devRef .tc main_arg10)).trans (W2_arg10 m ρ c)
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) :=
  (by dsimp only [W5, hostOps2]; after_results : W5 m ρ c (Proc.devRef .tc main_arg10) = W4 m ρ c (Proc.devRef .tc main_arg10)).trans (W4_arg10 m ρ c)
theorem W6_arg10 : W6 m ρ c (Proc.devRef .tc main_arg10) = (m ((c : Thread nD τ).loc main_arg10)) :=
  (W6_of_ne m ρ c main_arg10 (by decide)).trans (W5_arg10 m ρ c)
theorem W7_arg10 : W7 m ρ c (Proc.devRef .tc main_arg10) = (m ((c : Thread nD τ).loc main_arg10)) :=
  (by dsimp only [W7, hostOps3]; after_results : W7 m ρ c (Proc.devRef .tc main_arg10) = W6 m ρ c (Proc.devRef .tc main_arg10)).trans (W6_arg10 m ρ c)
theorem W8_arg10 : W8 m ρ c (Proc.devRef .tc main_arg10) = (m ((c : Thread nD τ).loc main_arg10)) :=
  (W8_of_ne m ρ c main_arg10 (by decide)).trans (W7_arg10 m ρ c)
theorem W1_arg7 : W1 m ρ c (Proc.devRef .tc main_arg7) = (m ((c : Thread nD τ).loc main_arg7)) :=
  (by dsimp only [W1, hostOps0]; after_results : W1 m ρ c (Proc.devRef .tc main_arg7) = W0 m ρ c (Proc.devRef .tc main_arg7)).trans (rfl)
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (by dsimp only [W3, hostOps1]; after_results : W3 m ρ c (Proc.devRef .tc main_arg7) = W2 m ρ c (Proc.devRef .tc main_arg7)).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (by dsimp only [W5, hostOps2]; after_results : W5 m ρ c (Proc.devRef .tc main_arg7) = W4 m ρ c (Proc.devRef .tc main_arg7)).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (by dsimp only [W7, hostOps3]; after_results : W7 m ρ c (Proc.devRef .tc main_arg7) = W6 m ρ c (Proc.devRef .tc main_arg7)).trans (W6_arg7 m ρ c)
theorem W8_arg7 : W8 m ρ c (Proc.devRef .tc main_arg7) = (m ((c : Thread nD τ).loc main_arg7)) :=
  (W8_of_ne m ρ c main_arg7 (by decide)).trans (W7_arg7 m ρ c)
theorem W9_arg7 : W9 m ρ c (Proc.devRef .tc main_arg7) = (m ((c : Thread nD τ).loc main_arg7)) :=
  (by dsimp only [W9, hostOps4]; after_results : W9 m ρ c (Proc.devRef .tc main_arg7) = W8 m ρ c (Proc.devRef .tc main_arg7)).trans (W8_arg7 m ρ c)
theorem W1_arg9 : W1 m ρ c (Proc.devRef .tc main_arg9) = (m ((c : Thread nD τ).loc main_arg9)) :=
  (by dsimp only [W1, hostOps0]; after_results : W1 m ρ c (Proc.devRef .tc main_arg9) = W0 m ρ c (Proc.devRef .tc main_arg9)).trans (rfl)
theorem W2_arg9 : W2 m ρ c (Proc.devRef .tc main_arg9) = (m ((c : Thread nD τ).loc main_arg9)) :=
  (W2_of_ne m ρ c main_arg9 (by decide)).trans (W1_arg9 m ρ c)
theorem W3_arg9 : W3 m ρ c (Proc.devRef .tc main_arg9) = (m ((c : Thread nD τ).loc main_arg9)) :=
  (by dsimp only [W3, hostOps1]; after_results : W3 m ρ c (Proc.devRef .tc main_arg9) = W2 m ρ c (Proc.devRef .tc main_arg9)).trans (W2_arg9 m ρ c)
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) :=
  (by dsimp only [W5, hostOps2]; after_results : W5 m ρ c (Proc.devRef .tc main_arg9) = W4 m ρ c (Proc.devRef .tc main_arg9)).trans (W4_arg9 m ρ c)
theorem W6_arg9 : W6 m ρ c (Proc.devRef .tc main_arg9) = (m ((c : Thread nD τ).loc main_arg9)) :=
  (W6_of_ne m ρ c main_arg9 (by decide)).trans (W5_arg9 m ρ c)
theorem W7_arg9 : W7 m ρ c (Proc.devRef .tc main_arg9) = (m ((c : Thread nD τ).loc main_arg9)) :=
  (by dsimp only [W7, hostOps3]; after_results : W7 m ρ c (Proc.devRef .tc main_arg9) = W6 m ρ c (Proc.devRef .tc main_arg9)).trans (W6_arg9 m ρ c)
theorem W8_arg9 : W8 m ρ c (Proc.devRef .tc main_arg9) = (m ((c : Thread nD τ).loc main_arg9)) :=
  (W8_of_ne m ρ c main_arg9 (by decide)).trans (W7_arg9 m ρ c)
theorem W9_arg9 : W9 m ρ c (Proc.devRef .tc main_arg9) = (m ((c : Thread nD τ).loc main_arg9)) :=
  (by dsimp only [W9, hostOps4]; after_results : W9 m ρ c (Proc.devRef .tc main_arg9) = W8 m ρ c (Proc.devRef .tc main_arg9)).trans (W8_arg9 m ρ c)

/-! ## Stretch 1: the first layer's neighbourhood sum, the factor as a column, the bias as a row -/

theorem W3_v22 : W3 m ρ c (Proc.devRef .tc main_v22) =
    Host.scatterAdd scatter_S100000x128_S1600000x1_S1600000x128_1_0_0_1 (broadcastInDim S100000x128 ![] bcast_S_S100000x128 (constant (F := Ideal) S_ .f32 0x00000000#32)) (DK (m ((c : Thread nD τ).loc main_arg1)))
      (Host.gather gather_S100000x128_S1600000x1_S1600000x128_1_0_n_n_0_1_1128 (W2 m ρ c (Proc.devRef .tc main_v12)) (SxK (m ((c : Thread nD τ).loc main_arg1)))) := by
  dsimp only [W3, hostOps1]; after_results
  rw [W2_v1, W2_v3]; rfl
theorem W3_v23 : W3 m ρ c (Proc.devRef .tc main_v23) = shapeCast S100000x1 (dinvK (m ((c : Thread nD τ).loc main_arg1))) shapeCasts_S100000_S100000x1 := by
  dsimp only [W3, hostOps1]; after_results
  rw [W2_v10]; rfl
theorem W3_v24 : W3 m ρ c (Proc.devRef .tc main_v24) = shapeCast S1x128 (m ((c : Thread nD τ).loc main_arg4)) shapeCasts_S128_S1x128 := by
  dsimp only [W3, hostOps1]; after_results
  rw [W2_arg4]; rfl
theorem W3_v12 : W3 m ρ c (Proc.devRef .tc main_v12) = W2 m ρ c (Proc.devRef .tc main_v12) := by
  dsimp only [W3, hostOps1]; after_results

/-! ## Stretch 2: the factor as a column again -/

theorem W5_v26 : W5 m ρ c (Proc.devRef .tc main_v26) = shapeCast S100000x1 (dinvK (m ((c : Thread nD τ).loc main_arg1))) shapeCasts_S100000_S100000x1 := by
  dsimp only [W5, hostOps2]; after_results
  rw [W4_v10]; rfl
theorem W5_v25 : W5 m ρ c (Proc.devRef .tc main_v25) = W4 m ρ c (Proc.devRef .tc main_v25) := by
  dsimp only [W5, hostOps2]; after_results

/-! ## Stretch 3: the second layer's neighbourhood sum and the four operands of the lane-dense combine -/

set_option maxHeartbeats 1600000 in
theorem W7_v38 : W7 m ρ c (Proc.devRef .tc main_v38) = shapeCast S25000x128
    (Host.scatterAdd scatter_S100000x32_S1600000x1_S1600000x32_1_0_0_1 (broadcastInDim S100000x32 ![] bcast_S_S100000x32 (constant (F := Ideal) S_ .f32 0x00000000#32)) (DK (m ((c : Thread nD τ).loc main_arg1)))
      (Host.gather gather_S100000x32_S1600000x1_S1600000x32_1_0_n_n_0_1_132 (W6 m ρ c (Proc.devRef .tc main_v27)) (SxK (m ((c : Thread nD τ).loc main_arg1)))))
    shapeCasts_S100000x32_S25000x128 := by
  dsimp only [W7, hostOps3]; after_results
  rw [W6_v1, W6_v3]; rfl
theorem W7_v39 : W7 m ρ c (Proc.devRef .tc main_v39) = shapeCast S25000x128 (W6 m ρ c (Proc.devRef .tc main_v27)) shapeCasts_S100000x32_S25000x128 := by
  dsimp only [W7, hostOps3]; after_results; rfl
theorem W7_v42 : W7 m ρ c (Proc.devRef .tc main_v42) = shapeCast S25000x128
    (broadcastInDim S100000x32 ![0, 1] bcast_S100000x1_S100000x32_0_1 (broadcastInDim S100000x1 ![0] bcast_S100000_S100000x1_0 (dinvK (m ((c : Thread nD τ).loc main_arg1)))))
    shapeCasts_S100000x32_S25000x128 := by
  dsimp only [W7, hostOps3]; after_results
  rw [W6_v10]; rfl
theorem W7_v46 : W7 m ρ c (Proc.devRef .tc main_v46) = shapeCast S1x128 (shapeCast S128
    (broadcastInDim S4x32 ![0, 1] bcast_S1x32_S4x32_0_1 (shapeCast S1x32 (m ((c : Thread nD τ).loc main_arg6)) shapeCasts_S32_S1x32)) shapeCasts_S4x32_S128) shapeCasts_S128_S1x128 := by
  dsimp only [W7, hostOps3]; after_results
  rw [W6_arg6]; rfl

/-! ## Stretch 4: the second layer back in its own layout, the query rows, the head's biases as rows -/

theorem W9_v55 : W9 m ρ c (Proc.devRef .tc main_v55) =
    Host.gather gather_S100000x32_S4096x1_S4096x32_1_0_n_n_0_1_132
      (shapeCast S100000x32 (W8 m ρ c (Proc.devRef .tc main_v47)) shapeCasts_S25000x128_S100000x32) (QxK (m ((c : Thread nD τ).loc main_arg2))) := by
  dsimp only [W9, hostOps4]; after_results
  rw [W8_arg2]; rfl
theorem W9_v56 : W9 m ρ c (Proc.devRef .tc main_v56) = shapeCast S1x64 (m ((c : Thread nD τ).loc main_arg8)) shapeCasts_S64_S1x64 := by
  dsimp only [W9, hostOps4]; after_results
  rw [W8_arg8]; rfl
theorem W9_v57 : W9 m ρ c (Proc.devRef .tc main_v57) = shapeCast S1x1 (m ((c : Thread nD τ).loc main_arg10)) shapeCasts_S1_S1x1 := by
  dsimp only [W9, hostOps4]; after_results
  rw [W8_arg10]; rfl

/-! ## Stretch 5: the result as a vector -/

theorem W11_v59 : W11 m ρ c (Proc.devRef .tc main_v59) = shapeCast S4096 (W10 m ρ c (Proc.devRef .tc main_v58)) shapeCasts_S4096x1_S4096 := by
  dsimp only [W11, hostOps5]; after_results; rfl

end Cert.KerFold
end
-- ==== Proof.LibNeighbourSum.lean ====
/-
  Two whole-array readings used by a message-passing layer, at the ideal values, generic in the sizes.

  * The neighbourhood sum. Rows of a matrix Hs : [N, C] are gathered at a column Sx of E row numbers and the E gathered
    rows are added up, into zeros, at the rows a second column D names. Read at node n and channel k this is
    0 + the sum, over the edges i whose D number (read signed) is n, of Hs at (the row Sx names for i, read signed and
    clamped into the rows; k). An edge whose D number is not a row adds nothing.
  * A reshape between two matrices of the same element count, read at coordinates: the element at (p', q') of the
    target is the element at (p, q) of the source whenever the two row-major positions p·b + q and p'·b' + q' agree.
-/
import proofs.«113900_j64527588655724_2_alg».proof.Proof.LibSegmentSum
import proofs.«113900_j64527588655724_2_alg».proof.Proof.LibSegmentDims
import proofs.«113900_j64527588655724_2_alg».proof.Proof.LibGatherRows
import proofs.«113900_j64527588655724_2_alg».proof.Proof.LibGcnLayer
import Idealize.ShloMosaic.Lib.Pipeline.Value

noncomputable section

namespace Cert.NeighbourSum

open Idealize.ShloMosaic Idealize.ShloMosaic.ValueIdx
open scoped BigOperators

/-- THE NEIGHBOURHOOD SUM READ AT `(n, k)`. -/
theorem sum_apply {N C E : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (Hs z : FVec Ideal ⟨2, ![N, C]⟩ .f32) (Sx D : IVec ⟨2, ![E, 1]⟩ 32) (hz : ∀ j, z j = 0) (n : Fin N) (k : Fin C) :
    Host.scatterAdd (Cert.SegmentDims.rowsDims N C E wfs) z D (Host.gather (Cert.GatherRows.rowDims N C E wfg) Hs Sx) (ix2 n k)
      = 0 + ∑ i ∈ Cert.GcnLayer.landing D n, Hs (ix2 (Cert.GcnLayer.rowOf hN Sx i) k) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n k).trans ?_
  rw [hz]
  refine congrArg (fun t : EReal => 0 + t) (Finset.sum_congr rfl fun i _ => ?_)
  exact Cert.GatherRows.gather_rows_apply hN wfg Hs Sx i k

variable {α : Type}

/-- A RESHAPE OF A MATRIX READ AT COORDINATES. -/
theorem reshape_apply {a b a' b' : ℕ} (x : (⟨2, ![a, b]⟩ : Shape).Idx → α)
    (h : (⟨2, ![a, b]⟩ : Shape).ShapeCasts ⟨2, ![a', b']⟩) (p : Fin a) (q : Fin b) (p' : Fin a') (q' : Fin b')
    (hpos : p.val * b + q.val = p'.val * b' + q'.val) :
    shapeCast ⟨2, ![a', b']⟩ x h (ix2 p' q') = x (ix2 p q) :=
  shapeCast_apply x h _ _ (by
    rw [Shape.rowMajor_val_two, Shape.rowMajor_val_two]
    exact hpos)

/-- A vector cast to a matrix, read at coordinates: the element at `(p', q')` is the vector's element at `p'·b' + q'`. -/
theorem unflatten_apply {n a' b' : ℕ} (x : (⟨1, ![n]⟩ : Shape).Idx → α)
    (h : (⟨1, ![n]⟩ : Shape).ShapeCasts ⟨2, ![a', b']⟩) (i : Fin n) (p' : Fin a') (q' : Fin b')
    (hpos : i.val = p'.val * b' + q'.val) :
    shapeCast ⟨2, ![a', b']⟩ x h (ix2 p' q') = x (ix1 i) :=
  shapeCast_apply x h _ _ (by
    rw [Shape.rowMajor_val_one, Shape.rowMajor_val_two]
    exact hpos)

/-- A matrix cast to a vector, read at an index: the element at `i` is the matrix's element at `(p, q)` with `p·b + q = i`. -/
theorem flatten_apply {a b n : ℕ} (x : (⟨2, ![a, b]⟩ : Shape).Idx → α)
    (h : (⟨2, ![a, b]⟩ : Shape).ShapeCasts ⟨1, ![n]⟩) (p : Fin a) (q : Fin b) (i : Fin n)
    (hpos : p.val * b + q.val = i.val) :
    shapeCast ⟨1, ![n]⟩ x h (ix1 i) = x (ix2 p q) :=
  shapeCast_apply x h _ _ (by
    rw [Shape.rowMajor_val_two, Shape.rowMajor_val_one]
    exact hpos)

end Cert.NeighbourSum

end
-- ==== Proof.KerValue.lean ====
import proofs.«113900_j64527588655724_2_alg».proof.Proof.KerBoundary
import proofs.«113900_j64527588655724_2_alg».proof.Proof.LibNeighbourSum
import Idealize.ShloMosaic.Lib.KernelVsHost
import Idealize.ShloMosaic.Lib.IdealHost
import proofs.«113900_j64527588655724_2_alg».proof.Proof.LibGcnLayer
import proofs.«113900_j64527588655724_2_alg».proof.Proof.LibSegmentSum
import proofs.«113900_j64527588655724_2_alg».proof.Proof.LibSegmentDims
import proofs.«113900_j64527588655724_2_alg».proof.Proof.LibGatherRows
import proofs.«113900_j64527588655724_2_alg».proof.Proof.LibDenseRows
import proofs.«113900_j64527588655724_2_alg».proof.Proof.LibColumnBroadcast
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

/-
  The idealized kernel's result, read index by index through the boundaries of @main: each region's output array is
  one function of its entry arrays, each stretch of host operations is read at an index (the neighbourhood sum as a
  sum over the edges landing at a node, a reshape by its row-major position, a broadcast by the coordinate it keeps),
  and the whole is two graph-convolution layers in the arrangement that scales every row by its node's factor before
  the neighbourhood sum and the total again afterwards, followed by the perceptron head on the queried rows.
-/
namespace Cert.KerFold

open Cert.KernelIdeal Cert.KernelIdeal.Gen
open Idealize.ShloMosaic Idealize.ShloMosaic.TcCoe Idealize.ShloMosaic.ValueIdx Idealize.ShloMosaic.StableHlo
open Idealize.SL.Sem
open scoped BigOperators

/-! ## The shapes of the five region bodies at one element -/

/-- A row against a column. -/
abbrev dotAt {K : ℕ} (x w : Fin K → EReal) : EReal := ∑ j : Fin K, x j * w j
/-- The dense layer's element, scaled by its row's factor. -/
abbrev scaleAt (d s : EReal) : EReal := d * s
/-- The combine step: factor times (neighbourhood sum plus own scaled row), plus bias, rectified. -/
abbrev combineAt (s a o b : EReal) : EReal := max (s * (a + o) + b) 0
/-- The head on one row. -/
abbrev headAt {A B : ℕ} (x : Fin A → EReal) (w1 : Fin A → Fin B → EReal) (b1 w2 : Fin B → EReal) (b2 : EReal) : EReal :=
  (∑ k : Fin B, max ((∑ j : Fin A, x j * w1 j k) + b1 k) 0 * w2 k) + b2

/-- A region's entry contents: every TensorCore buffer of every core. -/
abbrev Entry := (c : Dev nD) → (b : Ref sig .tc) → Buf (Elt Ideal) ((c : Thread nD τ).loc b)

/-! ## What each region leaves in its output array, as one function of its entry arrays (each proved in the
    module of its region; taken here as hypotheses) -/

def Final0 : Prop := ∀ (V : Entry) (c : Dev nD) (n : Fin 100000) (k : Fin 128),
  (dat0 (F := Ideal) V c).arrAt 3 cfg0.N (ix2 n k)
    = scaleAt (dotAt (fun j : Fin 128 => V c main_arg0 (ix2 n j)) (fun j => V c main_arg3 (ix2 j k))) (V c main_v11 (ix2 n (0 : Fin 1)))
def Final1 : Prop := ∀ (V : Entry) (c : Dev nD) (n : Fin 100000) (k : Fin 128),
  (dat1 (F := Ideal) V c).arrAt 4 cfg1.N (ix2 n k)
    = combineAt (V c main_v23 (ix2 n (0 : Fin 1))) (V c main_v22 (ix2 n k)) (V c main_v12 (ix2 n k)) (V c main_v24 (ix2 (0 : Fin 1) k))
def Final2 : Prop := ∀ (V : Entry) (c : Dev nD) (n : Fin 100000) (k : Fin 32),
  (dat2 (F := Ideal) V c).arrAt 3 cfg2.N (ix2 n k)
    = scaleAt (dotAt (fun j : Fin 128 => V c main_v25 (ix2 n j)) (fun j => V c main_arg5 (ix2 j k))) (V c main_v26 (ix2 n (0 : Fin 1)))
def Final3 : Prop := ∀ (V : Entry) (c : Dev nD) (r : Fin 25000) (l : Fin 128),
  (dat3 (F := Ideal) V c).arrAt 4 cfg3.N (ix2 r l)
    = combineAt (V c main_v42 (ix2 r l)) (V c main_v38 (ix2 r l)) (V c main_v39 (ix2 r l)) (V c main_v46 (ix2 (0 : Fin 1) l))
def Final4 : Prop := ∀ (V : Entry) (c : Dev nD) (q : Fin 4096),
  (dat4 (F := Ideal) V c).arrAt 5 cfg4.N (ix2 q (0 : Fin 1))
    = headAt (fun j : Fin 32 => V c main_v55 (ix2 q j)) (fun (j : Fin 32) (k : Fin 64) => V c main_arg7 (ix2 j k))
        (fun k => V c main_v56 (ix2 (0 : Fin 1) k)) (fun k => V c main_arg9 (ix2 k (0 : Fin 1))) (V c main_v57 (ix2 (0 : Fin 1) (0 : Fin 1)))

variable (m : (ℓ : Loc nD τ sig) → Buf (Elt Ideal) ℓ) (ρ : Dev nD → PrngReg) (c : Dev nD)

theorem hN : 0 < 100000 := by decide

/-- The normalising factor per node. -/
def sK (a1 : Edges) : Fin 100000 → EReal := fun n => dinvK a1 (ix1 n)

/-! ## The regions' output arrays at their exits -/

theorem W2_v12 : W2 m ρ c (Proc.devRef .tc main_v12) = (dat0 (V1 m ρ) c).arrAt 3 cfg0.N := W2_arr m ρ c 3
theorem W4_v25 : W4 m ρ c (Proc.devRef .tc main_v25) = (dat1 (V3 m ρ) c).arrAt 4 cfg1.N := W4_arr m ρ c 4
theorem W6_v27 : W6 m ρ c (Proc.devRef .tc main_v27) = (dat2 (V5 m ρ) c).arrAt 3 cfg2.N := W6_arr m ρ c 3
theorem W8_v47 : W8 m ρ c (Proc.devRef .tc main_v47) = (dat3 (V7 m ρ) c).arrAt 4 cfg3.N := W8_arr m ρ c 4
theorem W10_v58 : W10 m ρ c (Proc.devRef .tc main_v58) = (dat4 (V9 m ρ) c).arrAt 5 cfg4.N := W10_arr m ρ c 5

/-- The zero operand of a neighbourhood sum is zero everywhere. -/
theorem zeros128 (j : S100000x128.Idx) : (broadcastInDim S100000x128 ![] bcast_S_S100000x128 (constant (F := Ideal) S_ .f32 0x00000000#32)) j = 0 := Ideal.ofBits_zero_f32
theorem zeros32 (j : S100000x32.Idx) : (broadcastInDim S100000x32 ![] bcast_S_S100000x32 (constant (F := Ideal) S_ .f32 0x00000000#32)) j = 0 := Ideal.ofBits_zero_f32

/-! ## Layer 1 -/

/-- Region 0 leaves the dense layer's rows scaled by their node's factor. -/
theorem hp1_apply (h0 : Final0) (n : Fin 100000) (k : Fin 128) :
    W2 m ρ c (Proc.devRef .tc main_v12) (ix2 n k)
      = Cert.GcnLayer.dense (fun n j => (m ((c : Thread nD τ).loc main_arg0)) (ix2 n j)) (fun j k => (m ((c : Thread nD τ).loc main_arg3)) (ix2 j k)) n k * sK (m ((c : Thread nD τ).loc main_arg1)) n := by
  rw [W2_v12]
  refine (h0 (V1 m ρ) c n k).trans ?_
  show scaleAt (dotAt (fun j : Fin 128 => W1 m ρ c (Proc.devRef .tc main_arg0) (ix2 n j)) (fun j => W1 m ρ c (Proc.devRef .tc main_arg3) (ix2 j k)))
      (W1 m ρ c (Proc.devRef .tc main_v11) (ix2 n (0 : Fin 1))) = _
  rw [W1_arg0, W1_arg3, W1_v11, Cert.Lib.ColumnBroadcast.shapeCast_a_a1_apply]
  rfl

/-- Stretch 1 adds up, at every node, the scaled rows of its in-neighbours. -/
theorem agg1_apply (h0 : Final0) (n : Fin 100000) (k : Fin 128) :
    W3 m ρ c (Proc.devRef .tc main_v22) (ix2 n k)
      = 0 + ∑ i ∈ Cert.GcnLayer.landing (DK (m ((c : Thread nD τ).loc main_arg1))) n,
          Cert.GcnLayer.dense (fun n j => (m ((c : Thread nD τ).loc main_arg0)) (ix2 n j)) (fun j k => (m ((c : Thread nD τ).loc main_arg3)) (ix2 j k)) (Cert.GcnLayer.rowOf hN (SxK (m ((c : Thread nD τ).loc main_arg1))) i) k
            * sK (m ((c : Thread nD τ).loc main_arg1)) (Cert.GcnLayer.rowOf hN (SxK (m ((c : Thread nD τ).loc main_arg1))) i) := by
  rw [W3_v22]
  refine (Cert.NeighbourSum.sum_apply hN scatter_S100000x128_S1600000x1_S1600000x128_1_0_0_1_wf
    gather_S100000x128_S1600000x1_S1600000x128_1_0_n_n_0_1_1128_wf _ _ (SxK (m ((c : Thread nD τ).loc main_arg1))) (DK (m ((c : Thread nD τ).loc main_arg1))) (zeros128) n k).trans ?_
  refine congrArg (fun t : EReal => 0 + t) (Finset.sum_congr rfl fun i _ => ?_)
  exact hp1_apply m ρ c h0 _ k

/-- Region 1 leaves the first layer, in the arrangement that scales before and after the neighbourhood sum. -/
theorem h1_apply (h0 : Final0) (h1 : Final1) (n : Fin 100000) (k : Fin 128) :
    W4 m ρ c (Proc.devRef .tc main_v25) (ix2 n k)
      = Cert.GcnLayer.scaledTwice hN (sK (m ((c : Thread nD τ).loc main_arg1))) (SxK (m ((c : Thread nD τ).loc main_arg1))) (DK (m ((c : Thread nD τ).loc main_arg1)))
          (Cert.GcnLayer.dense (fun n j => (m ((c : Thread nD τ).loc main_arg0)) (ix2 n j)) (fun j k => (m ((c : Thread nD τ).loc main_arg3)) (ix2 j k))) (fun k => (m ((c : Thread nD τ).loc main_arg4)) (ix1 k)) n k := by
  rw [W4_v25]
  refine (h1 (V3 m ρ) c n k).trans ?_
  show combineAt (W3 m ρ c (Proc.devRef .tc main_v23) (ix2 n (0 : Fin 1))) (W3 m ρ c (Proc.devRef .tc main_v22) (ix2 n k)) (W3 m ρ c (Proc.devRef .tc main_v12) (ix2 n k))
      (W3 m ρ c (Proc.devRef .tc main_v24) (ix2 (0 : Fin 1) k)) = _
  rw [agg1_apply m ρ c h0, W3_v12, hp1_apply m ρ c h0, W3_v23, W3_v24, Cert.Lib.ColumnBroadcast.shapeCast_a_a1_apply,
    shapeCast_a_1a_apply]
  rfl

/-! ## Layer 2 -/

/-- Region 2 leaves the second dense layer's rows scaled by their node's factor. -/
theorem hp2_apply (h0 : Final0) (h1 : Final1) (h2 : Final2) (n : Fin 100000) (k : Fin 32) :
    W6 m ρ c (Proc.devRef .tc main_v27) (ix2 n k) = Cert.GcnLayer.dense (Cert.GcnLayer.scaledTwice hN (sK (m ((c : Thread nD τ).loc main_arg1))) (SxK (m ((c : Thread nD τ).loc main_arg1))) (DK (m ((c : Thread nD τ).loc main_arg1))) (Cert.GcnLayer.dense (fun n j => (m ((c : Thread nD τ).loc main_arg0)) (ix2 n j)) (fun j k => (m ((c : Thread nD τ).loc main_arg3)) (ix2 j k))) (fun k => (m ((c : Thread nD τ).loc main_arg4)) (ix1 k))) (fun j k => (m ((c : Thread nD τ).loc main_arg5)) (ix2 j k)) n k * sK (m ((c : Thread nD τ).loc main_arg1)) n := by
  rw [W6_v27]
  refine (h2 (V5 m ρ) c n k).trans ?_
  show scaleAt (dotAt (fun j : Fin 128 => W5 m ρ c (Proc.devRef .tc main_v25) (ix2 n j)) (fun j => W5 m ρ c (Proc.devRef .tc main_arg5) (ix2 j k)))
      (W5 m ρ c (Proc.devRef .tc main_v26) (ix2 n (0 : Fin 1))) = _
  rw [W5_v25, W5_arg5, W5_v26, Cert.Lib.ColumnBroadcast.shapeCast_a_a1_apply]
  refine congrArg (fun t : EReal => t * dinvK (m ((c : Thread nD τ).loc main_arg1)) (ix1 n)) (Finset.sum_congr rfl fun j _ => ?_)
  exact congrArg (fun t : EReal => t * ((m ((c : Thread nD τ).loc main_arg5)) (ix2 j k) : EReal)) (h1_apply m ρ c h0 h1 n j)

/-- Stretch 3 adds up, at every node, the scaled rows of its in-neighbours. -/
theorem agg2_apply (h0 : Final0) (h1 : Final1) (h2 : Final2) (n : Fin 100000) (k : Fin 32) :
    Host.scatterAdd scatter_S100000x32_S1600000x1_S1600000x32_1_0_0_1 (broadcastInDim S100000x32 ![] bcast_S_S100000x32 (constant (F := Ideal) S_ .f32 0x00000000#32)) (DK (m ((c : Thread nD τ).loc main_arg1)))
        (Host.gather gather_S100000x32_S1600000x1_S1600000x32_1_0_n_n_0_1_132 (W6 m ρ c (Proc.devRef .tc main_v27)) (SxK (m ((c : Thread nD τ).loc main_arg1)))) (ix2 n k)
      = 0 + ∑ i ∈ Cert.GcnLayer.landing (DK (m ((c : Thread nD τ).loc main_arg1))) n,
          Cert.GcnLayer.dense (Cert.GcnLayer.scaledTwice hN (sK (m ((c : Thread nD τ).loc main_arg1))) (SxK (m ((c : Thread nD τ).loc main_arg1))) (DK (m ((c : Thread nD τ).loc main_arg1))) (Cert.GcnLayer.dense (fun n j => (m ((c : Thread nD τ).loc main_arg0)) (ix2 n j)) (fun j k => (m ((c : Thread nD τ).loc main_arg3)) (ix2 j k))) (fun k => (m ((c : Thread nD τ).loc main_arg4)) (ix1 k))) (fun j k => (m ((c : Thread nD τ).loc main_arg5)) (ix2 j k)) (Cert.GcnLayer.rowOf hN (SxK (m ((c : Thread nD τ).loc main_arg1))) i) k * sK (m ((c : Thread nD τ).loc main_arg1)) (Cert.GcnLayer.rowOf hN (SxK (m ((c : Thread nD τ).loc main_arg1))) i) := by
  refine (Cert.NeighbourSum.sum_apply hN scatter_S100000x32_S1600000x1_S1600000x32_1_0_0_1_wf
    gather_S100000x32_S1600000x1_S1600000x32_1_0_n_n_0_1_132_wf _ _ (SxK (m ((c : Thread nD τ).loc main_arg1))) (DK (m ((c : Thread nD τ).loc main_arg1))) (zeros32) n k).trans ?_
  refine congrArg (fun t : EReal => 0 + t) (Finset.sum_congr rfl fun i _ => ?_)
  exact hp2_apply m ρ c h0 h1 h2 _ k

/-- Region 3 works on a lane-dense layout: four node rows of 32 channels side by side in one row of 128. Element
    (n, k) of the node layout sits at row (32 n + k) / 128 and lane (32 n + k) mod 128; the factor spread over the
    node layout and the bias tiled four times land on the node's factor and the channel's bias there. Read back in
    the node layout, region 3 leaves the second layer, scaled before and after the neighbourhood sum. -/
theorem h2_apply (h0 : Final0) (h1 : Final1) (h2 : Final2) (h3 : Final3) (n : Fin 100000) (k : Fin 32) :
    shapeCast S100000x32 (W8 m ρ c (Proc.devRef .tc main_v47)) shapeCasts_S25000x128_S100000x32 (ix2 n k) = (Cert.GcnLayer.scaledTwice hN (sK (m ((c : Thread nD τ).loc main_arg1))) (SxK (m ((c : Thread nD τ).loc main_arg1))) (DK (m ((c : Thread nD τ).loc main_arg1))) (Cert.GcnLayer.dense (Cert.GcnLayer.scaledTwice hN (sK (m ((c : Thread nD τ).loc main_arg1))) (SxK (m ((c : Thread nD τ).loc main_arg1))) (DK (m ((c : Thread nD τ).loc main_arg1))) (Cert.GcnLayer.dense (fun n j => (m ((c : Thread nD τ).loc main_arg0)) (ix2 n j)) (fun j k => (m ((c : Thread nD τ).loc main_arg3)) (ix2 j k))) (fun k => (m ((c : Thread nD τ).loc main_arg4)) (ix1 k))) (fun j k => (m ((c : Thread nD τ).loc main_arg5)) (ix2 j k))) (fun k => (m ((c : Thread nD τ).loc main_arg6)) (ix1 k))) n k := by
  have hn := n.isLt
  have hk := k.isLt
  obtain ⟨r, l, hpos⟩ : ∃ (r : Fin 25000) (l : Fin 128), r.val * 128 + l.val = n.val * 32 + k.val :=
    ⟨⟨(n.val * 32 + k.val) / 128, by omega⟩, ⟨(n.val * 32 + k.val) % 128, by omega⟩,
      by show (n.val * 32 + k.val) / 128 * 128 + (n.val * 32 + k.val) % 128 = _; omega⟩
  have hl := l.isLt
  obtain ⟨p, hp⟩ : ∃ p : Fin 4, p.val * 32 + k.val = l.val :=
    ⟨⟨l.val / 32, by omega⟩, by show l.val / 32 * 32 + k.val = l.val; omega⟩
  rw [Cert.NeighbourSum.reshape_apply _ shapeCasts_S25000x128_S100000x32 r l n k hpos, W8_v47]
  refine (h3 (V7 m ρ) c r l).trans ?_
  show combineAt (W7 m ρ c (Proc.devRef .tc main_v42) (ix2 r l)) (W7 m ρ c (Proc.devRef .tc main_v38) (ix2 r l)) (W7 m ρ c (Proc.devRef .tc main_v39) (ix2 r l))
      (W7 m ρ c (Proc.devRef .tc main_v46) (ix2 (0 : Fin 1) l)) = _
  rw [W7_v42, W7_v38, W7_v39, W7_v46,
    Cert.NeighbourSum.reshape_apply _ shapeCasts_S100000x32_S25000x128 n k r l hpos.symm,
    Cert.NeighbourSum.reshape_apply _ shapeCasts_S100000x32_S25000x128 n k r l hpos.symm,
    Cert.NeighbourSum.reshape_apply _ shapeCasts_S100000x32_S25000x128 n k r l hpos.symm,
    Cert.DenseRows.broadcastInDim_a1_ab_apply _ bcast_S100000x1_S100000x32_0_1 n k,
    Cert.DenseRows.broadcastInDim_a_a1_apply _ bcast_S100000_S100000x1_0 n (0 : Fin 1),
    agg2_apply m ρ c h0 h1 h2, hp2_apply m ρ c h0 h1 h2,
    shapeCast_a_1a_apply, Cert.NeighbourSum.flatten_apply _ shapeCasts_S4x32_S128 p k l hp,
    broadcastInDim_oneRow_apply bcast_S1x32_S4x32_0_1 _ p k, shapeCast_a_1a_apply]
  rfl

/-! ## The query rows and the head -/

/-- Stretch 4 reads the second layer back at the rows the query numbers name. -/
theorem query_apply (h0 : Final0) (h1 : Final1) (h2 : Final2) (h3 : Final3) (q : Fin 4096) (j : Fin 32) :
    W9 m ρ c (Proc.devRef .tc main_v55) (ix2 q j) = (Cert.GcnLayer.scaledTwice hN (sK (m ((c : Thread nD τ).loc main_arg1))) (SxK (m ((c : Thread nD τ).loc main_arg1))) (DK (m ((c : Thread nD τ).loc main_arg1))) (Cert.GcnLayer.dense (Cert.GcnLayer.scaledTwice hN (sK (m ((c : Thread nD τ).loc main_arg1))) (SxK (m ((c : Thread nD τ).loc main_arg1))) (DK (m ((c : Thread nD τ).loc main_arg1))) (Cert.GcnLayer.dense (fun n j => (m ((c : Thread nD τ).loc main_arg0)) (ix2 n j)) (fun j k => (m ((c : Thread nD τ).loc main_arg3)) (ix2 j k))) (fun k => (m ((c : Thread nD τ).loc main_arg4)) (ix1 k))) (fun j k => (m ((c : Thread nD τ).loc main_arg5)) (ix2 j k))) (fun k => (m ((c : Thread nD τ).loc main_arg6)) (ix1 k))) (Cert.GatherRows.clampRow 100000 hN (QxK (m ((c : Thread nD τ).loc main_arg2)) (ix2 q (0 : Fin 1)))) j := by
  rw [W9_v55]
  refine (Cert.GatherRows.gather_rows_apply hN gather_S100000x32_S4096x1_S4096x32_1_0_n_n_0_1_132_wf _ (QxK (m ((c : Thread nD τ).loc main_arg2))) q j).trans ?_
  exact h2_apply m ρ c h0 h1 h2 h3 _ j

/-- THE KERNEL'S RESULT at query `q`: two layers, each scaled before and after its neighbourhood sum, read at the
    query's row, and the head. -/
theorem kernel_out (h0 : Final0) (h1 : Final1) (h2 : Final2) (h3 : Final3) (h4 : Final4) (q : Fin 4096) :
    W11 m ρ c (Proc.devRef .tc main_v59) (ix1 q)
      = Cert.GcnLayer.netTwice (A := 32) hN (sK (m ((c : Thread nD τ).loc main_arg1))) (SxK (m ((c : Thread nD τ).loc main_arg1))) (DK (m ((c : Thread nD τ).loc main_arg1))) (QxK (m ((c : Thread nD τ).loc main_arg2))) (fun n j => (m ((c : Thread nD τ).loc main_arg0)) (ix2 n j)) (fun j k => (m ((c : Thread nD τ).loc main_arg3)) (ix2 j k)) (fun k => (m ((c : Thread nD τ).loc main_arg4)) (ix1 k)) (fun j k => (m ((c : Thread nD τ).loc main_arg5)) (ix2 j k)) (fun k => (m ((c : Thread nD τ).loc main_arg6)) (ix1 k))
          (fun j k => (m ((c : Thread nD τ).loc main_arg7)) (ix2 j k)) (fun k => (m ((c : Thread nD τ).loc main_arg8)) (ix1 k)) (fun k => (m ((c : Thread nD τ).loc main_arg9)) (ix2 k (0 : Fin 1))) ((m ((c : Thread nD τ).loc main_arg10)) (ix1 (0 : Fin 1))) q := by
  rw [W11_v59, Cert.NeighbourSum.flatten_apply _ shapeCasts_S4096x1_S4096 q (0 : Fin 1) q (by show q.val * 1 + 0 = q.val; omega),
    W10_v58]
  refine (h4 (V9 m ρ) c q).trans ?_
  show headAt (fun j : Fin 32 => W9 m ρ c (Proc.devRef .tc main_v55) (ix2 q j)) (fun (j : Fin 32) (k : Fin 64) => W9 m ρ c (Proc.devRef .tc main_arg7) (ix2 j k))
      (fun k => W9 m ρ c (Proc.devRef .tc main_v56) (ix2 (0 : Fin 1) k)) (fun k => W9 m ρ c (Proc.devRef .tc main_arg9) (ix2 k (0 : Fin 1)))
      (W9 m ρ c (Proc.devRef .tc main_v57) (ix2 (0 : Fin 1) (0 : Fin 1))) = _
  rw [W9_arg7, W9_arg9, W9_v56, W9_v57]
  simp only [shapeCast_a_1a_apply, query_apply m ρ c h0 h1 h2 h3]
  rfl

end Cert.KerFold
end
-- ==== Proof.KerDenseRegions.lean ====
/-
  The two linear-layer regions of the idealized kernel, each read as one function of the arrays it finds when it is
  entered. A linear layer's region walks the node array in blocks of 4000 rows: at a point it multiplies the block's rows
  of features into the whole weight matrix (a contraction over the 128 feature columns, into 128 columns in the first
  layer and into 32 in the second) and scales row `r` by the node's normalisation factor, a column `[4000, 1]` spread
  over the lanes; the 25 blocks tile the 100000 rows, so the array the region leaves is, at `(n, k)`,
  `(∑ j, x (n, j) · w (j, k)) · s (n, 0)`. At the ideal values a change of float format is the identity and a matrix
  product into the zero accumulator is the plain sum of products, so each block is read index by index and the blocks
  are put back together by their row ranges.
-/
import proofs.«113900_j64527588655724_2_alg».proof.Proof.Gen.KernelIdeal.Frame
import proofs.«113900_j64527588655724_2_alg».proof.Proof.LibDenseRows
import proofs.«113900_j64527588655724_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KerDense

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- A row against a column: the sum over the contracted index of the products of the entries. -/
abbrev dotAt {K : ℕ} (x w : Fin K → EReal) : EReal := ∑ j : Fin K, x j * w j

/-- A product scaled by a per-row factor. -/
abbrev scaleAt (d s : EReal) : EReal := d * s

/-- The zero offsets of a whole-block access, however they are spelt. -/
theorem zeroOffsets : (![0, 0] : Fin 2 → Nat) = fun _ => 0 := funext fun a => by fin_cases a <;> rfl

/-! ## The node-feature product: rows of `[4000, 128]` against `[128, 128]` -/

theorem featDot_lhsRow (j : S4000x128.Idx) (q : dot_S4000x128_S128x128_S4000x128_1_0_0_1_n_n.contr.Idx) :
    (dot_S4000x128_S128x128_S4000x128_1_0_0_1_n_n.lhsIdx j q (0 : Fin 2)).val = (j (0 : Fin 2)).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem featDot_rhsCol (j : S4000x128.Idx) (q : dot_S4000x128_S128x128_S4000x128_1_0_0_1_n_n.contr.Idx) :
    (dot_S4000x128_S128x128_S4000x128_1_0_0_1_n_n.rhsIdx j q (1 : Fin 2)).val = (j (1 : Fin 2)).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- One block of the first linear layer at `(r, k)`: row `r` of the features against column `k` of the weights, scaled by
    the row's normalisation factor. -/
theorem linear0_point (x0 : Vec Ideal S4000x128 .f32) (x1 : Vec Ideal S128x128 .f32) (x2 : Vec Ideal S4000x1 .f32)
    (r : Fin 4000) (k : Fin 128) :
    k0_pay1 (F := Ideal) x0 x1 x2 (ix2 r k) = (∑ j : Fin 128, x0 (ix2 r j) * x1 (ix2 j k)) * x2 (ix2 r (0 : Fin 1)) := by
  unfold k0_pay1
  refine congrArg₂ (· * ·) ?_ ?_
  · exact Cert.DenseRows.matmul_zero_plain_apply dot_S4000x128_S128x128_S4000x128_1_0_0_1_n_n rfl rfl rfl rfl
      featDot_lhsRow featDot_rhsCol _ _ r k
  · refine (Cert.Lib.ColumnBroadcast.broadcastTo_a1_ab_apply _ _ r k).trans ?_
    rw [shapeCast_self]

variable (V : (c : Dev nD) → (b : Ref sig .tc) → Buf (Elt Ideal) ((c : Thread nD τ).loc b))

/-- The first linear layer over the whole node array: at `(n, k)`, row `n` of the features against column `k` of the
    weights, scaled by node `n`'s normalisation factor. -/
def linear0 (a : S100000x128.Idx → EReal) (w : S128x128.Idx → EReal) (s : S100000x1.Idx → EReal) : S100000x128.Idx → EReal :=
  fun i => (∑ j : Fin 128, a (ix2 (i 0) j) * w (ix2 j (i 1))) * s (ix2 (i 0) (0 : Fin 1))

/-- The windows' block indices over the 25 points: the row windows move together, 4000 rows a point; the weights stay. -/
theorem blockIdx0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of `linear0` of the arrays the region found. -/
theorem flushed0_eq (c : Dev nD) (t : Fin cfg0.N) :
    (dat0 (F := Ideal) V c).flushed 3 t
      = ((cfg0.win 3).blk t).view.read (Elt Ideal) (linear0 (V c main_arg0) (V c main_arg3) (V c main_v11)) := by
  show (cfg0.win 3).cut (grid0.coords t) ((dat0 (F := Ideal) V c).after 3 t) = _
  rw [after0_3]
  unfold out0_3
  rw [View.canon_unit_zero zeroOffsets]
  simp only [View.ld_unit_zero (S := S4000x128) zeroOffsets, View.ld_unit_zero (S := S128x128) zeroOffsets,
    View.ld_unit_zero (S := S4000x1) zeroOffsets]
  obtain ⟨e00, e01, e10, e11, e20, e21, e30, e31⟩ := blockIdx0 t
  funext y
  show k0_pay1 (F := Ideal) (iblk0 V c 0 t) (iblk0 V c 1 t) (iblk0 V c 2 t) y
      = linear0 (V c main_arg0) (V c main_arg3) (V c main_v11) (((cfg0.win 3).blk t).view.emb y)
  refine (congrArg (k0_pay1 (F := Ideal) (iblk0 V c 0 t) (iblk0 V c 1 t) (iblk0 V c 2 t))
    (eq_ix2 (n0 := 4000) (n1 := 128) y)).trans ?_
  refine (linear0_point (iblk0 V c 0 t) (iblk0 V c 1 t) (iblk0 V c 2 t) (y 0) (y 1)).trans ?_
  unfold linear0
  refine congrArg₂ (· * ·) (Finset.sum_congr rfl fun j _ => congrArg₂ (· * ·) ?_ ?_) ?_
  · show V c main_arg0 (((cfg0.win 0).blk t).view.emb (ix2 (y 0) j))
        = V c main_arg0 (ix2 ((((cfg0.win 3).blk t).view.emb y) 0) j)
    refine congrArg (V c main_arg0 : S100000x128.Idx → EReal) (funext fun a => Fin.ext ?_)
    match a with
    | ⟨0, _⟩ =>
      show win0_0.index t (0 : Fin 2) * 4000 + 1 * (y 0).val = win0_3.index t (0 : Fin 2) * 4000 + 1 * (y 0).val
      rw [e00]
    | ⟨1, _⟩ =>
      show win0_0.index t (1 : Fin 2) * 128 + 1 * j.val = j.val
      rw [e01]; omega
  · show V c main_arg3 (((cfg0.win 1).blk t).view.emb (ix2 j (y 1)))
        = V c main_arg3 (ix2 j ((((cfg0.win 3).blk t).view.emb y) 1))
    refine congrArg (V c main_arg3 : S128x128.Idx → EReal) (funext fun a => Fin.ext ?_)
    match a with
    | ⟨0, _⟩ =>
      show win0_1.index t (0 : Fin 2) * 128 + 1 * j.val = j.val
      rw [e10]; omega
    | ⟨1, _⟩ =>
      show win0_1.index t (1 : Fin 2) * 128 + 1 * (y 1).val = win0_3.index t (1 : Fin 2) * 128 + 1 * (y 1).val
      rw [e11, e31]
  · show V c main_v11 (((cfg0.win 2).blk t).view.emb (ix2 (y 0) (0 : Fin 1)))
        = V c main_v11 (ix2 ((((cfg0.win 3).blk t).view.emb y) 0) (0 : Fin 1))
    refine congrArg (V c main_v11 : S100000x1.Idx → EReal) (funext fun a => Fin.ext ?_)
    match a with
    | ⟨0, _⟩ =>
      show win0_2.index t (0 : Fin 2) * 4000 + 1 * (y 0).val = win0_3.index t (0 : Fin 2) * 4000 + 1 * (y 0).val
      rw [e20]
    | ⟨1, _⟩ =>
      show win0_2.index t (1 : Fin 2) * 1 + 1 * 0 = 0
      rw [e21]

/-- An index of the node array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12).slice (win0_3.rect t)).set ↔ _
  rw [View.set_slice_whole, Rect.mem_set_unit]
  exact Iff.rfl

/-- Row `n` lies in the block of point `n / 4000`: the 25 blocks of 4000 rows tile the 100000 rows. -/
theorem cover0 (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  have hN : grid0.N = 25 := N_0
  let t : Fin cfg0.N := ⟨(i 0).val / 4000, by show (i 0).val / 4000 < grid0.N; rw [hN]; omega⟩
  have ht : t.val = (i 0).val / 4000 := rfl
  obtain ⟨-, -, -, -, -, -, e30, e31⟩ := blockIdx0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e30, ht]; omega
  | ⟨1, _⟩ =>
    show win0_3.index t (1 : Fin 2) * 128 ≤ (i 1).val ∧ (i 1).val < win0_3.index t (1 : Fin 2) * 128 + 128
    rw [e31]; omega

/-- The node array after the first linear layer's region is `linear0` of the arrays the region found. -/
theorem final0_array (c : Dev nD) :
    (dat0 (F := Ideal) V c).arrAt 3 cfg0.N = linear0 (V c main_arg0) (V c main_arg3) (V c main_v11) :=
  (dat0 (F := Ideal) V c).arrAt_eq_of_cover 3 (linear0 (V c main_arg0) (V c main_arg3) (V c main_v11))
    (fun t _ => flushed0_eq V c t) cover0

/-- … read at node `n`, column `k`. -/
theorem final0 (c : Dev nD) (n : Fin 100000) (k : Fin 128) :
    (dat0 (F := Ideal) V c).arrAt 3 cfg0.N (ix2 n k)
      = scaleAt (dotAt (fun j : Fin 128 => V c main_arg0 (ix2 n j)) (fun j => V c main_arg3 (ix2 j k)))
          (V c main_v11 (ix2 n (0 : Fin 1))) :=
  congrFun (final0_array V c) (ix2 n k)

/-! ## The second linear layer: rows of `[4000, 128]` against `[128, 32]` -/

theorem hidDot_lhsRow (j : S4000x32.Idx) (q : dot_S4000x128_S128x32_S4000x32_1_0_0_1_n_n.contr.Idx) :
    (dot_S4000x128_S128x32_S4000x32_1_0_0_1_n_n.lhsIdx j q (0 : Fin 2)).val = (j (0 : Fin 2)).val := by
  unfold DotDims.lhsIdx
  rw [dif_neg (show ¬(0 : Fin S4000x128.rank) ∈ dot_S4000x128_S128x32_S4000x32_1_0_0_1_n_n.lhsBatch by decide),
    dif_pos (show (0 : Fin S4000x128.rank) ∈ dot_S4000x128_S128x32_S4000x32_1_0_0_1_n_n.lhsNonContracting by decide)]
  rfl

theorem hidDot_rhsCol (j : S4000x32.Idx) (q : dot_S4000x128_S128x32_S4000x32_1_0_0_1_n_n.contr.Idx) :
    (dot_S4000x128_S128x32_S4000x32_1_0_0_1_n_n.rhsIdx j q (1 : Fin 2)).val = (j (1 : Fin 2)).val := by
  unfold DotDims.rhsIdx
  rw [dif_neg (show ¬(1 : Fin S128x32.rank) ∈ dot_S4000x128_S128x32_S4000x32_1_0_0_1_n_n.rhsBatch by decide),
    dif_pos (show (1 : Fin S128x32.rank) ∈ dot_S4000x128_S128x32_S4000x32_1_0_0_1_n_n.rhsNonContracting by decide)]
  rfl

/-- One block of the second linear layer at `(r, k)`: row `r` of the hidden features against column `k` of the weights,
    scaled by the row's normalisation factor. -/
theorem linear2_point (x0 : Vec Ideal S4000x128 .f32) (x1 : Vec Ideal S128x32 .f32) (x2 : Vec Ideal S4000x1 .f32)
    (r : Fin 4000) (k : Fin 32) :
    k2_pay1 (F := Ideal) x0 x1 x2 (ix2 r k) = (∑ j : Fin 128, x0 (ix2 r j) * x1 (ix2 j k)) * x2 (ix2 r (0 : Fin 1)) := by
  unfold k2_pay1
  refine congrArg₂ (· * ·) ?_ ?_
  · refine (Cert.DenseRows.matmul_zero_plain_apply dot_S4000x128_S128x32_S4000x32_1_0_0_1_n_n rfl rfl rfl rfl
      hidDot_lhsRow hidDot_rhsCol _ _ r k).trans ?_
    refine Finset.sum_congr rfl fun j _ => congrArg₂ (· * ·) ?_ rfl
    exact congrFun (shapeCast_self x0 shapeCasts_S4000x128_S4000x128) (ix2 r j)
  · refine (Cert.Lib.ColumnBroadcast.broadcastTo_a1_ab_apply _ _ r k).trans ?_
    rw [shapeCast_self]

/-- The second linear layer over the whole node array: at `(n, k)`, row `n` of the hidden features against column `k` of
    the weights, scaled by node `n`'s normalisation factor. -/
def linear2 (a : S100000x128.Idx → EReal) (w : S128x32.Idx → EReal) (s : S100000x1.Idx → EReal) : S100000x32.Idx → EReal :=
  fun i => (∑ j : Fin 128, a (ix2 (i 0) j) * w (ix2 j (i 1))) * s (ix2 (i 0) (0 : Fin 1))

/-- The windows' block indices over the 25 points: the row windows move together, 4000 rows a point; the weights stay. -/
theorem blockIdx2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of `linear2` of the arrays the region found. -/
theorem flushed2_eq (c : Dev nD) (t : Fin cfg2.N) :
    (dat2 (F := Ideal) V c).flushed 3 t
      = ((cfg2.win 3).blk t).view.read (Elt Ideal) (linear2 (V c main_v25) (V c main_arg5) (V c main_v26)) := by
  show (cfg2.win 3).cut (grid2.coords t) ((dat2 (F := Ideal) V c).after 3 t) = _
  rw [after2_3]
  unfold out2_3
  rw [View.canon_unit_zero zeroOffsets]
  simp only [View.ld_unit_zero (S := S4000x128) zeroOffsets, View.ld_unit_zero (S := S128x32) zeroOffsets,
    View.ld_unit_zero (S := S4000x1) zeroOffsets]
  obtain ⟨e00, e01, e10, e11, e20, e21, e30, e31⟩ := blockIdx2 t
  funext y
  show k2_pay1 (F := Ideal) (iblk2 V c 0 t) (iblk2 V c 1 t) (iblk2 V c 2 t) y
      = linear2 (V c main_v25) (V c main_arg5) (V c main_v26) (((cfg2.win 3).blk t).view.emb y)
  refine (congrArg (k2_pay1 (F := Ideal) (iblk2 V c 0 t) (iblk2 V c 1 t) (iblk2 V c 2 t))
    (eq_ix2 (n0 := 4000) (n1 := 32) y)).trans ?_
  refine (linear2_point (iblk2 V c 0 t) (iblk2 V c 1 t) (iblk2 V c 2 t) (y 0) (y 1)).trans ?_
  unfold linear2
  refine congrArg₂ (· * ·) (Finset.sum_congr rfl fun j _ => congrArg₂ (· * ·) ?_ ?_) ?_
  · show V c main_v25 (((cfg2.win 0).blk t).view.emb (ix2 (y 0) j))
        = V c main_v25 (ix2 ((((cfg2.win 3).blk t).view.emb y) 0) j)
    refine congrArg (V c main_v25 : S100000x128.Idx → EReal) (funext fun a => Fin.ext ?_)
    match a with
    | ⟨0, _⟩ =>
      show win2_0.index t (0 : Fin 2) * 4000 + 1 * (y 0).val = win2_3.index t (0 : Fin 2) * 4000 + 1 * (y 0).val
      rw [e00]
    | ⟨1, _⟩ =>
      show win2_0.index t (1 : Fin 2) * 128 + 1 * j.val = j.val
      rw [e01]; omega
  · show V c main_arg5 (((cfg2.win 1).blk t).view.emb (ix2 j (y 1)))
        = V c main_arg5 (ix2 j ((((cfg2.win 3).blk t).view.emb y) 1))
    refine congrArg (V c main_arg5 : S128x32.Idx → EReal) (funext fun a => Fin.ext ?_)
    match a with
    | ⟨0, _⟩ =>
      show win2_1.index t (0 : Fin 2) * 128 + 1 * j.val = j.val
      rw [e10]; omega
    | ⟨1, _⟩ =>
      show win2_1.index t (1 : Fin 2) * 32 + 1 * (y 1).val = win2_3.index t (1 : Fin 2) * 32 + 1 * (y 1).val
      rw [e11, e31]
  · show V c main_v26 (((cfg2.win 2).blk t).view.emb (ix2 (y 0) (0 : Fin 1)))
        = V c main_v26 (ix2 ((((cfg2.win 3).blk t).view.emb y) 0) (0 : Fin 1))
    refine congrArg (V c main_v26 : S100000x1.Idx → EReal) (funext fun a => Fin.ext ?_)
    match a with
    | ⟨0, _⟩ =>
      show win2_2.index t (0 : Fin 2) * 4000 + 1 * (y 0).val = win2_3.index t (0 : Fin 2) * 4000 + 1 * (y 0).val
      rw [e20]
    | ⟨1, _⟩ =>
      show win2_2.index t (1 : Fin 2) * 1 + 1 * 0 = 0
      rw [e21]

/-- An index of the node array is in point `t`'s block iff each coordinate is in the block's range on its axis. -/
theorem mem_blk2 (t : Fin cfg2.N) (i : S100000x32.Idx) :
    i ∈ ((cfg2.win 3).blk t).view.set ↔ ∀ a : Fin 2, win2_3.index t a * S4000x32.size a ≤ (i a).val
      ∧ (i a).val < win2_3.index t a * S4000x32.size a + S4000x32.size a := by
  show i ∈ ((View.whole main_v27).slice (win2_3.rect t)).set ↔ _
  rw [View.set_slice_whole, Rect.mem_set_unit]
  exact Iff.rfl

/-- Row `n` lies in the block of point `n / 4000`: the 25 blocks of 4000 rows tile the 100000 rows. -/
theorem cover2 (i : S100000x32.Idx) :
    ∃ t : Fin cfg2.N, (cfg2.win 3).flush t = true ∧ i ∈ ((cfg2.win 3).blk t).view.set := by
  have h0 : (i 0).val < 100000 := idx2_lt0 i
  have h1 : (i 1).val < 32 := idx2_lt1 i
  have hN : grid2.N = 25 := N_2
  let t : Fin cfg2.N := ⟨(i 0).val / 4000, by show (i 0).val / 4000 < grid2.N; rw [hN]; omega⟩
  have ht : t.val = (i 0).val / 4000 := rfl
  obtain ⟨-, -, -, -, -, -, e30, e31⟩ := blockIdx2 t
  refine ⟨t, flush2_3 t, ?_⟩
  rw [mem_blk2]
  intro a
  match a with
  | ⟨0, _⟩ =>
    show win2_3.index t (0 : Fin 2) * 4000 ≤ (i 0).val ∧ (i 0).val < win2_3.index t (0 : Fin 2) * 4000 + 4000
    rw [e30, ht]; omega
  | ⟨1, _⟩ =>
    show win2_3.index t (1 : Fin 2) * 32 ≤ (i 1).val ∧ (i 1).val < win2_3.index t (1 : Fin 2) * 32 + 32
    rw [e31]; omega

/-- The node array after the second linear layer's region is `linear2` of the arrays the region found. -/
theorem final2_array (c : Dev nD) :
    (dat2 (F := Ideal) V c).arrAt 3 cfg2.N = linear2 (V c main_v25) (V c main_arg5) (V c main_v26) :=
  (dat2 (F := Ideal) V c).arrAt_eq_of_cover 3 (linear2 (V c main_v25) (V c main_arg5) (V c main_v26))
    (fun t _ => flushed2_eq V c t) cover2

/-- … read at node `n`, column `k`. -/
theorem final2 (c : Dev nD) (n : Fin 100000) (k : Fin 32) :
    (dat2 (F := Ideal) V c).arrAt 3 cfg2.N (ix2 n k)
      = scaleAt (dotAt (fun j : Fin 128 => V c main_v25 (ix2 n j)) (fun j => V c main_arg5 (ix2 j k)))
          (V c main_v26 (ix2 n (0 : Fin 1))) :=
  congrFun (final2_array V c) (ix2 n k)

end Cert.KerDense

end
-- ==== Proof.KerCombineRegions.lean ====
/-
  The two pointwise combine regions of the idealized kernel, each read as one function of the arrays the region finds.

  Region 1 walks the 100000 node rows in 25 blocks of 4000 rows. On its block of rows it adds the aggregated
  neighbour features to the node's own transformed features, scales every row by that row's normalisation
  coefficient (one number per row, spread over the 128 lanes), adds the bias row (one number per lane, spread down the
  rows) and clamps at zero from below. Region 3 does the same on 25000 rows in 5 blocks of 5000 rows, except that its
  scaling factor is already a full [rows, 128] array. A block of a window is a range of whole rows, block `t` starting
  at row `t` times the block height; the bias window is the same single row at every point. Since the output's blocks
  tile the output array and every point writes its block back, the output array after the region is the same
  expression of the input ARRAYS at every index (n, k): entry (n, k) depends on row n of the row-indexed inputs and on
  lane k of the bias, and on nothing else.
-/
import proofs.«113900_j64527588655724_2_alg».proof.Proof.Gen.KernelIdeal.Frame
import proofs.«113900_j64527588655724_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerCombine

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.ColumnBroadcast

-- the TensorCore's buffer contents when a region is entered
variable (V : (c : Dev nD) → (b : Ref sig .tc) → Buf (Elt Ideal) ((c : Thread nD τ).loc b))

/-- A whole-block access starts at the origin of its staging buffer. -/
theorem origin : (![0, 0] : Fin 2 → Nat) = fun _ => 0 := funext fun a => by fin_cases a <;> rfl

/-! ## Region 1: rows of 100000, blocks of 4000 -/

/-- The body's value at row `r`, lane `l` of its block: the row's coefficient times the sum of the two feature
    entries, plus the lane's bias, clamped at zero. -/
theorem rowCombine_apply (own : Vec Ideal S4000x128 .f32) (coef : Vec Ideal S4000x1 .f32) (agg : Vec Ideal S4000x128 .f32)
    (bias : Vec Ideal S1x128 .f32) (r : Fin 4000) (l : Fin 128) :
    k1_pay1 (F := Ideal) own coef agg bias (ix2 r l)
      = max (coef (ix2 r (0 : Fin 1)) * (agg (ix2 r l) + own (ix2 r l)) + bias (ix2 (0 : Fin 1) l)) 0 := by
  unfold k1_pay1
  show max (broadcastTo S4000x128 (shapeCast S4000x1 coef shapeCasts_S4000x1_S4000x1) broadcasts_S4000x1_S4000x128 (ix2 r l)
        * (shapeCast S4000x128 agg shapeCasts_S4000x128_S4000x128 (ix2 r l) + shapeCast S4000x128 own shapeCasts_S4000x128_S4000x128 (ix2 r l))
      + broadcastTo S4000x128 (shapeCast S1x128 bias shapeCasts_S1x128_S1x128) broadcasts_S1x128_S4000x128 (ix2 r l))
      (Ideal.ofBits .f32 0x00000000#32) = _
  rw [shapeCast_self, shapeCast_self, shapeCast_self, shapeCast_self, broadcastTo_a1_ab_apply, broadcastTo_1b_ab_apply,
    Ideal.ofBits_zero_f32]

/-- The number both combine kernels leave at one entry: the scale `s` times the sum of the aggregated entry `a` and
    the own entry `o`, plus the bias `b`, clamped at zero from below. -/
abbrev combineAt (s a o b : EReal) : EReal := max (s * (a + o) + b) 0

/-- The region-1 output array as one function of the arrays the region finds: at row `i 0`, lane `i 1`. -/
def nodeCombine (c : Dev nD) : S100000x128.Idx → EReal := fun i =>
  combineAt (V c main_v23 (ix2 (n0 := 100000) (n1 := 1) (i 0) (0 : Fin 1))) (V c main_v22 i) (V c main_v12 i)
    (V c main_v24 (ix2 (n0 := 1) (n1 := 128) (0 : Fin 1) (i 1)))

/-- The printed block index maps over the 25 points: every row-indexed window's block `t` starts at row block `t`,
    lane block 0; the bias window stays at its one block. -/
theorem rowBlocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r`, lane `l` of block `t` of the aggregated features is row `4000 t + r` of the array. -/
theorem aggBlock1 (c : Dev nD) (t : Fin cfg1.N) (r : Fin 4000) (l : Fin 128) (n : Fin 100000) (hn : n.val = t.val * 4000 + r.val) :
    (iblk1 V c 0 t : Vec Ideal S4000x128 .f32) (ix2 r l) = (V c main_v22 : S100000x128.Idx → EReal) (ix2 n l) := by
  obtain ⟨e0, e1, -⟩ := rowBlocks1 t
  show (V c main_v22 : S100000x128.Idx → EReal) (((cfg1.win 0).blk t).view.emb (ix2 r l)) = _
  refine congrArg _ (funext fun a => Fin.ext ?_)
  match a with
  | ⟨0, _⟩ => show win1_0.index t (0 : Fin 2) * 4000 + 1 * r.val = n.val; omega
  | ⟨1, _⟩ => show win1_0.index t (1 : Fin 2) * 128 + 1 * l.val = l.val; omega

/-- The same for the node's own transformed features. -/
theorem ownBlock1 (c : Dev nD) (t : Fin cfg1.N) (r : Fin 4000) (l : Fin 128) (n : Fin 100000) (hn : n.val = t.val * 4000 + r.val) :
    (iblk1 V c 1 t : Vec Ideal S4000x128 .f32) (ix2 r l) = (V c main_v12 : S100000x128.Idx → EReal) (ix2 n l) := by
  obtain ⟨-, -, e0, e1, -⟩ := rowBlocks1 t
  show (V c main_v12 : S100000x128.Idx → EReal) (((cfg1.win 1).blk t).view.emb (ix2 r l)) = _
  refine congrArg _ (funext fun a => Fin.ext ?_)
  match a with
  | ⟨0, _⟩ => show win1_1.index t (0 : Fin 2) * 4000 + 1 * r.val = n.val; omega
  | ⟨1, _⟩ => show win1_1.index t (1 : Fin 2) * 128 + 1 * l.val = l.val; omega

/-- Row `r` of block `t` of the coefficient column is row `4000 t + r` of the column. -/
theorem coefBlock1 (c : Dev nD) (t : Fin cfg1.N) (r : Fin 4000) (n : Fin 100000) (hn : n.val = t.val * 4000 + r.val) :
    (iblk1 V c 2 t : Vec Ideal S4000x1 .f32) (ix2 r (0 : Fin 1)) = (V c main_v23 : S100000x1.Idx → EReal) (ix2 n (0 : Fin 1)) := by
  obtain ⟨-, -, -, -, e0, e1, -⟩ := rowBlocks1 t
  show (V c main_v23 : S100000x1.Idx → EReal) (((cfg1.win 2).blk t).view.emb (ix2 r (0 : Fin 1))) = _
  refine congrArg _ (funext fun a => Fin.ext ?_)
  match a with
  | ⟨0, _⟩ => show win1_2.index t (0 : Fin 2) * 4000 + 1 * r.val = n.val; omega
  | ⟨1, _⟩ => show win1_2.index t (1 : Fin 2) * 1 + 1 * 0 = 0; omega

/-- The bias window's block is the bias row itself at every point. -/
theorem biasBlock1 (c : Dev nD) (t : Fin cfg1.N) (l : Fin 128) :
    (iblk1 V c 3 t : Vec Ideal S1x128 .f32) (ix2 (0 : Fin 1) l) = (V c main_v24 : S1x128.Idx → EReal) (ix2 (0 : Fin 1) l) := by
  obtain ⟨-, -, -, -, -, -, e0, e1, -⟩ := rowBlocks1 t
  show (V c main_v24 : S1x128.Idx → EReal) (((cfg1.win 3).blk t).view.emb (ix2 (0 : Fin 1) l)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * l.val = l.val; omega

/-- What point `t` writes back is block `t` of `nodeCombine`. -/
theorem nodeFlushed (c : Dev nD) (t : Fin cfg1.N) :
    (dat1 (F := Ideal) V c).flushed 4 t = ((cfg1.win 4).blk t).view.read (Elt Ideal) (nodeCombine V c) := by
  show (cfg1.win 4).cut (grid1.coords t) ((dat1 (F := Ideal) V c).after 4 t) = _
  rw [after1_4]
  unfold out1_4
  rw [View.canon_unit_zero origin]
  simp only [View.ld_unit_zero (S := S4000x128) origin, View.ld_unit_zero (S := S4000x1) origin,
    View.ld_unit_zero (S := S1x128) origin]
  funext j
  obtain ⟨r, l, rfl⟩ : ∃ (r : Fin 4000) (l : Fin 128), j = ix2 r l := ⟨j 0, j 1, eq_ix2 j⟩
  have ht : t.val < 25 := lt_of_lt_of_eq t.isLt N_1
  obtain ⟨-, -, -, -, -, -, -, -, e0, e1⟩ := rowBlocks1 t
  have hemb : ((cfg1.win 4).blk t).view.emb (ix2 r l) = ix2 (⟨t.val * 4000 + r.val, by omega⟩ : Fin 100000) l := by
    funext a
    apply Fin.ext
    match a with
    | ⟨0, _⟩ => show win1_4.index t (0 : Fin 2) * 4000 + 1 * r.val = t.val * 4000 + r.val; omega
    | ⟨1, _⟩ => show win1_4.index t (1 : Fin 2) * 128 + 1 * l.val = l.val; omega
  refine (rowCombine_apply (iblk1 V c 1 t) (iblk1 V c 2 t) (iblk1 V c 0 t) (iblk1 V c 3 t) r l).trans ?_
  show _ = nodeCombine V c (((cfg1.win 4).blk t).view.emb (ix2 r l))
  rw [hemb, aggBlock1 V c t r l ⟨t.val * 4000 + r.val, by omega⟩ rfl, ownBlock1 V c t r l ⟨t.val * 4000 + r.val, by omega⟩ rfl,
    coefBlock1 V c t r ⟨t.val * 4000 + r.val, by omega⟩ rfl, biasBlock1 V c t l]
  rfl

/-- An index of the output array is in point `t`'s block iff each coordinate is in the block's range on its axis. -/
theorem nodeBlock_mem (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v25).slice (win1_4.rect t)).set ↔ _
  rw [View.set_slice_whole, Rect.mem_set_unit]
  exact Iff.rfl

/-- Row `n` lies in the block of point `n / 4000`, which writes back: the blocks cover the output array. -/
theorem nodeCover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hq : (i 0).val / 4000 < cfg1.N := lt_of_lt_of_eq (by omega : (i 0).val / 4000 < 25) N_1.symm
  obtain ⟨-, -, -, -, -, -, -, -, e0, e1⟩ := rowBlocks1 ⟨(i 0).val / 4000, hq⟩
  refine ⟨⟨(i 0).val / 4000, hq⟩, flush1_4 _, ?_⟩
  rw [nodeBlock_mem]
  intro a
  match a with
  | ⟨0, _⟩ =>
    show win1_4.index ⟨(i 0).val / 4000, hq⟩ (0 : Fin 2) * 4000 ≤ (i 0).val ∧ (i 0).val < win1_4.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, hq⟩ (1 : Fin 2) * 128 ≤ (i 1).val ∧ (i 1).val < win1_4.index ⟨(i 0).val / 4000, hq⟩ (1 : Fin 2) * 128 + 128
    rw [e1]; omega

/-- The output array after region 1 is `nodeCombine` of the arrays the region finds. -/
theorem nodeArray (c : Dev nD) : (dat1 (F := Ideal) V c).arrAt 4 cfg1.N = nodeCombine V c :=
  (dat1 (F := Ideal) V c).arrAt_eq_of_cover 4 (nodeCombine V c) (fun t _ => nodeFlushed V c t) nodeCover

/-- REGION 1, index by index: entry (n, k) of the output array after the region is the coefficient of row `n` times
    the sum of the aggregated and the own features at (n, k), plus the bias of lane `k`, clamped at zero. -/
theorem final1 (c : Dev nD) (n : Fin 100000) (k : Fin 128) :
    (dat1 (F := Ideal) V c).arrAt 4 cfg1.N (ix2 n k)
      = combineAt (V c main_v23 (ix2 n (0 : Fin 1))) (V c main_v22 (ix2 n k)) (V c main_v12 (ix2 n k))
          (V c main_v24 (ix2 (0 : Fin 1) k)) := by
  rw [nodeArray]
  rfl

/-! ## Region 3: rows of 25000, blocks of 5000 -/

/-- The body's value at row `r`, lane `l` of its block: the scale entry times the sum of the two feature entries,
    plus the lane's bias, clamped at zero. -/
theorem pairCombine_apply (own : Vec Ideal S5000x128 .f32) (scale : Vec Ideal S5000x128 .f32) (agg : Vec Ideal S5000x128 .f32)
    (bias : Vec Ideal S1x128 .f32) (r : Fin 5000) (l : Fin 128) :
    k3_pay1 (F := Ideal) own scale agg bias (ix2 r l)
      = max (scale (ix2 r l) * (agg (ix2 r l) + own (ix2 r l)) + bias (ix2 (0 : Fin 1) l)) 0 := by
  unfold k3_pay1
  show max (shapeCast S5000x128 scale shapeCasts_S5000x128_S5000x128 (ix2 r l)
        * (shapeCast S5000x128 agg shapeCasts_S5000x128_S5000x128 (ix2 r l) + shapeCast S5000x128 own shapeCasts_S5000x128_S5000x128 (ix2 r l))
      + broadcastTo S5000x128 (shapeCast S1x128 bias shapeCasts_S1x128_S1x128) broadcasts_S1x128_S5000x128 (ix2 r l))
      (Ideal.ofBits .f32 0x00000000#32) = _
  rw [shapeCast_self, shapeCast_self, shapeCast_self, shapeCast_self, broadcastTo_1b_ab_apply, Ideal.ofBits_zero_f32]

/-- The region-3 output array as one function of the arrays the region finds: at row `i 0`, lane `i 1`. -/
def pairCombine (c : Dev nD) : S25000x128.Idx → EReal := fun i =>
  combineAt (V c main_v42 i) (V c main_v38 i) (V c main_v39 i)
    (V c main_v46 (ix2 (n0 := 1) (n1 := 128) (0 : Fin 1) (i 1)))

/-- The printed block index maps over the 5 points: every row-indexed window's block `t` starts at row block `t`,
    lane block 0; the bias window stays at its one block. -/
theorem rowBlocks3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `r`, lane `l` of block `t` of the aggregated features is row `5000 t + r` of the array. -/
theorem aggBlock3 (c : Dev nD) (t : Fin cfg3.N) (r : Fin 5000) (l : Fin 128) (n : Fin 25000) (hn : n.val = t.val * 5000 + r.val) :
    (iblk3 V c 0 t : Vec Ideal S5000x128 .f32) (ix2 r l) = (V c main_v38 : S25000x128.Idx → EReal) (ix2 n l) := by
  obtain ⟨e0, e1, -⟩ := rowBlocks3 t
  show (V c main_v38 : S25000x128.Idx → EReal) (((cfg3.win 0).blk t).view.emb (ix2 r l)) = _
  refine congrArg _ (funext fun a => Fin.ext ?_)
  match a with
  | ⟨0, _⟩ => show win3_0.index t (0 : Fin 2) * 5000 + 1 * r.val = n.val; omega
  | ⟨1, _⟩ => show win3_0.index t (1 : Fin 2) * 128 + 1 * l.val = l.val; omega

/-- The same for the own transformed features. -/
theorem ownBlock3 (c : Dev nD) (t : Fin cfg3.N) (r : Fin 5000) (l : Fin 128) (n : Fin 25000) (hn : n.val = t.val * 5000 + r.val) :
    (iblk3 V c 1 t : Vec Ideal S5000x128 .f32) (ix2 r l) = (V c main_v39 : S25000x128.Idx → EReal) (ix2 n l) := by
  obtain ⟨-, -, e0, e1, -⟩ := rowBlocks3 t
  show (V c main_v39 : S25000x128.Idx → EReal) (((cfg3.win 1).blk t).view.emb (ix2 r l)) = _
  refine congrArg _ (funext fun a => Fin.ext ?_)
  match a with
  | ⟨0, _⟩ => show win3_1.index t (0 : Fin 2) * 5000 + 1 * r.val = n.val; omega
  | ⟨1, _⟩ => show win3_1.index t (1 : Fin 2) * 128 + 1 * l.val = l.val; omega

/-- The same for the scale array. -/
theorem scaleBlock3 (c : Dev nD) (t : Fin cfg3.N) (r : Fin 5000) (l : Fin 128) (n : Fin 25000) (hn : n.val = t.val * 5000 + r.val) :
    (iblk3 V c 2 t : Vec Ideal S5000x128 .f32) (ix2 r l) = (V c main_v42 : S25000x128.Idx → EReal) (ix2 n l) := by
  obtain ⟨-, -, -, -, e0, e1, -⟩ := rowBlocks3 t
  show (V c main_v42 : S25000x128.Idx → EReal) (((cfg3.win 2).blk t).view.emb (ix2 r l)) = _
  refine congrArg _ (funext fun a => Fin.ext ?_)
  match a with
  | ⟨0, _⟩ => show win3_2.index t (0 : Fin 2) * 5000 + 1 * r.val = n.val; omega
  | ⟨1, _⟩ => show win3_2.index t (1 : Fin 2) * 128 + 1 * l.val = l.val; omega

/-- The bias window's block is the bias row itself at every point. -/
theorem biasBlock3 (c : Dev nD) (t : Fin cfg3.N) (l : Fin 128) :
    (iblk3 V c 3 t : Vec Ideal S1x128 .f32) (ix2 (0 : Fin 1) l) = (V c main_v46 : S1x128.Idx → EReal) (ix2 (0 : Fin 1) l) := by
  obtain ⟨-, -, -, -, -, -, e0, e1, -⟩ := rowBlocks3 t
  show (V c main_v46 : S1x128.Idx → EReal) (((cfg3.win 3).blk t).view.emb (ix2 (0 : Fin 1) l)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * l.val = l.val; omega

/-- What point `t` writes back is block `t` of `pairCombine`. -/
theorem pairFlushed (c : Dev nD) (t : Fin cfg3.N) :
    (dat3 (F := Ideal) V c).flushed 4 t = ((cfg3.win 4).blk t).view.read (Elt Ideal) (pairCombine V c) := by
  show (cfg3.win 4).cut (grid3.coords t) ((dat3 (F := Ideal) V c).after 4 t) = _
  rw [after3_4]
  unfold out3_4
  rw [View.canon_unit_zero origin]
  simp only [View.ld_unit_zero (S := S5000x128) origin, View.ld_unit_zero (S := S1x128) origin]
  funext j
  obtain ⟨r, l, rfl⟩ : ∃ (r : Fin 5000) (l : Fin 128), j = ix2 r l := ⟨j 0, j 1, eq_ix2 j⟩
  have ht : t.val < 5 := lt_of_lt_of_eq t.isLt N_3
  obtain ⟨-, -, -, -, -, -, -, -, e0, e1⟩ := rowBlocks3 t
  have hemb : ((cfg3.win 4).blk t).view.emb (ix2 r l) = ix2 (⟨t.val * 5000 + r.val, by omega⟩ : Fin 25000) l := by
    funext a
    apply Fin.ext
    match a with
    | ⟨0, _⟩ => show win3_4.index t (0 : Fin 2) * 5000 + 1 * r.val = t.val * 5000 + r.val; omega
    | ⟨1, _⟩ => show win3_4.index t (1 : Fin 2) * 128 + 1 * l.val = l.val; omega
  refine (pairCombine_apply (iblk3 V c 1 t) (iblk3 V c 2 t) (iblk3 V c 0 t) (iblk3 V c 3 t) r l).trans ?_
  show _ = pairCombine V c (((cfg3.win 4).blk t).view.emb (ix2 r l))
  rw [hemb, aggBlock3 V c t r l ⟨t.val * 5000 + r.val, by omega⟩ rfl, ownBlock3 V c t r l ⟨t.val * 5000 + r.val, by omega⟩ rfl,
    scaleBlock3 V c t r l ⟨t.val * 5000 + r.val, by omega⟩ rfl, biasBlock3 V c t l]
  rfl

/-- An index of the output array is in point `t`'s block iff each coordinate is in the block's range on its axis. -/
theorem pairBlock_mem (t : Fin cfg3.N) (i : S25000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v47).slice (win3_4.rect t)).set ↔ _
  rw [View.set_slice_whole, Rect.mem_set_unit]
  exact Iff.rfl

/-- Row `n` lies in the block of point `n / 5000`, which writes back: the blocks cover the output array. -/
theorem pairCover (i : S25000x128.Idx) :
    ∃ t : Fin cfg3.N, (cfg3.win 4).flush t = true ∧ i ∈ ((cfg3.win 4).blk t).view.set := by
  have hi0 : (i 0).val < 25000 := (i 0).isLt
  have hi1 : (i 1).val < 128 := (i 1).isLt
  have hq : (i 0).val / 5000 < cfg3.N := lt_of_lt_of_eq (by omega : (i 0).val / 5000 < 5) N_3.symm
  obtain ⟨-, -, -, -, -, -, -, -, e0, e1⟩ := rowBlocks3 ⟨(i 0).val / 5000, hq⟩
  refine ⟨⟨(i 0).val / 5000, hq⟩, flush3_4 _, ?_⟩
  rw [pairBlock_mem]
  intro a
  match a with
  | ⟨0, _⟩ =>
    show win3_4.index ⟨(i 0).val / 5000, hq⟩ (0 : Fin 2) * 5000 ≤ (i 0).val ∧ (i 0).val < win3_4.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, hq⟩ (1 : Fin 2) * 128 ≤ (i 1).val ∧ (i 1).val < win3_4.index ⟨(i 0).val / 5000, hq⟩ (1 : Fin 2) * 128 + 128
    rw [e1]; omega

/-- The output array after region 3 is `pairCombine` of the arrays the region finds. -/
theorem pairArray (c : Dev nD) : (dat3 (F := Ideal) V c).arrAt 4 cfg3.N = pairCombine V c :=
  (dat3 (F := Ideal) V c).arrAt_eq_of_cover 4 (pairCombine V c) (fun t _ => pairFlushed V c t) pairCover

/-- REGION 3, index by index: entry (r, l) of the output array after the region is the scale entry at (r, l) times the
    sum of the aggregated and the own features at (r, l), plus the bias of lane `l`, clamped at zero. -/
theorem final3 (c : Dev nD) (r : Fin 25000) (l : Fin 128) :
    (dat3 (F := Ideal) V c).arrAt 4 cfg3.N (ix2 r l)
      = combineAt (V c main_v42 (ix2 r l)) (V c main_v38 (ix2 r l)) (V c main_v39 (ix2 r l))
          (V c main_v46 (ix2 (0 : Fin 1) l)) := by
  rw [pairArray]
  rfl

end Cert.KerCombine

end
-- ==== Proof.KerHeadRegion.lean ====
/-
  The classifier head of the idealized kernel, read as one function of the arrays the region finds.

  The region has a single grid point and every window is its whole array. On the 4096 selected rows it multiplies the
  [4096, 32] features into the [32, 64] first weights, adds the [1, 64] bias row to every row, clamps at zero from below,
  multiplies the [4096, 64] hidden layer into the [64, 1] second weights and adds the one [1, 1] bias to every row. At the
  ideal values a change of float format is the identity and a matrix product into the zero accumulator is the plain sum
  of products over the contracted index, so the output column at row `q` is
  `(∑ k, max ((∑ j, x (q, j) · w1 (j, k)) + b1 k) 0 · w2 k) + b2`: it depends on row `q` of the features and on the whole of
  the two weight matrices and the two biases.
-/
import proofs.«113900_j64527588655724_2_alg».proof.Proof.Gen.KernelIdeal.Frame
import proofs.«113900_j64527588655724_2_alg».proof.Proof.LibDenseRows
import proofs.«113900_j64527588655724_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KerHead

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The head's output for one row: `x` is the row's features, `w1`, `b1` the first layer's weights and bias, `w2`, `b2`
    the second layer's weight column and bias. -/
abbrev headAt {A B : ℕ} (x : Fin A → EReal) (w1 : Fin A → Fin B → EReal) (b1 w2 : Fin B → EReal) (b2 : EReal) : EReal :=
  (∑ k : Fin B, max ((∑ j : Fin A, x j * w1 j k) + b1 k) 0 * w2 k) + b2

/-- A whole-block access starts at the origin of its staging buffer. -/
theorem origin : (![0, 0] : Fin 2 → Nat) = fun _ => 0 := funext fun a => by fin_cases a <;> rfl

/-! ## The two contractions' index maps -/

/-- The first product keeps the left operand's row. -/
theorem hiddenDot_row (j : S4096x64.Idx) (q : dot_S4096x32_S32x64_S4096x64_1_0_0_1_n_n.contr.Idx) :
    (dot_S4096x32_S32x64_S4096x64_1_0_0_1_n_n.lhsIdx j q (0 : Fin 2)).val = (j (0 : Fin 2)).val := by
  unfold DotDims.lhsIdx
  rw [dif_neg (show ¬(0 : Fin S4096x32.rank) ∈ dot_S4096x32_S32x64_S4096x64_1_0_0_1_n_n.lhsBatch by decide),
    dif_pos (show (0 : Fin S4096x32.rank) ∈ dot_S4096x32_S32x64_S4096x64_1_0_0_1_n_n.lhsNonContracting by decide)]
  rfl

/-- The first product keeps the right operand's column. -/
theorem hiddenDot_col (j : S4096x64.Idx) (q : dot_S4096x32_S32x64_S4096x64_1_0_0_1_n_n.contr.Idx) :
    (dot_S4096x32_S32x64_S4096x64_1_0_0_1_n_n.rhsIdx j q (1 : Fin 2)).val = (j (1 : Fin 2)).val := by
  unfold DotDims.rhsIdx
  rw [dif_neg (show ¬(1 : Fin S32x64.rank) ∈ dot_S4096x32_S32x64_S4096x64_1_0_0_1_n_n.rhsBatch by decide),
    dif_pos (show (1 : Fin S32x64.rank) ∈ dot_S4096x32_S32x64_S4096x64_1_0_0_1_n_n.rhsNonContracting by decide)]
  rfl

/-- The second product keeps the left operand's row. -/
theorem outDot_row (j : S4096x1.Idx) (q : dot_S4096x64_S64x1_S4096x1_1_0_0_1_n_n.contr.Idx) :
    (dot_S4096x64_S64x1_S4096x1_1_0_0_1_n_n.lhsIdx j q (0 : Fin 2)).val = (j (0 : Fin 2)).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl

/-- The second product keeps the right operand's column. -/
theorem outDot_col (j : S4096x1.Idx) (q : dot_S4096x64_S64x1_S4096x1_1_0_0_1_n_n.contr.Idx) :
    (dot_S4096x64_S64x1_S4096x1_1_0_0_1_n_n.rhsIdx j q (1 : Fin 2)).val = (j (1 : Fin 2)).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-! ## The body at an entry -/

/-- The hidden layer on the whole block: the first product plus the bias row, clamped at zero. -/
def hidden (x : Vec Ideal S4096x32 .f32) (w1 : Vec Ideal S32x64 .f32) (b1 : Vec Ideal S1x64 .f32) : FVec Ideal S4096x64 .f32 :=
  maximumf
    (addf
      (matmul dot_S4096x32_S32x64_S4096x64_1_0_0_1_n_n none
        (truncf .bf16 (shapeCast S4096x32 x shapeCasts_S4096x32_S4096x32) bitsLt_bf16_f32)
        (truncf .bf16 w1 bitsLt_bf16_f32) (constant (F := Ideal) S4096x64 .f32 0x00000000#32))
      (broadcastTo S4096x64 (shapeCast S1x64 b1 shapeCasts_S1x64_S1x64) broadcasts_S1x64_S4096x64))
    (broadcast S4096x64 (Scalar.ofBits (F := Ideal) .f32 0x00000000#32))

/-- Hidden unit `k` of row `q`: the row against column `k` of the first weights, plus the bias of unit `k`, clamped at
    zero. -/
theorem hidden_apply (x : Vec Ideal S4096x32 .f32) (w1 : Vec Ideal S32x64 .f32) (b1 : Vec Ideal S1x64 .f32)
    (q : Fin 4096) (k : Fin 64) :
    hidden x w1 b1 (ix2 q k) = max ((∑ j : Fin 32, x (ix2 q j) * w1 (ix2 j k)) + b1 (ix2 (0 : Fin 1) k)) 0 := by
  unfold hidden
  rw [shapeCast_self, shapeCast_self]
  show max (matmul dot_S4096x32_S32x64_S4096x64_1_0_0_1_n_n none (truncf .bf16 x bitsLt_bf16_f32) (truncf .bf16 w1 bitsLt_bf16_f32)
        (constant (F := Ideal) S4096x64 .f32 0x00000000#32) (ix2 q k)
      + broadcastTo S4096x64 b1 broadcasts_S1x64_S4096x64 (ix2 q k)) (Ideal.ofBits .f32 0x00000000#32) = _
  rw [Ideal.ofBits_zero_f32, broadcastTo_1b_ab_apply]
  refine congrArg (fun z => max (z + b1 (ix2 (0 : Fin 1) k)) 0) ?_
  exact Cert.DenseRows.matmul_zero_plain_apply dot_S4096x32_S32x64_S4096x64_1_0_0_1_n_n rfl rfl rfl rfl hiddenDot_row hiddenDot_col
    (truncf .bf16 x bitsLt_bf16_f32) (truncf .bf16 w1 bitsLt_bf16_f32) q k

/-- The body's value at row `q` of its one block. -/
theorem headBlock_apply (x : Vec Ideal S4096x32 .f32) (w1 : Vec Ideal S32x64 .f32) (b1 : Vec Ideal S1x64 .f32)
    (w2 : Vec Ideal S64x1 .f32) (b2 : Vec Ideal S1x1 .f32) (q : Fin 4096) (u : Fin 1) :
    k4_pay1 (F := Ideal) x w1 b1 w2 b2 (ix2 q u)
      = headAt (fun j : Fin 32 => x (ix2 q j)) (fun (j : Fin 32) (k : Fin 64) => w1 (ix2 j k))
          (fun k : Fin 64 => b1 (ix2 (0 : Fin 1) k)) (fun k : Fin 64 => w2 (ix2 k u)) (b2 (ix2 (0 : Fin 1) u)) := by
  show matmul dot_S4096x64_S64x1_S4096x1_1_0_0_1_n_n none (truncf .bf16 (hidden x w1 b1) bitsLt_bf16_f32) (truncf .bf16 w2 bitsLt_bf16_f32)
        (constant (F := Ideal) S4096x1 .f32 0x00000000#32) (ix2 q u)
      + broadcastTo S4096x1 (shapeCast S1x1 b2 shapeCasts_S1x1_S1x1) broadcasts_S1x1_S4096x1 (ix2 q u) = _
  rw [shapeCast_self, broadcastTo_1b_ab_apply]
  refine congrArg (fun z => z + b2 (ix2 (0 : Fin 1) u)) ?_
  refine (Cert.DenseRows.matmul_zero_plain_apply dot_S4096x64_S64x1_S4096x1_1_0_0_1_n_n rfl rfl rfl rfl outDot_row outDot_col
    (truncf .bf16 (hidden x w1 b1) bitsLt_bf16_f32) (truncf .bf16 w2 bitsLt_bf16_f32) q u).trans ?_
  exact Finset.sum_congr rfl fun k _ => congrArg (fun z => z * w2 (ix2 k u)) (hidden_apply x w1 b1 q k)

/-! ## From the one block to the array -/

-- the TensorCore's buffer contents when the region is entered
variable (V : (c : Dev nD) → (b : Ref sig .tc) → Buf (Elt Ideal) ((c : Thread nD τ).loc b))

/-- The head's output array as one function of the arrays the region finds: at row `i 0` of its one column. -/
def headArray (c : Dev nD) : S4096x1.Idx → EReal := fun i =>
  headAt (fun j : Fin 32 => V c main_v55 (ix2 (n0 := 4096) (n1 := 32) (i 0) j))
    (fun (j : Fin 32) (k : Fin 64) => V c main_arg7 (ix2 j k))
    (fun k : Fin 64 => V c main_v56 (ix2 (0 : Fin 1) k))
    (fun k : Fin 64 => V c main_arg9 (ix2 k (0 : Fin 1)))
    (V c main_v57 (ix2 (0 : Fin 1) (0 : Fin 1)))

/-- The printed block index maps at the one point: every window's block is block (0, 0), its whole array. -/
theorem wholeBlocks : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The features' block is the features' array. -/
theorem featBlock (c : Dev nD) (t : Fin cfg4.N) : (iblk4 V c 0 t : Vec Ideal S4096x32 .f32) = (V c main_v55 : S4096x32.Idx → EReal) := by
  obtain ⟨e0, e1, -⟩ := wholeBlocks t
  funext y
  show (V c main_v55 : S4096x32.Idx → EReal) (((cfg4.win 0).blk t).view.emb y) = _
  refine congrArg _ (funext fun a => Fin.ext ?_)
  match a with
  | ⟨0, _⟩ => show win4_0.index t (0 : Fin 2) * 4096 + 1 * (y 0).val = (y 0).val; omega
  | ⟨1, _⟩ => show win4_0.index t (1 : Fin 2) * 32 + 1 * (y 1).val = (y 1).val; omega

/-- The first weights' block is their array. -/
theorem weight1Block (c : Dev nD) (t : Fin cfg4.N) : (iblk4 V c 1 t : Vec Ideal S32x64 .f32) = (V c main_arg7 : S32x64.Idx → EReal) := by
  obtain ⟨-, -, e0, e1, -⟩ := wholeBlocks t
  funext y
  show (V c main_arg7 : S32x64.Idx → EReal) (((cfg4.win 1).blk t).view.emb y) = _
  refine congrArg _ (funext fun a => Fin.ext ?_)
  match a with
  | ⟨0, _⟩ => show win4_1.index t (0 : Fin 2) * 32 + 1 * (y 0).val = (y 0).val; omega
  | ⟨1, _⟩ => show win4_1.index t (1 : Fin 2) * 64 + 1 * (y 1).val = (y 1).val; omega

/-- The first bias row's block is the row. -/
theorem bias1Block (c : Dev nD) (t : Fin cfg4.N) : (iblk4 V c 2 t : Vec Ideal S1x64 .f32) = (V c main_v56 : S1x64.Idx → EReal) := by
  obtain ⟨-, -, -, -, e0, e1, -⟩ := wholeBlocks t
  funext y
  show (V c main_v56 : S1x64.Idx → EReal) (((cfg4.win 2).blk t).view.emb y) = _
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The second weights' block is their column. -/
theorem weight2Block (c : Dev nD) (t : Fin cfg4.N) : (iblk4 V c 3 t : Vec Ideal S64x1 .f32) = (V c main_arg9 : S64x1.Idx → EReal) := by
  obtain ⟨-, -, -, -, -, -, e0, e1, -⟩ := wholeBlocks t
  funext y
  show (V c main_arg9 : S64x1.Idx → EReal) (((cfg4.win 3).blk t).view.emb y) = _
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 1 + 1 * (y 1).val = (y 1).val; omega

/-- The second bias' block is the one number. -/
theorem bias2Block (c : Dev nD) (t : Fin cfg4.N) : (iblk4 V c 4 t : Vec Ideal S1x1 .f32) = (V c main_v57 : S1x1.Idx → EReal) := by
  obtain ⟨-, -, -, -, -, -, -, -, e0, e1, -⟩ := wholeBlocks t
  funext y
  show (V c main_v57 : S1x1.Idx → EReal) (((cfg4.win 4).blk t).view.emb y) = _
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- What the one point writes back is the whole of `headArray`. -/
theorem headFlushed (c : Dev nD) (t : Fin cfg4.N) :
    (dat4 (F := Ideal) V c).flushed 5 t = ((cfg4.win 5).blk t).view.read (Elt Ideal) (headArray V c) := by
  show (cfg4.win 5).cut (grid4.coords t) ((dat4 (F := Ideal) V c).after 5 t) = _
  rw [after4_5]
  unfold out4_5
  rw [View.canon_unit_zero origin]
  simp only [View.ld_unit_zero (S := S4096x32) origin, View.ld_unit_zero (S := S32x64) origin,
    View.ld_unit_zero (S := S1x64) origin, View.ld_unit_zero (S := S64x1) origin, View.ld_unit_zero (S := S1x1) origin]
  funext j
  obtain ⟨q, u, rfl⟩ : ∃ (q : Fin 4096) (u : Fin 1), j = ix2 q u := ⟨j 0, j 1, eq_ix2 j⟩
  obtain rfl : u = 0 := Fin.ext (by omega)
  obtain ⟨-, -, -, -, -, -, -, -, -, -, e0, e1⟩ := wholeBlocks t
  have hemb : ((cfg4.win 5).blk t).view.emb (ix2 q (0 : Fin 1)) = ix2 q (0 : Fin 1) := by
    funext a
    apply Fin.ext
    match a with
    | ⟨0, _⟩ => show win4_5.index t (0 : Fin 2) * 4096 + 1 * q.val = q.val; omega
    | ⟨1, _⟩ => show win4_5.index t (1 : Fin 2) * 1 + 1 * 0 = 0; omega
  refine (headBlock_apply (iblk4 V c 0 t) (iblk4 V c 1 t) (iblk4 V c 2 t) (iblk4 V c 3 t) (iblk4 V c 4 t) q 0).trans ?_
  show _ = headArray V c (((cfg4.win 5).blk t).view.emb (ix2 q (0 : Fin 1)))
  rw [hemb, featBlock V c t, weight1Block V c t, bias1Block V c t, weight2Block V c t, bias2Block V c t]
  rfl

/-- An index of the output array is in point `t`'s block iff each coordinate is in the block's range on its axis. -/
theorem headBlock_mem (t : Fin cfg4.N) (i : S4096x1.Idx) :
    i ∈ ((cfg4.win 5).blk t).view.set ↔ ∀ a : Fin 2, win4_5.index t a * S4096x1.size a ≤ (i a).val ∧ (i a).val < win4_5.index t a * S4096x1.size a + S4096x1.size a := by
  show i ∈ ((View.whole main_v58).slice (win4_5.rect t)).set ↔ _
  rw [View.set_slice_whole, Rect.mem_set_unit]
  exact Iff.rfl

/-- The one point's block is the whole output array, and the point writes it back. -/
theorem headCover (i : S4096x1.Idx) :
    ∃ t : Fin cfg4.N, (cfg4.win 5).flush t = true ∧ i ∈ ((cfg4.win 5).blk t).view.set := by
  have hi0 : (i 0).val < 4096 := (i 0).isLt
  have hi1 : (i 1).val < 1 := (i 1).isLt
  obtain ⟨-, -, -, -, -, -, -, -, -, -, e0, e1⟩ := wholeBlocks t4_0
  refine ⟨t4_0, flush4_5 _, ?_⟩
  rw [headBlock_mem]
  intro a
  match a with
  | ⟨0, _⟩ =>
    show win4_5.index t4_0 (0 : Fin 2) * 4096 ≤ (i 0).val ∧ (i 0).val < win4_5.index t4_0 (0 : Fin 2) * 4096 + 4096
    rw [e0]; omega
  | ⟨1, _⟩ =>
    show win4_5.index t4_0 (1 : Fin 2) * 1 ≤ (i 1).val ∧ (i 1).val < win4_5.index t4_0 (1 : Fin 2) * 1 + 1
    rw [e1]; omega

/-- The output array after the head's region is `headArray` of the arrays the region finds. -/
theorem headArray_eq (c : Dev nD) : (dat4 (F := Ideal) V c).arrAt 5 cfg4.N = headArray V c :=
  (dat4 (F := Ideal) V c).arrAt_eq_of_cover 5 (headArray V c) (fun t _ => headFlushed V c t) headCover

/-- REGION 4, index by index: row `q` of the output column after the region is the head applied to row `q` of the
    features with the two weight matrices and the two biases the region finds. -/
theorem final4 (c : Dev nD) (q : Fin 4096) :
    (dat4 (F := Ideal) V c).arrAt 5 cfg4.N (ix2 q (0 : Fin 1))
      = headAt (fun j : Fin 32 => V c main_v55 (ix2 q j)) (fun (j : Fin 32) (k : Fin 64) => V c main_arg7 (ix2 j k))
          (fun k => V c main_v56 (ix2 (0 : Fin 1) k)) (fun k => V c main_arg9 (ix2 k (0 : Fin 1)))
          (V c main_v57 (ix2 (0 : Fin 1) (0 : Fin 1))) := by
  rw [headArray_eq]
  rfl

end Cert.KerHead

end
-- ==== Proof.LibRealValued.lean ====
/-
  Extended reals that are real numbers, and arrays of them.

  At the exact instance a float is an extended real. Most algebraic laws that a
  kernel and its reference differ by (here: how a log-sum-exp shift is
  re-associated) hold for real numbers and fail at an infinity, so a value proof
  first has to know that the numbers it meets are real. This module fixes the
  predicate `IsReal x` ("x is the coercion of a real"), its array form
  `AllReal v`, and their closure under the exact operations: sums, differences,
  products, finite sums, maxima over a nonempty finite set, the reciprocal of a
  nonzero real, the reciprocal square root of a positive real and the exponential.

  It also holds the one law used at the end: for a real `m`,
  `a - (m + L) = (a - m) - L` for ALL extended reals `a` and `L`. (For `m = ⊤`
  the two sides differ: with `L = ⊥` the left is `⊤` and the right `⊥`.)
-/
import Mathlib
import Idealize.ShloMosaic.PureOps.Ideal
import Idealize.ShloMosaic.PureOps.Ideal.Laws

noncomputable section

namespace Cert.RealValued

open Idealize.ShloMosaic

/-- `x` is a real number (neither infinity). -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩
theorem isReal_zero : IsReal (0 : EReal) := ⟨0, by simp⟩
theorem isReal_one : IsReal (1 : EReal) := ⟨1, by simp⟩
theorem isPos_one : IsPos (1 : EReal) := ⟨1, one_pos, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  rcases le_total x y with h | h
  · rwa [max_eq_right h]
  · rwa [max_eq_left h]

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of a nonnegative real and finitely many nonnegative reals, plus a positive real, is positive: stated
    in the one form used (a count of ones plus one). -/
theorem IsPos.add_of_nonneg {x y : EReal} (hx : ∃ r : ℝ, 0 ≤ r ∧ x = (r : EReal)) (hy : IsPos y) : IsPos (x + y) := by
  obtain ⟨a, ha, rfl⟩ := hx; obtain ⟨b, hb, rfl⟩ := hy
  exact ⟨a + b, by linarith, (EReal.coe_add a b).symm⟩

/-- A finite sum of ones, from zero, is a nonnegative real. -/
theorem nonneg_zero_add_sum_one {ι : Type} (s : Finset ι) :
    ∃ r : ℝ, 0 ≤ r ∧ (0 : EReal) + ∑ _i ∈ s, (1 : EReal) = (r : EReal) := by
  refine ⟨(s.card : ℝ), Nat.cast_nonneg _, ?_⟩
  rw [Finset.sum_const, zero_add]
  simp [nsmul_eq_mul]

/-- The maximum of `⊥` and the values of a real-valued function over a NONEMPTY finite set is a real number. -/
theorem isReal_fold_max {ι : Type} (s : Finset ι) (f : ι → EReal) (hs : s.Nonempty) (h : ∀ i ∈ s, IsReal (f i)) :
    IsReal (s.fold max ⊥ f) := by
  classical
  induction s using Finset.induction_on with
  | empty => exact absurd hs (by simp)
  | insert a s ha ih =>
    rw [Finset.fold_insert ha]
    rcases s.eq_empty_or_nonempty with hse | hsn
    · subst hse
      rw [Finset.fold_empty, max_eq_left bot_le]
      exact h a (Finset.mem_insert_self a _)
    · exact isReal_max (h a (Finset.mem_insert_self a s)) (ih hsn fun i hi => h i (Finset.mem_insert_of_mem hi))

/-- The reciprocal square root of a positive real is a positive real. -/
theorem IsPos.rsqrt {x : EReal} (hx : IsPos x) : IsPos (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- One over a positive real is a real. -/
theorem IsPos.one_div {x : EReal} (hx : IsPos x) : IsReal (Ideal.div 1 x) := by
  obtain ⟨r, hr, rfl⟩ := hx
  rw [Ideal.div_coe hr.ne']
  exact isReal_one.mul (isReal_coe _)

/-- The exponential of a real is a real. -/
theorem IsReal.exp {x : EReal} (hx : IsReal x) : IsReal (Ideal.exp x) := by
  obtain ⟨r, rfl⟩ := hx; exact ⟨Real.exp r, Ideal.exp_coe r⟩

/-- The pattern of `-∞` denotes the bottom element. -/
theorem ofBits_neg_inf : Ideal.ofBits .f32 0xFF800000#32 = ⊥ := by simp [Ideal.ofBits, Ideal.ieee]

/-- THE LAW that joins the two spellings of a log-softmax: a REAL shift `m` moves across the difference,
    whatever `a` and `L` are. -/
theorem sub_add_real (a L : EReal) (m : ℝ) : a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

/-- Every entry of the array is a real number. -/
def AllReal {ι : Type} (v : ι → EReal) : Prop := ∀ i, IsReal (v i)

/-- Every entry of the array is a positive real number. -/
def AllPos {ι : Type} (v : ι → EReal) : Prop := ∀ i, IsPos (v i)

theorem AllPos.allReal {ι : Type} {v : ι → EReal} (h : AllPos v) : AllReal v := fun i => (h i).isReal

/-- Reading a real-valued array through any index function gives a real-valued array (a broadcast, a reshape, a
    slice, a gather: each result element IS one operand element). -/
theorem AllReal.comp {ι κ : Type} {v : ι → EReal} (h : AllReal v) (g : κ → ι) : AllReal (fun j => v (g j)) :=
  fun j => h (g j)

theorem AllPos.comp {ι κ : Type} {v : ι → EReal} (h : AllPos v) (g : κ → ι) : AllPos (fun j => v (g j)) :=
  fun j => h (g j)

end Cert.RealValued

end
-- ==== Proof.LibRealHostOps.lean ====
/-
  Real-valued arrays stay real-valued under the host operations of a graph convolution, at the exact instance.

  A layout operation (broadcast, reshape, gather) makes each result element ONE operand element; a pointwise sum,
  difference or product combines two; a matrix product and a scatter-add are finite sums of products / of update
  elements on top of an operand element. So an array of real numbers goes to an array of real numbers through all
  of them, whatever the integer index arrays hold. Two operations need more than "real": a reciprocal square root
  and a reciprocal are real where their argument is a POSITIVE real, which is what a degree count plus one is
  (a scatter-add of ones into zeros, plus one).
-/
import proofs.«113900_j64527588655724_2_alg».proof.Proof.LibRealValued
import Idealize.ShloMosaic.PureOps.Ideal.Laws

noncomputable section

namespace Cert.RealValued

open Idealize.ShloMosaic

variable {s t u si sl sr so : Shape} {w : Nat}

/-- Every entry is a nonnegative real number. -/
def AllNonneg {ι : Type} (v : ι → EReal) : Prop := ∀ i, ∃ r : ℝ, 0 ≤ r ∧ v i = (r : EReal)

theorem AllNonneg.allReal {ι : Type} {v : ι → EReal} (h : AllNonneg v) : AllReal v := fun i => let ⟨r, _, e⟩ := h i; ⟨r, e⟩

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)

theorem allReal_broadcastInDim {x : FVec Ideal s .f32} (hx : AllReal x) (dims : Fin s.rank → Fin t.rank) (h : s.BroadcastsInDim t dims) :
    AllReal (broadcastInDim t dims h x) := fun _ => hx _
theorem allPos_broadcastInDim {x : FVec Ideal s .f32} (hx : AllPos x) (dims : Fin s.rank → Fin t.rank) (h : s.BroadcastsInDim t dims) :
    AllPos (broadcastInDim t dims h x) := fun _ => hx _
theorem allReal_shapeCast {x : FVec Ideal s .f32} (hx : AllReal x) (h : s.ShapeCasts t) : AllReal (shapeCast t x h) := fun _ => hx _
theorem allReal_gather {x : FVec Ideal s .f32} (hx : AllReal x) (d : GatherDims s si t) (idx : IVec si w) :
    AllReal (Host.gather d x idx) := fun _ => hx _

/-- A constant array is real-valued when its pattern denotes a real. -/
theorem allReal_constant (b : BitVec 32) (hb : IsReal (Ideal.ofBits .f32 b)) : AllReal (constant (F := Ideal) s .f32 b) := fun _ => hb

/-- A scatter-add of real updates into a real operand. -/
theorem allReal_scatterAdd {x : FVec Ideal s .f32} {upd : FVec Ideal u .f32} (hx : AllReal x) (hu : AllReal upd)
    (d : ScatterDims s si u) (idx : IVec si w) : AllReal (Host.scatterAdd d x idx upd) := fun i => by
  show IsReal (x i + ∑ j ∈ Finset.univ.filter (fun j => d.resultIdx? j idx = some i), upd j)
  exact (hx i).add (IsReal.sum _ _ fun j _ => hu j)

/-- A matrix product of real operands. -/
theorem allReal_dotGeneral {l : FVec Ideal sl .f32} {r : FVec Ideal sr .f32} (hl : AllReal l) (hr : AllReal r)
    (d : DotDims sl sr so) (prec : Option ContractPrecision) : AllReal (Host.dotGeneral d prec l r) := fun j => by
  show IsReal (FloatOps.dotGeneral (F := Ideal) d prec .single l r j)
  rw [Ideal.dotGeneral_apply]
  exact IsReal.sum _ _ fun k _ => (hl _).mul (hr _)

/-- A count of ones scattered into zeros, plus one, is a positive real at every node. -/
theorem allPos_count_add_one {z o' : FVec Ideal s .f32} {o : FVec Ideal u .f32} (hz : ∀ i, z i = 0) (ho : ∀ j, o j = 1) (ho' : ∀ i, o' i = 1)
    (d : ScatterDims s si u) (idx : IVec si w) : AllPos (addf (Host.scatterAdd d z idx o) o') := fun i => by
  show IsPos ((z i + ∑ j ∈ Finset.univ.filter (fun j => d.resultIdx? j idx = some i), o j) + o' i)
  rw [hz, ho', Finset.sum_congr rfl (fun j _ => ho j)]
  exact IsPos.add_of_nonneg (nonneg_zero_add_sum_one _) isPos_one

/-- The reciprocal square root of a positive array. -/
theorem allPos_hostRsqrt {x : FVec Ideal s .f32} (hx : AllPos x) : AllPos (Host.rsqrt x) := fun i => (hx i).rsqrt

/-- One over a positive array. -/
theorem allReal_one_hostDivf {o x : FVec Ideal s .f32} (ho : ∀ i, o i = 1) (hx : AllPos x) : AllReal (Host.divf o x) := fun i => by
  show IsReal (Ideal.div (o i) (x i))
  rw [ho]
  exact (hx i).one_div

/-- A nonnegative array plus a positive constant is positive. -/
theorem allPos_add_const {x c : FVec Ideal s .f32} (hx : AllNonneg x) {e : EReal} (he : IsPos e) (hc : ∀ i, c i = e) : AllPos (addf x c) := fun i => by
  show IsPos (x i + c i)
  rw [hc]
  exact IsPos.add_of_nonneg (hx i) he

end Cert.RealValued

end
-- ==== Proof.RefSide.lean ====
/-
  The plain program read as mathematics: a two-layer graph convolution with symmetric degree normalisation and a self
  loop, a rectifier after each layer, the rows named by a query list read back, and a two-layer perceptron head.

  Everything the program computes from the edge list alone is named here first, with the program's own operations:
  the destination column the accumulating scatters read (`DR`), the source and destination columns the gathers read
  after a negative number has had the node count added (`SxR`, `DxR`), the query column (`QxR`), and the factor
  s(n) = 1 / sqrt(deg n) where deg n counts the edges that land at n plus one for the self loop (`sR`).

  Three facts follow. The factor is a nonnegative real number at every node (`sR_good`): a count plus one is a positive
  real and so is its reciprocal square root. An edge whose destination number is the row n is read at row n by the
  gathers (`dx_of_landing`): such a number is not negative, so nothing is added to it, and clamping keeps a row. And the
  program's result at query q is the per-edge form of the network (`ref_out`): each layer is
  max (((0 + Σ_{e lands at n} H(src e, c) · (s(src e) · s(dst e))) + (s n · s n) · H n c) + b c) 0 with H the dense
  product of the layer's input and its weights, read stage by stage off the program.
-/
import proofs.«113900_j64527588655724_2_alg».proof.Proof.Gen.ReferenceIdeal.Read
import proofs.«113900_j64527588655724_2_alg».proof.Proof.LibGcnLayer
import proofs.«113900_j64527588655724_2_alg».proof.Proof.LibSegmentSum
import proofs.«113900_j64527588655724_2_alg».proof.Proof.LibSegmentDims
import proofs.«113900_j64527588655724_2_alg».proof.Proof.LibGatherRows
import proofs.«113900_j64527588655724_2_alg».proof.Proof.LibDenseRows
import proofs.«113900_j64527588655724_2_alg».proof.Proof.LibRealHostOps
import Idealize.ShloMosaic.Lib.IdealHost
import Idealize.ShloMosaic.Lib.ValueIdx
import Idealize.ShloMosaic.Lib.ValueLayout
import Idealize.ShloMosaic.Lib.Pipeline.Value

noncomputable section

namespace Cert.RefSide

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-! ## The index columns and the normalising factor, as the reference computes them from the edge list -/

/-- The edge list's first row (the source node of every edge) as a flat array of E words. -/
def srcFlat (a1 : S2x1600000.Idx → BitVec 32) : IVec S1600000 32 :=
  shapeCast _ (extractStridedSlice S1x1600000 ![0, 0] a1 slices_S2x1600000_S1x1600000_0_0) shapeCasts_S1x1600000_S1600000

/-- The edge list's second row (the destination node of every edge) as a flat array of E words. -/
def dstFlat (a1 : S2x1600000.Idx → BitVec 32) : IVec S1600000 32 :=
  shapeCast _ (extractStridedSlice S1x1600000 ![1, 0] a1 slices_S2x1600000_S1x1600000_1_0) shapeCasts_S1x1600000_S1600000

/-- A flat array of E node numbers as a gather reads it: a negative number has the node count added, the others are kept. -/
def wrapE (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The destination numbers as the accumulating scatter reads them: a column of E words, unchanged. -/
def DR (a1 : S2x1600000.Idx → BitVec 32) : IVec ⟨2, ![1600000, 1]⟩ 32 :=
  broadcastInDim S1600000x1 ![0] bcast_S1600000_S1600000x1_0 (dstFlat a1)

/-- The source numbers as the gathers read them: a column of E words, negative numbers wrapped. -/
def SxR (a1 : S2x1600000.Idx → BitVec 32) : IVec ⟨2, ![1600000, 1]⟩ 32 :=
  broadcastInDim S1600000x1 ![0] bcast_S1600000_S1600000x1_0 (wrapE (srcFlat a1))

/-- The destination numbers as the gathers read them: a column of E words, negative numbers wrapped. -/
def DxR (a1 : S2x1600000.Idx → BitVec 32) : IVec ⟨2, ![1600000, 1]⟩ 32 :=
  broadcastInDim S1600000x1 ![0] bcast_S1600000_S1600000x1_0 (wrapE (dstFlat a1))

/-- The query numbers as the last gather reads them: a column of 4096 words, negative numbers wrapped. -/
def QxR (a2 : S4096.Idx → BitVec 32) : IVec ⟨2, ![4096, 1]⟩ 32 :=
  broadcastInDim S4096x1 ![0] bcast_S4096_S4096x1_0
    (select (cmpi .slt a2 (broadcastInDim S4096 ![] bcast_S_S4096 (constantI S_ 32 0#32)))
      (addi a2 (broadcastInDim S4096 ![] bcast_S_S4096 (constantI S_ 32 100000#32))) a2)

/-- The degree of every node counting its self loop: ones scattered into zeros at the destinations, plus one. -/
def degR (a1 : S2x1600000.Idx → BitVec 32) : FVec Ideal S100000 .f32 :=
  addf (Host.scatterAdd scatter_S100000_S1600000x1_S1600000_n_0_0_1
      (broadcastInDim S100000 ![] bcast_S_S100000 (constant (F := Ideal) S_ .f32 0x00000000#32)) (DR a1)
      (broadcastInDim S1600000 ![] bcast_S_S1600000 (constant (F := Ideal) S_ .f32 0x3F800000#32)))
    (broadcastInDim S100000 ![] bcast_S_S100000 (constant (F := Ideal) S_ .f32 0x3F800000#32))

/-- The normalising factor of node n: the reciprocal square root of its degree. -/
def sR (a1 : S2x1600000.Idx → BitVec 32) : Fin 100000 → EReal := fun n => Host.rsqrt (degR a1) (ix1 n)

theorem DR_eq_v7 (a1 : S2x1600000.Idx → BitVec 32) : DR a1 = val_main_v7 (F := Ideal) a1 := rfl
theorem DR_eq_v38 (a1 : S2x1600000.Idx → BitVec 32) : DR a1 = val_main_v38 (F := Ideal) a1 := rfl
theorem DR_eq_v52 (a1 : S2x1600000.Idx → BitVec 32) : DR a1 = val_main_v52 (F := Ideal) a1 := rfl
theorem DR_eq_v83 (a1 : S2x1600000.Idx → BitVec 32) : DR a1 = val_main_v83 (F := Ideal) a1 := rfl
theorem SxR_eq_v17 (a1 : S2x1600000.Idx → BitVec 32) : SxR a1 = val_main_v17 (F := Ideal) a1 := rfl
theorem SxR_eq_v32 (a1 : S2x1600000.Idx → BitVec 32) : SxR a1 = val_main_v32 (F := Ideal) a1 := rfl
theorem SxR_eq_v62 (a1 : S2x1600000.Idx → BitVec 32) : SxR a1 = val_main_v62 (F := Ideal) a1 := rfl
theorem SxR_eq_v77 (a1 : S2x1600000.Idx → BitVec 32) : SxR a1 = val_main_v77 (F := Ideal) a1 := rfl
theorem DxR_eq_v24 (a1 : S2x1600000.Idx → BitVec 32) : DxR a1 = val_main_v24 (F := Ideal) a1 := rfl
theorem DxR_eq_v69 (a1 : S2x1600000.Idx → BitVec 32) : DxR a1 = val_main_v69 (F := Ideal) a1 := rfl
theorem QxR_eq_v99 (a2 : S4096.Idx → BitVec 32) : QxR a2 = val_main_v99 (F := Ideal) a2 := rfl
theorem sR_eq_v11 (a1 : S2x1600000.Idx → BitVec 32) (n : Fin 100000) : sR a1 n = val_main_v11 (F := Ideal) a1 (ix1 n) := rfl
theorem sR_eq_v56 (a1 : S2x1600000.Idx → BitVec 32) (n : Fin 100000) : sR a1 n = val_main_v56 (F := Ideal) a1 (ix1 n) := rfl

/-! ## The factor is a nonnegative real number -/

/-- A count of ones scattered into zeros, plus one, is a positive real, and the reciprocal square root of a positive real
    is a positive real: so the factor is nonnegative and not +∞ at every node, whatever the edge list holds. -/
theorem sR_good (a1 : S2x1600000.Idx → BitVec 32) (n : Fin 100000) : 0 ≤ sR a1 n ∧ sR a1 n ≠ ⊤ := by
  have hpos : Cert.RealValued.AllPos (Host.rsqrt (degR a1)) :=
    Cert.RealValued.allPos_hostRsqrt
      (Cert.RealValued.allPos_count_add_one (fun _ => Ideal.ofBits_zero_f32) (fun _ => Ideal.ofBits_one_f32)
        (fun _ => Ideal.ofBits_one_f32) scatter_S100000_S1600000x1_S1600000_n_0_0_1 (DR a1))
  obtain ⟨r, hr, e⟩ := hpos (ix1 n)
  have e' : sR a1 n = (r : EReal) := e
  rw [e']
  exact ⟨EReal.coe_nonneg.mpr hr.le, EReal.coe_ne_top r⟩

/-! ## A destination that is a row is read as that row -/

/-- A word that is not negative when read signed is kept by the wrap: the comparison with zero fails. -/
theorem wrap_keep (d k : BitVec 32) (h : 0 ≤ d.toInt) :
    Scalar.select (IntOp.cmpi .slt d 0#32) (IntOp.addi d k) d = d := by
  have hs : d.slt 0#32 = false := by
    show decide (d.toInt < (0#32 : BitVec 32).toInt) = false
    rw [BitVec.toInt_zero]
    exact decide_eq_false (by omega)
  unfold Scalar.select IntOp.cmpi
  simp only [hs]
  rfl

/-- The wrapped destination column at edge i is the wrap of the plain destination column at edge i. -/
theorem DxR_apply (a1 : S2x1600000.Idx → BitVec 32) (i : Fin 1600000) :
    DxR a1 (ix2 i (0 : Fin 1))
      = Scalar.select (IntOp.cmpi .slt (DR a1 (ix2 i (0 : Fin 1))) 0#32)
          (IntOp.addi (DR a1 (ix2 i (0 : Fin 1))) 100000#32) (DR a1 (ix2 i (0 : Fin 1))) := rfl

/-- An edge whose destination number is the row n is read at row n by the gathers: the number is not negative, so the
    wrap keeps it, and clamping keeps a row. -/
theorem dx_of_landing (a1 : S2x1600000.Idx → BitVec 32) (i : Fin 1600000) (n : Fin 100000)
    (h : (DR a1 (ix2 i (0 : Fin 1))).toInt = (n.val : Int)) :
    Cert.GcnLayer.rowOf (by decide : 0 < 100000) (DxR a1) i = n := by
  refine Cert.GcnLayer.rowOf_of_toInt _ (DxR a1) i n ?_
  rw [DxR_apply, wrap_keep _ _ (by rw [h]; exact Int.natCast_nonneg _), h]

/-! ## The program's gathers and scatters at an index -/

theorem hN : 0 < 100000 := by decide

/-- A row gather of a [100000, 128] array at a column of E row numbers. -/
theorem gatherRows128 (x : FVec Ideal S100000x128 .f32) (idx : IVec S1600000x1 32) (e : Fin 1600000) (c : Fin 128) :
    Host.gather gather_S100000x128_S1600000x1_S1600000x128_1_0_n_n_0_1_1128 x idx (ix2 e c)
      = x (ix2 (Cert.GcnLayer.rowOf hN idx e) c) :=
  Cert.GatherRows.gather_rows_apply hN gather_S100000x128_S1600000x1_S1600000x128_1_0_n_n_0_1_1128_wf x idx e c

/-- A row gather of a [100000, 32] array at a column of E row numbers. -/
theorem gatherRows32 (x : FVec Ideal S100000x32 .f32) (idx : IVec S1600000x1 32) (e : Fin 1600000) (c : Fin 32) :
    Host.gather gather_S100000x32_S1600000x1_S1600000x32_1_0_n_n_0_1_132 x idx (ix2 e c)
      = x (ix2 (Cert.GcnLayer.rowOf hN idx e) c) :=
  Cert.GatherRows.gather_rows_apply hN gather_S100000x32_S1600000x1_S1600000x32_1_0_n_n_0_1_132_wf x idx e c

/-- A row gather of a [100000, 32] array at a column of 4096 row numbers. -/
theorem gatherRowsQ (x : FVec Ideal S100000x32 .f32) (idx : IVec S4096x1 32) (q : Fin 4096) (c : Fin 32) :
    Host.gather gather_S100000x32_S4096x1_S4096x32_1_0_n_n_0_1_132 x idx (ix2 q c)
      = x (ix2 (Cert.GatherRows.clampRow 100000 hN (idx (ix2 q (0 : Fin 1)))) c) :=
  Cert.GatherRows.gather_rows_apply hN gather_S100000x32_S4096x1_S4096x32_1_0_n_n_0_1_132_wf x idx q c

/-- An element gather of a [100000] array at a column of E row numbers. -/
theorem gatherVec (x : FVec Ideal S100000 .f32) (idx : IVec S1600000x1 32) (e : Fin 1600000) :
    Host.gather gather_S100000_S1600000x1_S1600000_n_0_n_n_0_1_1 x idx (ix1 e)
      = x (ix1 (Cert.GcnLayer.rowOf hN idx e)) :=
  Cert.GatherRows.gather_vec_apply hN gather_S100000_S1600000x1_S1600000_n_0_n_n_0_1_1_wf x idx e

/-- An accumulating scatter of E rows of width 128 into a [100000, 128] array. -/
theorem scatterRows128 (x : FVec Ideal S100000x128 .f32) (idx : IVec S1600000x1 32) (upd : FVec Ideal S1600000x128 .f32)
    (n : Fin 100000) (c : Fin 128) :
    Host.scatterAdd scatter_S100000x128_S1600000x1_S1600000x128_1_0_0_1 x idx upd (ix2 n c)
      = x (ix2 n c) + ∑ i ∈ Cert.GcnLayer.landing idx n, upd (ix2 i c) :=
  Cert.SegmentSum.scatterAdd_rows_apply
    (Cert.SegmentDims.rowsDims 100000 128 1600000 scatter_S100000x128_S1600000x1_S1600000x128_1_0_0_1_wf)
    (Cert.SegmentDims.rows_start0 _) (Cert.SegmentDims.rows_start1 _) (Cert.SegmentDims.rows_window0 _)
    (Cert.SegmentDims.rows_window1 _) x idx upd n c

/-- An accumulating scatter of E rows of width 32 into a [100000, 32] array. -/
theorem scatterRows32 (x : FVec Ideal S100000x32 .f32) (idx : IVec S1600000x1 32) (upd : FVec Ideal S1600000x32 .f32)
    (n : Fin 100000) (c : Fin 32) :
    Host.scatterAdd scatter_S100000x32_S1600000x1_S1600000x32_1_0_0_1 x idx upd (ix2 n c)
      = x (ix2 n c) + ∑ i ∈ Cert.GcnLayer.landing idx n, upd (ix2 i c) :=
  Cert.SegmentSum.scatterAdd_rows_apply
    (Cert.SegmentDims.rowsDims 100000 32 1600000 scatter_S100000x32_S1600000x1_S1600000x32_1_0_0_1_wf)
    (Cert.SegmentDims.rows_start0 _) (Cert.SegmentDims.rows_start1 _) (Cert.SegmentDims.rows_window0 _)
    (Cert.SegmentDims.rows_window1 _) x idx upd n c

/-- The contraction [100000, 128] · [128, 128] at (r, c). -/
theorem dotX (A : FVec Ideal S100000x128 .f32) (W : FVec Ideal S128x128 .f32) (r : Fin 100000) (c : Fin 128) :
    Host.dotGeneral dot_S100000x128_S128x128_S100000x128_1_0_0_1_n_n none A W (ix2 r c) = ∑ k : Fin 128, A (ix2 r k) * W (ix2 k c) :=
  Cert.DenseRows.dotGeneral_plain_apply dot_S100000x128_S128x128_S100000x128_1_0_0_1_n_n rfl rfl rfl rfl
    (fun j k => lhs_main_v4_0 j k) (fun j k => rhs_main_v4_1 j k) A W r c

/-- The contraction [100000, 128] · [128, 32] at (r, c). -/
theorem dotH (A : FVec Ideal S100000x128 .f32) (W : FVec Ideal S128x32 .f32) (r : Fin 100000) (c : Fin 32) :
    Host.dotGeneral dot_S100000x128_S128x32_S100000x32_1_0_0_1_n_n none A W (ix2 r c) = ∑ k : Fin 128, A (ix2 r k) * W (ix2 k c) :=
  Cert.DenseRows.dotGeneral_plain_apply dot_S100000x128_S128x32_S100000x32_1_0_0_1_n_n rfl rfl rfl rfl
    (fun j k => lhs_main_v49_0 j k) (fun j k => rhs_main_v49_1 j k) A W r c

/-- The contraction [4096, 32] · [32, 64] at (r, c). -/
theorem dotQ1 (A : FVec Ideal S4096x32 .f32) (W : FVec Ideal S32x64 .f32) (r : Fin 4096) (c : Fin 64) :
    Host.dotGeneral dot_S4096x32_S32x64_S4096x64_1_0_0_1_n_n none A W (ix2 r c) = ∑ k : Fin 32, A (ix2 r k) * W (ix2 k c) :=
  Cert.DenseRows.dotGeneral_plain_apply dot_S4096x32_S32x64_S4096x64_1_0_0_1_n_n rfl rfl rfl rfl
    (fun j k => lhs_main_v101_0 j k) (fun j k => rhs_main_v101_1 j k) A W r c

/-- The contraction [4096, 64] · [64, 1] at (r, c). -/
theorem dotQ2 (A : FVec Ideal S4096x64 .f32) (W : FVec Ideal S64x1 .f32) (r : Fin 4096) (c : Fin 1) :
    Host.dotGeneral dot_S4096x64_S64x1_S4096x1_1_0_0_1_n_n none A W (ix2 r c) = ∑ k : Fin 64, A (ix2 r k) * W (ix2 k c) :=
  Cert.DenseRows.dotGeneral_plain_apply dot_S4096x64_S64x1_S4096x1_1_0_0_1_n_n rfl rfl rfl rfl
    (fun j k => lhs_main_v106_0 j k) (fun j k => rhs_main_v106_1 j k) A W r c

/-! ## One layer of width 128, over variables -/

/-- The update of edge i at column c: the source row of H times the two end factors of the edge. -/
theorem edge128 (H : FVec Ideal S100000x128 .f32) (s : FVec Ideal S100000 .f32) (Sx Dx : IVec S1600000x1 32)
    (i : Fin 1600000) (c : Fin 128) :
    mulf (Host.gather gather_S100000x128_S1600000x1_S1600000x128_1_0_n_n_0_1_1128 H Sx)
        (broadcastInDim S1600000x128 ![0, 1] bcast_S1600000x1_S1600000x128_0_1
          (broadcastInDim S1600000x1 ![0] bcast_S1600000_S1600000x1_0
            (mulf (Host.gather gather_S100000_S1600000x1_S1600000_n_0_n_n_0_1_1 s Sx)
              (Host.gather gather_S100000_S1600000x1_S1600000_n_0_n_n_0_1_1 s Dx)))) (ix2 i c)
      = H (ix2 (Cert.GcnLayer.rowOf hN Sx i) c)
          * (s (ix1 (Cert.GcnLayer.rowOf hN Sx i)) * s (ix1 (Cert.GcnLayer.rowOf hN Dx i))) := by
  rw [mulf_apply, gatherRows128, Cert.DenseRows.broadcastInDim_a1_ab_apply, Cert.DenseRows.broadcastInDim_a_a1_apply,
    mulf_apply, gatherVec, gatherVec]

/-- The self-loop factor at (n, c): the square of the factor of node n. -/
theorem self128 (s : FVec Ideal S100000 .f32) (n : Fin 100000) (c : Fin 128) :
    broadcastInDim S100000x128 ![0, 1] bcast_S100000x1_S100000x128_0_1
        (broadcastInDim S100000x1 ![0] bcast_S100000_S100000x1_0 (mulf s s)) (ix2 n c)
      = s (ix1 n) * s (ix1 n) := by
  rw [Cert.DenseRows.broadcastInDim_a1_ab_apply, Cert.DenseRows.broadcastInDim_a_a1_apply, mulf_apply]

/-- One layer as the program spells it, at (n, c): the per-edge form over the rows of H, the factor s and the bias b.
    z and z' are the two zero arrays of the program (the scatter's operand and the rectifier's comparand). -/
theorem layerOps128 (H : FVec Ideal S100000x128 .f32) (s : FVec Ideal S100000 .f32) (Sx Dx D : IVec S1600000x1 32)
    (b : FVec Ideal S128 .f32) (z z' : FVec Ideal S100000x128 .f32) (hz : ∀ j, z j = 0) (hz' : ∀ j, z' j = 0)
    (n : Fin 100000) (c : Fin 128) :
    maximumf
        (addf
          (addf
            (Host.scatterAdd scatter_S100000x128_S1600000x1_S1600000x128_1_0_0_1 z D
              (mulf (Host.gather gather_S100000x128_S1600000x1_S1600000x128_1_0_n_n_0_1_1128 H Sx)
                (broadcastInDim S1600000x128 ![0, 1] bcast_S1600000x1_S1600000x128_0_1
                  (broadcastInDim S1600000x1 ![0] bcast_S1600000_S1600000x1_0
                    (mulf (Host.gather gather_S100000_S1600000x1_S1600000_n_0_n_n_0_1_1 s Sx)
                      (Host.gather gather_S100000_S1600000x1_S1600000_n_0_n_n_0_1_1 s Dx))))))
            (mulf
              (broadcastInDim S100000x128 ![0, 1] bcast_S100000x1_S100000x128_0_1
                (broadcastInDim S100000x1 ![0] bcast_S100000_S100000x1_0 (mulf s s))) H))
          (broadcastInDim S100000x128 ![0, 1] bcast_S1x128_S100000x128_0_1
            (broadcastInDim S1x128 ![1] bcast_S128_S1x128_1 b)))
        z' (ix2 n c)
      = Cert.GcnLayer.scaledPerEdge hN (fun n => s (ix1 n)) Sx Dx D (fun n c => H (ix2 n c)) (fun c => b (ix1 c)) n c := by
  unfold Cert.GcnLayer.scaledPerEdge
  rw [maximumf_apply, addf_apply, addf_apply, mulf_apply, scatterRows128, hz, hz', self128,
    Cert.DenseRows.rowBias_inDim_apply, Finset.sum_congr rfl (fun i _ => edge128 H s Sx Dx i c)]

/-! ## One layer of width 32, over variables -/

/-- The update of edge i at column c: the source row of H times the two end factors of the edge. -/
theorem edge32 (H : FVec Ideal S100000x32 .f32) (s : FVec Ideal S100000 .f32) (Sx Dx : IVec S1600000x1 32)
    (i : Fin 1600000) (c : Fin 32) :
    mulf (Host.gather gather_S100000x32_S1600000x1_S1600000x32_1_0_n_n_0_1_132 H Sx)
        (broadcastInDim S1600000x32 ![0, 1] bcast_S1600000x1_S1600000x32_0_1
          (broadcastInDim S1600000x1 ![0] bcast_S1600000_S1600000x1_0
            (mulf (Host.gather gather_S100000_S1600000x1_S1600000_n_0_n_n_0_1_1 s Sx)
              (Host.gather gather_S100000_S1600000x1_S1600000_n_0_n_n_0_1_1 s Dx)))) (ix2 i c)
      = H (ix2 (Cert.GcnLayer.rowOf hN Sx i) c)
          * (s (ix1 (Cert.GcnLayer.rowOf hN Sx i)) * s (ix1 (Cert.GcnLayer.rowOf hN Dx i))) := by
  rw [mulf_apply, gatherRows32, Cert.DenseRows.broadcastInDim_a1_ab_apply, Cert.DenseRows.broadcastInDim_a_a1_apply,
    mulf_apply, gatherVec, gatherVec]

/-- The self-loop factor at (n, c): the square of the factor of node n. -/
theorem self32 (s : FVec Ideal S100000 .f32) (n : Fin 100000) (c : Fin 32) :
    broadcastInDim S100000x32 ![0, 1] bcast_S100000x1_S100000x32_0_1
        (broadcastInDim S100000x1 ![0] bcast_S100000_S100000x1_0 (mulf s s)) (ix2 n c)
      = s (ix1 n) * s (ix1 n) := by
  rw [Cert.DenseRows.broadcastInDim_a1_ab_apply, Cert.DenseRows.broadcastInDim_a_a1_apply, mulf_apply]

/-- One layer as the program spells it, at (n, c): the per-edge form over the rows of H, the factor s and the bias b.
    z and z' are the two zero arrays of the program (the scatter's operand and the rectifier's comparand). -/
theorem layerOps32 (H : FVec Ideal S100000x32 .f32) (s : FVec Ideal S100000 .f32) (Sx Dx D : IVec S1600000x1 32)
    (b : FVec Ideal S32 .f32) (z z' : FVec Ideal S100000x32 .f32) (hz : ∀ j, z j = 0) (hz' : ∀ j, z' j = 0)
    (n : Fin 100000) (c : Fin 32) :
    maximumf
        (addf
          (addf
            (Host.scatterAdd scatter_S100000x32_S1600000x1_S1600000x32_1_0_0_1 z D
              (mulf (Host.gather gather_S100000x32_S1600000x1_S1600000x32_1_0_n_n_0_1_132 H Sx)
                (broadcastInDim S1600000x32 ![0, 1] bcast_S1600000x1_S1600000x32_0_1
                  (broadcastInDim S1600000x1 ![0] bcast_S1600000_S1600000x1_0
                    (mulf (Host.gather gather_S100000_S1600000x1_S1600000_n_0_n_n_0_1_1 s Sx)
                      (Host.gather gather_S100000_S1600000x1_S1600000_n_0_n_n_0_1_1 s Dx))))))
            (mulf
              (broadcastInDim S100000x32 ![0, 1] bcast_S100000x1_S100000x32_0_1
                (broadcastInDim S100000x1 ![0] bcast_S100000_S100000x1_0 (mulf s s))) H))
          (broadcastInDim S100000x32 ![0, 1] bcast_S1x32_S100000x32_0_1
            (broadcastInDim S1x32 ![1] bcast_S32_S1x32_1 b)))
        z' (ix2 n c)
      = Cert.GcnLayer.scaledPerEdge hN (fun n => s (ix1 n)) Sx Dx D (fun n c => H (ix2 n c)) (fun c => b (ix1 c)) n c := by
  unfold Cert.GcnLayer.scaledPerEdge
  rw [maximumf_apply, addf_apply, addf_apply, mulf_apply, scatterRows32, hz, hz', self32,
    Cert.DenseRows.rowBias_inDim_apply, Finset.sum_congr rfl (fun i _ => edge32 H s Sx Dx i c)]

/-! ## The head, over variables -/

/-- A column [4096, 1] squeezed to [4096], at q. -/
theorem squeezeCol (y : FVec Ideal S4096x1 .f32) (q : Fin 4096) :
    shapeCast S4096 y shapeCasts_S4096x1_S4096 (ix1 q) = y (ix2 q (0 : Fin 1)) :=
  shapeCast_apply y shapeCasts_S4096x1_S4096 (ix1 q) (ix2 q (0 : Fin 1))
    (by rewrite [Shape.rowMajor_val_two, Shape.rowMajor_val_one]; show q.val * 1 + 0 = q.val; omega)

/-- The one-element bias laid over the 4096 rows of a column, at (q, 0). -/
theorem biasCol (b : FVec Ideal S1 .f32) (q : Fin 4096) :
    broadcastInDim S4096x1 ![0, 1] bcast_S1x1_S4096x1_0_1 (broadcastInDim S1x1 ![1] bcast_S1_S1x1_1 b) (ix2 q (0 : Fin 1))
      = b (ix1 (0 : Fin 1)) :=
  Cert.DenseRows.rowBias_inDim_apply b bcast_S1_S1x1_1 bcast_S1x1_S4096x1_0_1 q 0

/-- The hidden layer of the head at (q, k): the rectified affine image of the gathered row. -/
theorem hidden (Hq : FVec Ideal S100000x32 .f32) (Qx : IVec S4096x1 32) (W1 : FVec Ideal S32x64 .f32)
    (b1 : FVec Ideal S64 .f32) (z : FVec Ideal S4096x64 .f32) (hz : ∀ j, z j = 0) (q : Fin 4096) (k : Fin 64) :
    maximumf
        (addf (Host.dotGeneral dot_S4096x32_S32x64_S4096x64_1_0_0_1_n_n none
            (Host.gather gather_S100000x32_S4096x1_S4096x32_1_0_n_n_0_1_132 Hq Qx) W1)
          (broadcastInDim S4096x64 ![0, 1] bcast_S1x64_S4096x64_0_1 (broadcastInDim S1x64 ![1] bcast_S64_S1x64_1 b1)))
        z (ix2 q k)
      = max ((∑ j : Fin 32, Hq (ix2 (Cert.GatherRows.clampRow 100000 hN (Qx (ix2 q (0 : Fin 1)))) j) * W1 (ix2 j k))
          + b1 (ix1 k)) 0 := by
  rw [maximumf_apply, addf_apply, dotQ1, hz, Cert.DenseRows.rowBias_inDim_apply,
    Finset.sum_congr rfl (fun j _ => by rw [gatherRowsQ])]

/-- The head as the program spells it, at q. -/
theorem headOps (Hq : FVec Ideal S100000x32 .f32) (Qx : IVec S4096x1 32) (W1 : FVec Ideal S32x64 .f32)
    (b1 : FVec Ideal S64 .f32) (W2 : FVec Ideal S64x1 .f32) (b2 : FVec Ideal S1 .f32) (z : FVec Ideal S4096x64 .f32)
    (hz : ∀ j, z j = 0) (q : Fin 4096) :
    shapeCast S4096
        (addf
          (Host.dotGeneral dot_S4096x64_S64x1_S4096x1_1_0_0_1_n_n none
            (maximumf
              (addf (Host.dotGeneral dot_S4096x32_S32x64_S4096x64_1_0_0_1_n_n none
                  (Host.gather gather_S100000x32_S4096x1_S4096x32_1_0_n_n_0_1_132 Hq Qx) W1)
                (broadcastInDim S4096x64 ![0, 1] bcast_S1x64_S4096x64_0_1 (broadcastInDim S1x64 ![1] bcast_S64_S1x64_1 b1)))
              z) W2)
          (broadcastInDim S4096x1 ![0, 1] bcast_S1x1_S4096x1_0_1 (broadcastInDim S1x1 ![1] bcast_S1_S1x1_1 b2)))
        shapeCasts_S4096x1_S4096 (ix1 q)
      = Cert.GcnLayer.head (fun q j => Hq (ix2 (Cert.GatherRows.clampRow 100000 hN (Qx (ix2 q (0 : Fin 1)))) j))
          (fun j k => W1 (ix2 j k)) (fun k => b1 (ix1 k)) (fun k => W2 (ix2 k (0 : Fin 1))) (b2 (ix1 (0 : Fin 1))) q := by
  unfold Cert.GcnLayer.head
  rw [squeezeCol, addf_apply, dotQ2, biasCol,
    Finset.sum_congr rfl (fun k _ => by rw [hidden Hq Qx W1 b1 z hz q k])]

/-! ## The program's stages are these operations -/

/-- The first layer at (n, c), over the first dense product as the program holds it. -/
theorem layer1_raw (a0 : (⟨S100000x128, .f32⟩ : BufTy).Contents (Elt Ideal)) (a1 : (⟨S2x1600000, .i32⟩ : BufTy).Contents (Elt Ideal)) (a3 : (⟨S128x128, .f32⟩ : BufTy).Contents (Elt Ideal)) (a4 : (⟨S128, .f32⟩ : BufTy).Contents (Elt Ideal)) (n : Fin 100000) (c : Fin 128) :
    val_main_v48 (F := Ideal) a0 a1 a3 a4 (ix2 n c)
      = Cert.GcnLayer.scaledPerEdge hN (sR a1) (SxR a1) (DxR a1) (DR a1)
          (fun n c => val_main_v4 (F := Ideal) a0 a3 (ix2 n c)) (fun c => a4 (ix1 c)) n c := by
  unfold val_main_v48 val_main_v47 val_main_v44 val_main_v43 val_main_v42 val_main_v41 val_main_v40 val_main_v39
    val_main_v36 val_main_v35 val_main_v34 val_main_v33 val_main_v26 val_main_v25 val_main_v18 val_main_v46 val_main_v45
  exact layerOps128 (val_main_v4 (F := Ideal) a0 a3) (val_main_v11 (F := Ideal) a1) (SxR a1) (DxR a1) (DR a1) a4
    (val_main_v37 (F := Ideal)) (val_main_call0_v0 (F := Ideal)) (fun _ => Ideal.ofBits_zero_f32)
    (fun _ => Ideal.ofBits_zero_f32) n c

/-- The first layer at (n, c): the per-edge form over the dense product of the features and the first weights. -/
theorem layer1 (a0 : (⟨S100000x128, .f32⟩ : BufTy).Contents (Elt Ideal)) (a1 : (⟨S2x1600000, .i32⟩ : BufTy).Contents (Elt Ideal)) (a3 : (⟨S128x128, .f32⟩ : BufTy).Contents (Elt Ideal)) (a4 : (⟨S128, .f32⟩ : BufTy).Contents (Elt Ideal)) (n : Fin 100000) (c : Fin 128) :
    val_main_v48 (F := Ideal) a0 a1 a3 a4 (ix2 n c)
      = Cert.GcnLayer.scaledPerEdge hN (sR a1) (SxR a1) (DxR a1) (DR a1)
          (Cert.GcnLayer.dense (fun n k => a0 (ix2 n k)) (fun k c => a3 (ix2 k c))) (fun c => a4 (ix1 c)) n c := by
  have hH : (fun n c => val_main_v4 (F := Ideal) a0 a3 (ix2 n c))
      = Cert.GcnLayer.dense (fun n k => a0 (ix2 n k)) (fun k c => a3 (ix2 k c)) := by
    funext n c
    unfold val_main_v4
    rw [dotX]
    rfl
  rw [layer1_raw, hH]

/-- The second layer at (n, c), over the second dense product as the program holds it. -/
theorem layer2_raw (a0 : (⟨S100000x128, .f32⟩ : BufTy).Contents (Elt Ideal)) (a1 : (⟨S2x1600000, .i32⟩ : BufTy).Contents (Elt Ideal)) (a3 : (⟨S128x128, .f32⟩ : BufTy).Contents (Elt Ideal)) (a4 : (⟨S128, .f32⟩ : BufTy).Contents (Elt Ideal)) (a5 : (⟨S128x32, .f32⟩ : BufTy).Contents (Elt Ideal)) (a6 : (⟨S32, .f32⟩ : BufTy).Contents (Elt Ideal)) (n : Fin 100000) (c : Fin 32) :
    val_main_v93 (F := Ideal) a0 a1 a3 a4 a5 a6 (ix2 n c)
      = Cert.GcnLayer.scaledPerEdge hN (sR a1) (SxR a1) (DxR a1) (DR a1)
          (fun n c => val_main_v49 (F := Ideal) a0 a1 a3 a4 a5 (ix2 n c)) (fun c => a6 (ix1 c)) n c := by
  unfold val_main_v93 val_main_v92 val_main_v89 val_main_v88 val_main_v87 val_main_v86 val_main_v85 val_main_v84
    val_main_v81 val_main_v80 val_main_v79 val_main_v78 val_main_v71 val_main_v70 val_main_v63 val_main_v91 val_main_v90
  exact layerOps32 (val_main_v49 (F := Ideal) a0 a1 a3 a4 a5) (val_main_v56 (F := Ideal) a1) (SxR a1) (DxR a1) (DR a1) a6
    (val_main_v82 (F := Ideal)) (val_main_call1_v0 (F := Ideal)) (fun _ => Ideal.ofBits_zero_f32)
    (fun _ => Ideal.ofBits_zero_f32) n c

/-- The second layer at (n, c): the per-edge form over the dense product of the first layer and the second weights. -/
theorem layer2 (a0 : (⟨S100000x128, .f32⟩ : BufTy).Contents (Elt Ideal)) (a1 : (⟨S2x1600000, .i32⟩ : BufTy).Contents (Elt Ideal)) (a3 : (⟨S128x128, .f32⟩ : BufTy).Contents (Elt Ideal)) (a4 : (⟨S128, .f32⟩ : BufTy).Contents (Elt Ideal)) (a5 : (⟨S128x32, .f32⟩ : BufTy).Contents (Elt Ideal)) (a6 : (⟨S32, .f32⟩ : BufTy).Contents (Elt Ideal)) (n : Fin 100000) (c : Fin 32) :
    val_main_v93 (F := Ideal) a0 a1 a3 a4 a5 a6 (ix2 n c)
      = Cert.GcnLayer.scaledPerEdge hN (sR a1) (SxR a1) (DxR a1) (DR a1)
          (Cert.GcnLayer.dense
            (Cert.GcnLayer.scaledPerEdge hN (sR a1) (SxR a1) (DxR a1) (DR a1)
              (Cert.GcnLayer.dense (fun n k => a0 (ix2 n k)) (fun k c => a3 (ix2 k c))) (fun c => a4 (ix1 c)))
            (fun k c => a5 (ix2 k c))) (fun c => a6 (ix1 c)) n c := by
  have hH : (fun n c => val_main_v49 (F := Ideal) a0 a1 a3 a4 a5 (ix2 n c))
      = Cert.GcnLayer.dense
          (Cert.GcnLayer.scaledPerEdge hN (sR a1) (SxR a1) (DxR a1) (DR a1)
            (Cert.GcnLayer.dense (fun n k => a0 (ix2 n k)) (fun k c => a3 (ix2 k c))) (fun c => a4 (ix1 c)))
          (fun k c => a5 (ix2 k c)) := by
    funext n c
    unfold val_main_v49
    rw [dotH]
    exact Finset.sum_congr rfl fun k _ => by rw [layer1]
  rw [layer2_raw, hH]

/-- The head at q, over the second layer as the program holds it. -/
theorem head_raw (a0 : (⟨S100000x128, .f32⟩ : BufTy).Contents (Elt Ideal)) (a1 : (⟨S2x1600000, .i32⟩ : BufTy).Contents (Elt Ideal)) (a2 : (⟨S4096, .i32⟩ : BufTy).Contents (Elt Ideal)) (a3 : (⟨S128x128, .f32⟩ : BufTy).Contents (Elt Ideal)) (a4 : (⟨S128, .f32⟩ : BufTy).Contents (Elt Ideal)) (a5 : (⟨S128x32, .f32⟩ : BufTy).Contents (Elt Ideal)) (a6 : (⟨S32, .f32⟩ : BufTy).Contents (Elt Ideal)) (a7 : (⟨S32x64, .f32⟩ : BufTy).Contents (Elt Ideal)) (a8 : (⟨S64, .f32⟩ : BufTy).Contents (Elt Ideal)) (a9 : (⟨S64x1, .f32⟩ : BufTy).Contents (Elt Ideal)) (a10 : (⟨S1, .f32⟩ : BufTy).Contents (Elt Ideal)) (q : Fin 4096) :
    val_main_v110 (F := Ideal) a0 a1 a2 a3 a4 a5 a6 a7 a8 a9 a10 (ix1 q)
      = Cert.GcnLayer.head
          (fun q j => val_main_v93 (F := Ideal) a0 a1 a3 a4 a5 a6
            (ix2 (Cert.GatherRows.clampRow 100000 hN (QxR a2 (ix2 q (0 : Fin 1)))) j))
          (fun j k => a7 (ix2 j k)) (fun k => a8 (ix1 k)) (fun k => a9 (ix2 k (0 : Fin 1))) (a10 (ix1 (0 : Fin 1))) q := by
  unfold val_main_v110 val_main_v109 val_main_v108 val_main_v107 val_main_v106 val_main_v105 val_main_v104 val_main_v103
    val_main_v102 val_main_v101 val_main_v100
  exact headOps (val_main_v93 (F := Ideal) a0 a1 a3 a4 a5 a6) (QxR a2) a7 a8 a9 a10 (val_main_call2_v0 (F := Ideal))
    (fun _ => Ideal.ofBits_zero_f32) q

/-! ## The program's result -/

/-- The last stage at q is the per-edge network on the argument arrays. -/
theorem out_apply (a0 : (⟨S100000x128, .f32⟩ : BufTy).Contents (Elt Ideal)) (a1 : (⟨S2x1600000, .i32⟩ : BufTy).Contents (Elt Ideal)) (a2 : (⟨S4096, .i32⟩ : BufTy).Contents (Elt Ideal)) (a3 : (⟨S128x128, .f32⟩ : BufTy).Contents (Elt Ideal)) (a4 : (⟨S128, .f32⟩ : BufTy).Contents (Elt Ideal)) (a5 : (⟨S128x32, .f32⟩ : BufTy).Contents (Elt Ideal)) (a6 : (⟨S32, .f32⟩ : BufTy).Contents (Elt Ideal)) (a7 : (⟨S32x64, .f32⟩ : BufTy).Contents (Elt Ideal)) (a8 : (⟨S64, .f32⟩ : BufTy).Contents (Elt Ideal)) (a9 : (⟨S64x1, .f32⟩ : BufTy).Contents (Elt Ideal)) (a10 : (⟨S1, .f32⟩ : BufTy).Contents (Elt Ideal)) (q : Fin 4096) :
    val_main_v110 (F := Ideal) a0 a1 a2 a3 a4 a5 a6 a7 a8 a9 a10 (ix1 q)
      = Cert.GcnLayer.netPerEdge (A := 32) hN (sR a1) (SxR a1) (DxR a1) (DR a1) (QxR a2)
          (fun n k => a0 (ix2 n k)) (fun k c => a3 (ix2 k c)) (fun c => a4 (ix1 c)) (fun k c => a5 (ix2 k c))
          (fun c => a6 (ix1 c)) (fun j k => a7 (ix2 j k)) (fun k => a8 (ix1 k)) (fun k => a9 (ix2 k (0 : Fin 1)))
          (a10 (ix1 (0 : Fin 1))) q := by
  have hQ : (fun (q : Fin 4096) (j : Fin 32) => val_main_v93 (F := Ideal) a0 a1 a3 a4 a5 a6
        (ix2 (Cert.GatherRows.clampRow 100000 hN (QxR a2 (ix2 q (0 : Fin 1)))) j))
      = fun q j => Cert.GcnLayer.scaledPerEdge hN (sR a1) (SxR a1) (DxR a1) (DR a1)
          (Cert.GcnLayer.dense
            (Cert.GcnLayer.scaledPerEdge hN (sR a1) (SxR a1) (DxR a1) (DR a1)
              (Cert.GcnLayer.dense (fun n k => a0 (ix2 n k)) (fun k c => a3 (ix2 k c))) (fun c => a4 (ix1 c)))
            (fun k c => a5 (ix2 k c))) (fun c => a6 (ix1 c))
          (Cert.GatherRows.clampRow 100000 hN (QxR a2 (ix2 q (0 : Fin 1)))) j :=
    funext fun q => funext fun j => layer2 a0 a1 a3 a4 a5 a6 _ j
  unfold Cert.GcnLayer.netPerEdge
  rw [head_raw, hQ]

/-- THE PLAIN PROGRAM'S RESULT at query q: the per-edge network on the argument arrays as the run finds them. -/
theorem ref_out (m : (ℓ : Loc nD τ sig) → Buf (Elt Ideal) ℓ) (d : Dev nD) (q : Fin 4096) :
    Cert.ReferenceIdeal.Value.res_main_v110 (F := Ideal) m d (ix1 q)
      = Cert.GcnLayer.netPerEdge (A := 32) (by decide : 0 < 100000)
          (sR (m ((d.tc : Thread nD τ).loc main_arg1))) (SxR (m ((d.tc : Thread nD τ).loc main_arg1))) (DxR (m ((d.tc : Thread nD τ).loc main_arg1))) (DR (m ((d.tc : Thread nD τ).loc main_arg1))) (QxR (m ((d.tc : Thread nD τ).loc main_arg2)))
          (fun n k => (m ((d.tc : Thread nD τ).loc main_arg0)) (ix2 n k)) (fun k c => (m ((d.tc : Thread nD τ).loc main_arg3)) (ix2 k c)) (fun c => (m ((d.tc : Thread nD τ).loc main_arg4)) (ix1 c))
          (fun k c => (m ((d.tc : Thread nD τ).loc main_arg5)) (ix2 k c)) (fun c => (m ((d.tc : Thread nD τ).loc main_arg6)) (ix1 c)) (fun j k => (m ((d.tc : Thread nD τ).loc main_arg7)) (ix2 j k))
          (fun k => (m ((d.tc : Thread nD τ).loc main_arg8)) (ix1 k)) (fun k => (m ((d.tc : Thread nD τ).loc main_arg9)) (ix2 k (0 : Fin 1))) ((m ((d.tc : Thread nD τ).loc main_arg10)) (ix1 (0 : Fin 1))) q := by
  rw [val_main_v110_eq]
  exact out_apply _ _ _ _ _ _ _ _ _ _ _ q

end Cert.RefSide

end
-- ==== Proof.SameColumns.lean ====
/-
  The two programs compute their index columns and the normalising factor from the edge list and the query list with
  the same operations in the same order: the destination row of the edge list laid out as a column; the source row with
  the node count added to a negative number, as a column; the query list wrapped the same way, as a column; and one over
  the square root of (the number of edges landing at a node, plus one). Each program spells the shapes, the side
  conditions and the dimension records in its own namespace, with the same contents, so the kernel's terms and the
  reference's are the same terms once the names are unfolded.
-/
import proofs.«113900_j64527588655724_2_alg».proof.Proof.KerBoundary
import proofs.«113900_j64527588655724_2_alg».proof.Proof.RefSide

noncomputable section

namespace Cert.SameColumns

open Idealize.ShloMosaic Idealize.ShloMosaic.ValueIdx

/-- The destination column the accumulating scatters read is the same array in both programs. -/
theorem same_D (a1 : Cert.KerFold.Edges) : Cert.KerFold.DK a1 = Cert.RefSide.DR a1 := rfl

/-- The wrapped source column the gathers read is the same array in both programs. -/
theorem same_Sx (a1 : Cert.KerFold.Edges) : Cert.KerFold.SxK a1 = Cert.RefSide.SxR a1 := rfl

/-- The wrapped query column the last gather reads is the same array in both programs. -/
theorem same_Qx (a2 : Cert.KerFold.Queries) : Cert.KerFold.QxK a2 = Cert.RefSide.QxR a2 := rfl

/-- The normalising factor at node `n` is the same number in both programs. -/
theorem same_s (a1 : Cert.KerFold.Edges) (n : Fin 100000) : Cert.KerFold.dinvK a1 (ix1 n) = Cert.RefSide.sR a1 n := rfl

end Cert.SameColumns

end
-- ==== Proof.LibGcnLayerArrays.lean ====
/-
  One graph-convolution layer as a plain program spells it with whole-array host operations, read at a node n and a
  channel c. It is generic in the sizes and stated over VARIABLE operands, so nothing large is ever unfolded.

  With H : [N, C] the dense output, s : [N] the factor per node, Sx, Dx : [E, 1] the source and destination rows as
  the gathers read them, D : [E, 1] the destination rows as the accumulating scatter reads them, b : [C] the bias and
  z, z' arrays of zeros, the program forms

      maximum ( ( scatter-add z D ( gather H Sx  *  spread ( gather s Sx * gather s Dx ) )
                  +  spread ( s * s ) * H )
                +  spread b )  z'

  (`spread` is a vector laid out as a column and then over the columns, or a row laid down the rows). At (n, c) this is
      max (((0 + Σ_{e lands at n} H(src e, c) · (s(src e) · s(dst e))) + (s n · s n) · H n c) + b c) 0:
  an accumulating scatter is, element by element, the operand plus the sum of the update rows whose number is that row;
  a row gather reads the row its number names, clamped into the rows; the two broadcasts keep the row (or the column)
  coordinate.
-/
import proofs.«113900_j64527588655724_2_alg».proof.Proof.LibSegmentSum
import proofs.«113900_j64527588655724_2_alg».proof.Proof.LibSegmentDims
import proofs.«113900_j64527588655724_2_alg».proof.Proof.LibGatherRows
import proofs.«113900_j64527588655724_2_alg».proof.Proof.LibDenseRows
import proofs.«113900_j64527588655724_2_alg».proof.Proof.LibGcnLayer

noncomputable section

namespace Cert.GcnLayerArrays

open Idealize.ShloMosaic Idealize.ShloMosaic.ValueIdx
open scoped BigOperators

/-- THE PER-EDGE LAYER, AS WHOLE ARRAYS, READ AT `(n, c)`. -/
theorem perEdge_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (hN1 : (⟨1, ![N]⟩ : Shape).BroadcastsInDim ⟨2, ![N, 1]⟩ ![0])
    (hNC : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (H : FVec Ideal ⟨2, ![N, C]⟩ .f32) (s : FVec Ideal ⟨1, ![N]⟩ .f32) (b : FVec Ideal ⟨1, ![C]⟩ .f32)
    (Sx Dx D : IVec ⟨2, ![E, 1]⟩ 32) (z z' : FVec Ideal ⟨2, ![N, C]⟩ .f32) (hz : ∀ j, z j = 0) (hz' : ∀ j, z' j = 0)
    (n : Fin N) (c : Fin C) :
    maximumf
        (addf
          (addf
            (Host.scatterAdd (Cert.SegmentDims.rowsDims N C E wfs) z D
              (mulf (Host.gather (Cert.GatherRows.rowDims N C E wg2) H Sx)
                (broadcastInDim ⟨2, ![E, C]⟩ ![0, 1] hEC (broadcastInDim ⟨2, ![E, 1]⟩ ![0] hE1
                  (mulf (Host.gather (Cert.GatherRows.vecDims N E wg1) s Sx) (Host.gather (Cert.GatherRows.vecDims N E wg1) s Dx))))))
            (mulf (broadcastInDim ⟨2, ![N, C]⟩ ![0, 1] hNC (broadcastInDim ⟨2, ![N, 1]⟩ ![0] hN1 (mulf s s))) H))
          (broadcastInDim ⟨2, ![N, C]⟩ ![0, 1] hb2 (broadcastInDim ⟨2, ![1, C]⟩ ![1] hb1 b)))
        z' (ix2 n c)
      = Cert.GcnLayer.scaledPerEdge hN (fun n => s (ix1 n)) Sx Dx D (fun n c => H (ix2 n c)) (fun c => b (ix1 c)) n c := by
  rw [maximumf_apply, addf_apply, addf_apply, hz',
    Cert.SegmentSum.scatterAdd_rows_apply (Cert.SegmentDims.rowsDims N C E wfs)
      (fun i b idx => Cert.SegmentDims.rows_start0 wfs i b idx) (fun i b idx => Cert.SegmentDims.rows_start1 wfs i b idx)
      (Cert.SegmentDims.rows_window0 wfs) (Cert.SegmentDims.rows_window1 wfs) z D _ n c,
    hz, mulf_apply, Cert.DenseRows.broadcastInDim_a1_ab_apply _ hNC n c, Cert.DenseRows.broadcastInDim_a_a1_apply _ hN1 n (0 : Fin 1),
    mulf_apply, Cert.DenseRows.rowBias_inDim_apply b hb1 hb2 n c]
  unfold Cert.GcnLayer.scaledPerEdge
  congr 4
  refine Finset.sum_congr rfl fun i _ => ?_
  rw [mulf_apply, Cert.GatherRows.gather_rows_apply hN wg2 H Sx i c,
    Cert.DenseRows.broadcastInDim_a1_ab_apply _ hEC i c, Cert.DenseRows.broadcastInDim_a_a1_apply _ hE1 i (0 : Fin 1),
    mulf_apply, Cert.GatherRows.gather_vec_apply hN wg1 s Sx i, Cert.GatherRows.gather_vec_apply hN wg1 s Dx i]
  rfl

end Cert.GcnLayerArrays

end
-- ==== Proof.lean ====
/-
  The proof of `Cert.Claim`: the kernel and its reference compute the same 4096 logits at the ideal values.

  Both programs are two graph-convolution layers with symmetric degree normalisation and a self loop, each followed by
  a rectifier, then a gather of 4096 query rows and a two-layer perceptron head. With s(n) = 1/sqrt(1 + the number of
  edges landing at node n), H = X·W the layer's dense output and b its bias, the reference forms, at node n and
  channel c,
      max (((0 + Σ_{e lands at n} H(src e, c) · (s(src e) · s(dst e))) + (s n · s n) · H(n, c)) + b c) 0,
  while the kernel scales every row of H by its node's factor in one pallas_call, lets the host gather and add up the
  scaled rows, and in a second pallas_call forms
      max (s n · ((0 + Σ_{e lands at n} H(src e, c) · s(src e)) + H(n, c) · s n) + b c) 0
  (for the second layer on a lane-dense layout, four node rows per row of 128 lanes, which is only a relabelling of
  the elements). An edge that lands at n has dst e = n, and s n is a positive real: it is nonnegative and not +∞, and
  such a factor distributes over any finite sum of extended reals, so the two forms agree whatever the inputs hold;
  the precondition is not used. The head is the same sum of products on both sides; a matrix product into a zero
  accumulator is the host's contraction, a change of float format is the identity, and the order of a sum is immaterial.

  The kernel's frames are the generated ones; the reference's frame is its generated run with the result dropped; the
  idealization rewrote nothing, so `preserves` is `True`.
-/
import proofs.«113900_j64527588655724_2_alg».proof.Defs
import proofs.«113900_j64527588655724_2_alg».proof.Proof.Gen.Kernel
import proofs.«113900_j64527588655724_2_alg».proof.Proof.Gen.Kernel.Skeleton
import proofs.«113900_j64527588655724_2_alg».proof.Proof.Gen.Kernel.Launch
import proofs.«113900_j64527588655724_2_alg».proof.Proof.Gen.Kernel.Points
import proofs.«113900_j64527588655724_2_alg».proof.Proof.Gen.Kernel.Frame
import proofs.«113900_j64527588655724_2_alg».proof.Proof.Gen.KernelIdeal
import proofs.«113900_j64527588655724_2_alg».proof.Proof.Gen.KernelIdeal.Skeleton
import proofs.«113900_j64527588655724_2_alg».proof.Proof.Gen.KernelIdeal.Launch
import proofs.«113900_j64527588655724_2_alg».proof.Proof.Gen.KernelIdeal.Points
import proofs.«113900_j64527588655724_2_alg».proof.Proof.Gen.KernelIdeal.Frame
import proofs.«113900_j64527588655724_2_alg».proof.Proof.Gen.ReferenceIdeal
import proofs.«113900_j64527588655724_2_alg».proof.Proof.Gen.ReferenceIdeal.Run
import proofs.«113900_j64527588655724_2_alg».proof.Proof.Gen.ReferenceIdeal.Read
import proofs.«113900_j64527588655724_2_alg».proof.Proof.Gen.Pre_finite_inputs
import proofs.«113900_j64527588655724_2_alg».proof.Proof.KerRun
import proofs.«113900_j64527588655724_2_alg».proof.Proof.KerValue
import proofs.«113900_j64527588655724_2_alg».proof.Proof.KerDenseRegions
import proofs.«113900_j64527588655724_2_alg».proof.Proof.KerCombineRegions
import proofs.«113900_j64527588655724_2_alg».proof.Proof.KerHeadRegion
import proofs.«113900_j64527588655724_2_alg».proof.Proof.RefSide
import proofs.«113900_j64527588655724_2_alg».proof.Proof.SameColumns
import proofs.«113900_j64527588655724_2_alg».proof.Proof.LibGcnLayer
import proofs.«113900_j64527588655724_2_alg».proof.Proof.LibGcnLayerArrays
import Idealize.ShloMosaic.Adequacy
import Idealize.ShloMosaic.Init

set_option maxRecDepth 16384

noncomputable section

namespace Cert.Proof

open Idealize.ShloMosaic Idealize.ShloMosaic.ValueIdx Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The five regions' closed forms, in the shape the walk through the kernel's boundaries takes them. -/
theorem final0 : Cert.KerFold.Final0 := fun V c n k => Cert.KerDense.final0 V c n k
theorem final1 : Cert.KerFold.Final1 := fun V c n k => Cert.KerCombine.final1 V c n k
theorem final2 : Cert.KerFold.Final2 := fun V c n k => Cert.KerDense.final2 V c n k
theorem final3 : Cert.KerFold.Final3 := fun V c r l => Cert.KerCombine.final3 V c r l
theorem final4 : Cert.KerFold.Final4 := fun V c q => Cert.KerHead.final4 V c q

/-- From memories that agree on the arguments, the reference's result array is the kernel's: at every query both are
    the same network, the kernel's layers scaled before and after the neighbourhood sum and the reference's per edge,
    and the two arrangements agree by the layer law. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v110 (F := Ideal) m' c
      = Cert.KernelIdeal.Gen.W11 m ρ c (Proc.devRef .tc Cert.KernelIdeal.main_v59) := by
  funext i
  obtain ⟨q, rfl⟩ : ∃ q : Fin 4096, i = ix1 q := ⟨i 0, eq_ix1 i⟩
  rw [Cert.RefSide.ref_out m' c q, e0, e1, e2, e3, e4, e5, e6, e7, e8, e9, e10]
  refine Eq.trans ?_ (Cert.KerFold.kernel_out m ρ c final0 final1 final2 final3 final4 q).symm
  rw [Cert.SameColumns.same_Sx, Cert.SameColumns.same_D, Cert.SameColumns.same_Qx,
    show Cert.KerFold.sK (m ((c.tc : Thread Cert.KernelIdeal.nD Cert.KernelIdeal.τ).loc Cert.KernelIdeal.main_arg1)) = Cert.RefSide.sR (m ((c.tc : Thread Cert.KernelIdeal.nD Cert.KernelIdeal.τ).loc Cert.KernelIdeal.main_arg1)) from funext fun n => Cert.SameColumns.same_s _ n]
  exact (Cert.GcnLayer.netTwice_eq_netPerEdge (A := 32) Cert.KerFold.hN (Cert.RefSide.sR (m ((c.tc : Thread Cert.KernelIdeal.nD Cert.KernelIdeal.τ).loc Cert.KernelIdeal.main_arg1))) (Cert.RefSide.SxR (m ((c.tc : Thread Cert.KernelIdeal.nD Cert.KernelIdeal.τ).loc Cert.KernelIdeal.main_arg1)))
    (Cert.RefSide.DxR (m ((c.tc : Thread Cert.KernelIdeal.nD Cert.KernelIdeal.τ).loc Cert.KernelIdeal.main_arg1))) (Cert.RefSide.DR (m ((c.tc : Thread Cert.KernelIdeal.nD Cert.KernelIdeal.τ).loc Cert.KernelIdeal.main_arg1))) (Cert.RefSide.QxR (m ((c.tc : Thread Cert.KernelIdeal.nD Cert.KernelIdeal.τ).loc Cert.KernelIdeal.main_arg2))) _ _ _ _ _ _ _ _ _
    (Cert.RefSide.sR_good _) (Cert.RefSide.dx_of_landing _) q).symm

/-- At the ideal values both programs run to the end from memories that agree on the arguments, with the same result. -/
theorem algebraic : Cert.algebraic_KernelIdeal_ReferenceIdeal := by
  intro m ρ m' ρ' _ hagree
  refine ⟨fun c => Cert.KernelIdeal.Gen.W11 m ρ c (Proc.devRef .tc Cert.KernelIdeal.main_v59),
    Cert.KerRun.run_fold (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  exact results_agree m ρ m' c e0 e1 e2 e3 e4 e5 e6 e7 e8 e9 e10

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
